-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S16x128 : Shape := ⟨2, ![16, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S128x128 .f32) (main_arg20 : FVec F S128 .f32) (main_arg21 : FVec F S128x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg21
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S16x128 .f32 := Host.absf main_arg15
  let main_cst_26 : FVec F S_ .f32 := constant S_ .f32 0x7F800000#32
  let main_v70 : FVec F S16x128 .f32 := broadcastInDim S16x128 ![] bcast_S_S16x128 main_cst_26
  let main_v71 : IVec S16x128 1 := cmpf .olt main_v69 main_v70
  let main_c_27 : IVec S_ 1 := constantI S_ 1 1#1
  let main_v72 : IVec S_ 1 := (fun x v => Host.reduce IntOp.andi x v reducesTo_S16x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128 .f32) (main_arg13 : FVec F S128x128 .f32) (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S128 .f32) (main_arg9 : FVec F S16x128 .f32) (main_arg10 : FVec F S128 .f32) (main_arg11 : FVec F S128x128 .f32) (main_arg12 : FVec F S128 .f32) (main_arg13 : FVec F S128x128 .f32) (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S16x128 .f32 := Host.absf main_arg9
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S64x128 .f32) (main_arg6 : FVec F S128 .f32) (main_arg7 : FVec F S128x128 .f32) (main_arg8 : FVec F S128 .f32) (main_arg9 : FVec F S16x128 .f32) (main_arg10 : FVec F S128 .f32) (main_arg11 : FVec F S128x128 .f32) (main_arg12 : FVec F S128 .f32) (main_arg13 : FVec F S128x128 .f32) (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x64 .f32) (main_arg1 : IVec S2x1600000 32) (main_arg2 : FVec F S1600000x16 .f32) (main_arg3 : FVec F S16x64 .f32) (main_arg4 : FVec F S64 .f32) (main_arg5 : FVec F S64x128 .f32) (main_arg6 : FVec F S128 .f32) (main_arg7 : FVec F S128x128 .f32) (main_arg8 : FVec F S128 .f32) (main_arg9 : FVec F S16x128 .f32) (main_arg10 : FVec F S128 .f32) (main_arg11 : FVec F S128x128 .f32) (main_arg12 : FVec F S128 .f32) (main_arg13 : FVec F S128x128 .f32) (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x64 : Shape := ⟨2, ![50000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S16x128 : Shape := ⟨2, ![16, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S4000x16 : Shape := ⟨2, ![4000, 16]⟩
abbrev S4000x64 : Shape := ⟨2, ![4000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1600000x128 : Shape := ⟨2, ![1600000, 128]⟩
abbrev S4000x128 : Shape := ⟨2, ![4000, 128]⟩
abbrev S50000x1 : Shape := ⟨2, ![50000, 1]⟩
abbrev S1x1 : Shape := ⟨2, ![1, 1]⟩
abbrev S50000 : Shape := ⟨1, ![50000]⟩

abbrev nBuf : Space → Nat
  | .hbm => 94
  | .vmem => 54
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x16, .f32⟩
  | .hbm, ⟨3, _⟩ => ⟨S16x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S16x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S16x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S_, .f32⟩
  | .hbm, ⟨39, _⟩ => ⟨S50000x64, .f32⟩
  | .hbm, ⟨40, _⟩ => ⟨S1600000x1, .i32⟩
  | .hbm, ⟨41, _⟩ => ⟨S50000x64, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1x128, .f32⟩
  | .hbm, ⟨55, _⟩ => ⟨S1600000x128, .f32⟩
  | .hbm, ⟨56, _⟩ => ⟨S_, .f32⟩
  | .hbm, ⟨57, _⟩ => ⟨S50000x128, .f32⟩
  | .hbm, ⟨58, _⟩ => ⟨S1600000x1, .i32⟩
  | .hbm, ⟨59, _⟩ => ⟨S50000x128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1x128, .f32⟩
  | .hbm, ⟨73, _⟩ => ⟨S1600000x128, .f32⟩
  | .hbm, ⟨74, _⟩ => ⟨S_, .f32⟩
  | .hbm, ⟨75, _⟩ => ⟨S50000x128, .f32⟩
  | .hbm, ⟨76, _⟩ => ⟨S1600000x1, .i32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S50000x128, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S50000x1, .f32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000, .f32⟩
  | .local _ .vmem, ⟨0, _⟩ => ⟨S4000x16, .f32⟩
  | .local _ .vmem, ⟨1, _⟩ => ⟨S4000x16, .f32⟩
  | .local _ .vmem, ⟨2, _⟩ => ⟨S4000x64, .f32⟩
  | .local _ .vmem, ⟨3, _⟩ => ⟨S4000x64, .f32⟩
  | .local _ .vmem, ⟨4, _⟩ => ⟨S16x64, .f32⟩
  | .local _ .vmem, ⟨5, _⟩ => ⟨S1x64, .f32⟩
  | .local _ .vmem, ⟨6, _⟩ => ⟨S4000x64, .f32⟩
  | .local _ .vmem, ⟨7, _⟩ => ⟨S4000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S4000x16, .f32⟩
  | .local _ .vmem, ⟨19, _⟩ => ⟨S4000x16, .f32⟩
  | .local _ .vmem, ⟨20, _⟩ => ⟨S4000x128, .f32⟩
  | .local _ .vmem, ⟨21, _⟩ => ⟨S4000x128, .f32⟩
  | .local _ .vmem, ⟨22, _⟩ => ⟨S16x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S4000x16, .f32⟩
  | .local _ .vmem, ⟨37, _⟩ => ⟨S4000x16, .f32⟩
  | .local _ .vmem, ⟨38, _⟩ => ⟨S4000x128, .f32⟩
  | .local _ .vmem, ⟨39, _⟩ => ⟨S4000x128, .f32⟩
  | .local _ .vmem, ⟨40, _⟩ => ⟨S16x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  inb_S16x128_S16x128_0_0 : ∀ a, (![0, 0] : Fin 2 → Nat) a + S16x128.size a ≤ S16x128.size a
  h_S16x128 : 0 < S16x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  bcast_S_S50000x128 : S_.BroadcastsInDim S50000x128 (![] : Fin 0 → Fin S50000x128.rank)
  shapeCasts_S5000x128_S5000x128 : S5000x128.ShapeCasts S5000x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  gather_S50000x64_S1600000x1_S1600000x64_1_0_n_n_0_1_164_wf : GatherDims.WF S50000x64 S1600000x1 S1600000x64 [1] [0] [] [0] [] 1 ![1, 64]
  dot_S4000x16_S16x64_S4000x64_1_0_0_1_n_n_wf : DotDims.WF S4000x16 S16x64 S4000x64 [1] [0] [0] [1] [] []
  scatter_S50000x64_S1600000x1_S1600000x64_1_0_0_1_wf : ScatterDims.WF S50000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  dot_S4000x16_S16x128_S4000x128_1_0_0_1_n_n_wf : DotDims.WF S4000x16 S16x128 S4000x128 [1] [0] [0] [1] [] []
  scatter_S50000x128_S1600000x1_S1600000x128_1_0_0_1_wf : ScatterDims.WF S50000x128 S1600000x1 S1600000x128 [1] [0] [0] 1
  dot_S50000x128_S128x1_S50000x1_1_0_0_1_n_n_wf : DotDims.WF S50000x128 S128x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S1600000x16.size a
  hwx0_0 : ∀ i : grid0.Coords, EltTy.bits .f32 = 32 ∨ (Rect.block (s := S1600000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S1600000x64.size a
  hwx0_4 : ∀ i : grid0.Coords, EltTy.bits .f32 = 32 ∨ (Rect.block (s := S1600000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S1600000x16.size a
  hwx2_0 : ∀ i : grid2.Coords, EltTy.bits .f32 = 32 ∨ (Rect.block (s := S1600000x16) S4000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S1600000x128.size a
  hwx2_1 : ∀ i : grid2.Coords, EltTy.bits .f32 = 32 ∨ (Rect.block (s := S1600000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S1600000x128.size a
  hwx2_4 : ∀ i : grid2.Coords, EltTy.bits .f32 = 32 ∨ (Rect.block (s := S1600000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S1600000x16.size a
  hwx4_0 : ∀ i : grid4.Coords, EltTy.bits .f32 = 32 ∨ (Rect.block (s := S1600000x16) S4000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S1600000x128.size a
  hwx4_1 : ∀ i : grid4.Coords, EltTy.bits .f32 = 32 ∨ (Rect.block (s := S1600000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x128.size a ≤ S16x128.size a
  hwx4_2 : ∀ i : grid4.Coords, EltTy.bits .f32 = 32 ∨ (Rect.block (s := S16x128) S16x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S1600000x128.size a
  hwx4_4 : ∀ i : grid4.Coords, EltTy.bits .f32 = 32 ∨ (Rect.block (s := S1600000x128) S4000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

abbrev win0_0 : Pipeline.Window sig grid0 :=
  Pipeline.Window.ofSpec (Memref.whole main_arg2) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v18) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg2) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S16x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v33) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v48) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S16x128 : Shape := ⟨2, ![16, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S50000x128 : Shape := ⟨2, ![50000, 128]⟩
abbrev S1x128 : Shape := ⟨2, ![1, 128]⟩
abbrev S1600000x128 : Shape := ⟨2, ![1600000, 128]⟩
abbrev S50000x1 : Shape := ⟨2, ![50000, 1]⟩
abbrev S1x1 : Shape := ⟨2, ![1, 1]⟩
abbrev S50000 : Shape := ⟨1, ![50000]⟩

abbrev nBuf : Space → Nat
  | .hbm => 148
  | .vmem => 0
  | .smem => 0
  | _ => 0

abbrev hbmTy0_0 (i : Nat) : BufTy := match i % 128 with
  | 0 => ⟨S50000x64, .f32⟩
  | 1 => ⟨S2x1600000, .i32⟩
  | 2 => ⟨S1600000x16, .f32⟩
  | 3 => ⟨S16x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S16x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S16x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x1, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S1600000x64, .f32⟩
  | 37 => ⟨S1600000x64, .f32⟩
  | 38 => ⟨S1x64, .f32⟩
  | 39 => ⟨S1600000x64, .f32⟩
  | 40 => ⟨S1600000x64, .f32⟩
  | 41 => ⟨S_, .f32⟩
  | 42 => ⟨S1600000x64, .f32⟩
  | 43 => ⟨S1600000x64, .f32⟩
  | 44 => ⟨S_, .f32⟩
  | 45 => ⟨S50000x64, .f32⟩
  | 46 => ⟨S1600000x1, .i32⟩
  | 47 => ⟨S50000x64, .f32⟩
  | 48 => ⟨S50000x64, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S1600000x128, .f32⟩
  | 73 => ⟨S1600000x128, .f32⟩
  | 74 => ⟨S1x128, .f32⟩
  | 75 => ⟨S1600000x128, .f32⟩
  | 76 => ⟨S1600000x128, .f32⟩
  | 77 => ⟨S_, .f32⟩
  | 78 => ⟨S1600000x128, .f32⟩
  | 79 => ⟨S1600000x128, .f32⟩
  | 80 => ⟨S_, .f32⟩
  | 81 => ⟨S50000x128, .f32⟩
  | 82 => ⟨S1600000x1, .i32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x128, .f32⟩
  | 109 => ⟨S1600000x128, .f32⟩
  | 110 => ⟨S1x128, .f32⟩
  | 111 => ⟨S1600000x128, .f32⟩
  | 112 => ⟨S1600000x128, .f32⟩
  | 113 => ⟨S_, .f32⟩
  | 114 => ⟨S1600000x128, .f32⟩
  | 115 => ⟨S1600000x128, .f32⟩
  | 116 => ⟨S_, .f32⟩
  | 117 => ⟨S50000x128, .f32⟩
  | 118 => ⟨S1600000x1, .i32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x64, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x1, .f32⟩
  | 8 => ⟨S1x1, .f32⟩
  | 9 => ⟨S50000x1, .f32⟩
  | 10 => ⟨S50000x1, .f32⟩
  | 11 => ⟨S50000x1, .f32⟩
  | 12 => ⟨S50000x1, .f32⟩
  | 13 => ⟨S_, .f32⟩
  | 14 => ⟨S50000x1, .f32⟩
  | 15 => ⟨S50000x1, .f32⟩
  | 16 => ⟨S_, .f32⟩
  | 17 => ⟨S50000x1, .f32⟩
  | 18 => ⟨S50000x1, .f32⟩
  | 19 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call0_cst : Ref sig .tc := ⟨.hbm, 41, rfl⟩
abbrev main_call0_v0 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call1_cst : Ref sig .tc := ⟨.hbm, 53, rfl⟩
abbrev main_call1_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_call2_cst : Ref sig .tc := ⟨.hbm, 60, rfl⟩
abbrev main_call2_v0 : Ref sig .tc := ⟨.hbm, 61, rfl⟩
abbrev main_v30 : Ref sig .tc := ⟨.hbm, 62, rfl⟩
abbrev main_c_1 : Ref sig .tc := ⟨.hbm, 63, rfl⟩
abbrev main_v31 : Ref sig .tc := ⟨.hbm, 64, rfl⟩
abbrev main_v32 : Ref sig .tc := ⟨.hbm, 65, rfl⟩
abbrev main_c_2 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call3_cst : Ref sig .tc := ⟨.hbm, 77, rfl⟩
abbrev main_call3_v0 : Ref sig .tc := ⟨.hbm, 78, rfl⟩
abbrev main_v43 : Ref sig .tc := ⟨.hbm, 79, rfl⟩
abbrev main_cst_3 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call4_cst : Ref sig .tc := ⟨.hbm, 89, rfl⟩
abbrev main_call4_v0 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_call5_cst : Ref sig .tc := ⟨.hbm, 96, rfl⟩
abbrev main_call5_v0 : Ref sig .tc := ⟨.hbm, 97, rfl⟩
abbrev main_v57 : Ref sig .tc := ⟨.hbm, 98, rfl⟩
abbrev main_c_4 : Ref sig .tc := ⟨.hbm, 99, rfl⟩
abbrev main_v58 : Ref sig .tc := ⟨.hbm, 100, rfl⟩
abbrev main_v59 : Ref sig .tc := ⟨.hbm, 101, rfl⟩
abbrev main_c_5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call6_cst : Ref sig .tc := ⟨.hbm, 113, rfl⟩
abbrev main_call6_v0 : Ref sig .tc := ⟨.hbm, 114, rfl⟩
abbrev main_v70 : Ref sig .tc := ⟨.hbm, 115, rfl⟩
abbrev main_cst_6 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call7_cst : Ref sig .tc := ⟨.hbm, 125, rfl⟩
abbrev main_call7_v0 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_call8_cst : Ref sig .tc := ⟨.hbm, 132, rfl⟩
abbrev main_call8_v0 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_7 : Ref sig .tc := ⟨.hbm, 141, rfl⟩
abbrev main_v91 : Ref sig .tc := ⟨.hbm, 142, rfl⟩
abbrev main_v92 : Ref sig .tc := ⟨.hbm, 143, rfl⟩
abbrev main_cst_8 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  gather_S50000x64_S1600000x1_S1600000x64_1_0_n_n_0_1_164_wf : GatherDims.WF S50000x64 S1600000x1 S1600000x64 [1] [0] [] [0] [] 1 ![1, 64]
  dot_S1600000x16_S16x64_S1600000x64_1_0_0_1_n_n_wf : DotDims.WF S1600000x16 S16x64 S1600000x64 [1] [0] [0] [1] [] []
  scatter_S50000x64_S1600000x1_S1600000x64_1_0_0_1_wf : ScatterDims.WF S50000x64 S1600000x1 S1600000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  dot_S1600000x16_S16x128_S1600000x128_1_0_0_1_n_n_wf : DotDims.WF S1600000x16 S16x128 S1600000x128 [1] [0] [0] [1] [] []
  scatter_S50000x128_S1600000x1_S1600000x128_1_0_0_1_wf : ScatterDims.WF S50000x128 S1600000x1 S1600000x128 [1] [0] [0] 1
  dot_S50000x128_S128x1_S50000x1_1_0_0_1_n_n_wf : DotDims.WF S50000x128 S128x1 S50000x1 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run, read whole.  @main is thirteen segments: seven stretches of host operations around six
  pallas_call regions.  The generated frame names the TensorCore's buffer contents at every segment boundary as a fold
  (W0 at launch, W1 after the first host stretch, W2 after region 0's write-backs, … W13 at the return) and shows that
  the last thread state holds every unscoped buffer at W13.  Its own conclusion keeps only the argument arrays; here
  the same launch is concluded with the whole of that fact: after every weakly fair execution, every unscoped buffer
  of every core holds W13's contents.  The result array and the arguments are then read off it by name.
-/
import proofs.«101451_j12455405159096_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer
    of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.RunValue

end
-- ==== Proof.Kept.lean ====
/-
  Which buffers survive which segments of the idealized kernel's @main.  The contents at the thirteen boundaries are a
  fold: an odd boundary applies a stretch of host operations to the previous contents, an even one replaces a region's
  arrays by what its write-backs leave.  A buffer that no operation of a stretch writes is unchanged across the stretch;
  a buffer that is not one of a region's arrays is unchanged across the region, and so is one of its INPUT arrays
  (an input window is only fetched from, never flushed).  The argument arrays are written nowhere, so each holds its
  launch contents at every boundary; the edge endpoints (computed once, before the first region) and each layer's node
  features (a region's output, read again two segments later) keep the value they were given.
-/
import proofs.«101451_j12455405159096_1_alg».proof.Proof.Gen.KernelIdeal.Frame
import Idealize.ShloMosaic.PureOps.Ideal

set_option maxRecDepth 16384

noncomputable section

namespace Cert.KernelIdeal.Kept

open Idealize.ShloMosaic Idealize.ShloMosaic.TcCoe Idealize.SL.Sem
open Cert.KernelIdeal Cert.KernelIdeal.Gen

/-- No operation of the named stretch writes the buffer in question: membership of each operation's written set is
    decided reference by reference. -/
local macro "host_keep" ops:ident : term =>
  `(StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- `main_arg0` is written by no host operation and is no region's output: it holds its launch contents at every boundary up to 3. -/
theorem arg0_at0 : W0 m ρ c (Proc.devRef .tc main_arg0) = m ((c : Thread nD τ).loc main_arg0) := rfl
theorem arg0_at1 : W1 m ρ c (Proc.devRef .tc main_arg0) = m ((c : Thread nD τ).loc main_arg0) :=
  (show W1 m ρ c (Proc.devRef .tc main_arg0) = W0 m ρ c (Proc.devRef .tc main_arg0) from host_keep hostOps0).trans (arg0_at0 m ρ c)
theorem arg0_at2 : W2 m ρ c (Proc.devRef .tc main_arg0) = m ((c : Thread nD τ).loc main_arg0) :=
  (show W2 m ρ c (Proc.devRef .tc main_arg0) = W1 m ρ c (Proc.devRef .tc main_arg0) from W2_of_ne m ρ c main_arg0 (by decide)).trans (arg0_at1 m ρ c)
theorem arg0_at3 : W3 m ρ c (Proc.devRef .tc main_arg0) = m ((c : Thread nD τ).loc main_arg0) :=
  (show W3 m ρ c (Proc.devRef .tc main_arg0) = W2 m ρ c (Proc.devRef .tc main_arg0) from host_keep hostOps1).trans (arg0_at2 m ρ c)
/-- `main_arg2` is written by no host operation and is no region's output: it holds its launch contents at every boundary up to 9. -/
theorem arg2_at0 : W0 m ρ c (Proc.devRef .tc main_arg2) = m ((c : Thread nD τ).loc main_arg2) := rfl
theorem arg2_at1 : W1 m ρ c (Proc.devRef .tc main_arg2) = m ((c : Thread nD τ).loc main_arg2) :=
  (show W1 m ρ c (Proc.devRef .tc main_arg2) = W0 m ρ c (Proc.devRef .tc main_arg2) from host_keep hostOps0).trans (arg2_at0 m ρ c)
theorem arg2_at2 : W2 m ρ c (Proc.devRef .tc main_arg2) = m ((c : Thread nD τ).loc main_arg2) :=
  (show W2 m ρ c (Proc.devRef .tc main_arg2) = W1 m ρ c (Proc.devRef .tc main_arg2) from (W2_arr m ρ c 0).trans (((dat0 (V1 m ρ) c).arrAt_in 0 rfl _).trans (A_eq0 (V1 m ρ) c 0))).trans (arg2_at1 m ρ c)
theorem arg2_at3 : W3 m ρ c (Proc.devRef .tc main_arg2) = m ((c : Thread nD τ).loc main_arg2) :=
  (show W3 m ρ c (Proc.devRef .tc main_arg2) = W2 m ρ c (Proc.devRef .tc main_arg2) from host_keep hostOps1).trans (arg2_at2 m ρ c)
theorem arg2_at4 : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (arg2_at3 m ρ c)
theorem arg2_at5 : W5 m ρ c (Proc.devRef .tc main_arg2) = m ((c : Thread nD τ).loc main_arg2) :=
  (show W5 m ρ c (Proc.devRef .tc main_arg2) = W4 m ρ c (Proc.devRef .tc main_arg2) from host_keep hostOps2).trans (arg2_at4 m ρ c)
theorem arg2_at6 : W6 m ρ c (Proc.devRef .tc main_arg2) = m ((c : Thread nD τ).loc main_arg2) :=
  (show W6 m ρ c (Proc.devRef .tc main_arg2) = W5 m ρ c (Proc.devRef .tc main_arg2) from (W6_arr m ρ c 0).trans (((dat2 (V5 m ρ) c).arrAt_in 0 rfl _).trans (A_eq2 (V5 m ρ) c 0))).trans (arg2_at5 m ρ c)
theorem arg2_at7 : W7 m ρ c (Proc.devRef .tc main_arg2) = m ((c : Thread nD τ).loc main_arg2) :=
  (show W7 m ρ c (Proc.devRef .tc main_arg2) = W6 m ρ c (Proc.devRef .tc main_arg2) from host_keep hostOps3).trans (arg2_at6 m ρ c)
theorem arg2_at8 : W8 m ρ c (Proc.devRef .tc main_arg2) = m ((c : Thread nD τ).loc main_arg2) :=
  (show W8 m ρ c (Proc.devRef .tc main_arg2) = W7 m ρ c (Proc.devRef .tc main_arg2) from W8_of_ne m ρ c main_arg2 (by decide)).trans (arg2_at7 m ρ c)
theorem arg2_at9 : W9 m ρ c (Proc.devRef .tc main_arg2) = m ((c : Thread nD τ).loc main_arg2) :=
  (show W9 m ρ c (Proc.devRef .tc main_arg2) = W8 m ρ c (Proc.devRef .tc main_arg2) from host_keep hostOps4).trans (arg2_at8 m ρ c)
/-- `main_arg3` is written by no host operation and is no region's output: it holds its launch contents at every boundary up to 1. -/
theorem arg3_at0 : W0 m ρ c (Proc.devRef .tc main_arg3) = m ((c : Thread nD τ).loc main_arg3) := rfl
theorem arg3_at1 : W1 m ρ c (Proc.devRef .tc main_arg3) = m ((c : Thread nD τ).loc main_arg3) :=
  (show W1 m ρ c (Proc.devRef .tc main_arg3) = W0 m ρ c (Proc.devRef .tc main_arg3) from host_keep hostOps0).trans (arg3_at0 m ρ c)
/-- `main_arg5` is written by no host operation and is no region's output: it holds its launch contents at every boundary up to 3. -/
theorem arg5_at0 : W0 m ρ c (Proc.devRef .tc main_arg5) = m ((c : Thread nD τ).loc main_arg5) := rfl
theorem arg5_at1 : W1 m ρ c (Proc.devRef .tc main_arg5) = m ((c : Thread nD τ).loc main_arg5) :=
  (show W1 m ρ c (Proc.devRef .tc main_arg5) = W0 m ρ c (Proc.devRef .tc main_arg5) from host_keep hostOps0).trans (arg5_at0 m ρ c)
theorem arg5_at2 : W2 m ρ c (Proc.devRef .tc main_arg5) = m ((c : Thread nD τ).loc main_arg5) :=
  (show W2 m ρ c (Proc.devRef .tc main_arg5) = W1 m ρ c (Proc.devRef .tc main_arg5) from W2_of_ne m ρ c main_arg5 (by decide)).trans (arg5_at1 m ρ c)
theorem arg5_at3 : W3 m ρ c (Proc.devRef .tc main_arg5) = m ((c : Thread nD τ).loc main_arg5) :=
  (show W3 m ρ c (Proc.devRef .tc main_arg5) = W2 m ρ c (Proc.devRef .tc main_arg5) from host_keep hostOps1).trans (arg5_at2 m ρ c)
/-- `main_arg6` is written by no host operation and is no region's output: it holds its launch contents at every boundary up to 2. -/
theorem arg6_at0 : W0 m ρ c (Proc.devRef .tc main_arg6) = m ((c : Thread nD τ).loc main_arg6) := rfl
theorem arg6_at1 : W1 m ρ c (Proc.devRef .tc main_arg6) = m ((c : Thread nD τ).loc main_arg6) :=
  (show W1 m ρ c (Proc.devRef .tc main_arg6) = W0 m ρ c (Proc.devRef .tc main_arg6) from host_keep hostOps0).trans (arg6_at0 m ρ c)
theorem arg6_at2 : W2 m ρ c (Proc.devRef .tc main_arg6) = m ((c : Thread nD τ).loc main_arg6) :=
  (show W2 m ρ c (Proc.devRef .tc main_arg6) = W1 m ρ c (Proc.devRef .tc main_arg6) from W2_of_ne m ρ c main_arg6 (by decide)).trans (arg6_at1 m ρ c)
/-- `main_arg7` is written by no host operation and is no region's output: it holds its launch contents at every boundary up to 3. -/
theorem arg7_at0 : W0 m ρ c (Proc.devRef .tc main_arg7) = m ((c : Thread nD τ).loc main_arg7) := rfl
theorem arg7_at1 : W1 m ρ c (Proc.devRef .tc main_arg7) = m ((c : Thread nD τ).loc main_arg7) :=
  (show W1 m ρ c (Proc.devRef .tc main_arg7) = W0 m ρ c (Proc.devRef .tc main_arg7) from host_keep hostOps0).trans (arg7_at0 m ρ c)
theorem arg7_at2 : W2 m ρ c (Proc.devRef .tc main_arg7) = m ((c : Thread nD τ).loc main_arg7) :=
  (show W2 m ρ c (Proc.devRef .tc main_arg7) = W1 m ρ c (Proc.devRef .tc main_arg7) from W2_of_ne m ρ c main_arg7 (by decide)).trans (arg7_at1 m ρ c)
theorem arg7_at3 : W3 m ρ c (Proc.devRef .tc main_arg7) = m ((c : Thread nD τ).loc main_arg7) :=
  (show W3 m ρ c (Proc.devRef .tc main_arg7) = W2 m ρ c (Proc.devRef .tc main_arg7) from host_keep hostOps1).trans (arg7_at2 m ρ c)
/-- `main_arg8` is written by no host operation and is no region's output: it holds its launch contents at every boundary up to 2. -/
theorem arg8_at0 : W0 m ρ c (Proc.devRef .tc main_arg8) = m ((c : Thread nD τ).loc main_arg8) := rfl
theorem arg8_at1 : W1 m ρ c (Proc.devRef .tc main_arg8) = m ((c : Thread nD τ).loc main_arg8) :=
  (show W1 m ρ c (Proc.devRef .tc main_arg8) = W0 m ρ c (Proc.devRef .tc main_arg8) from host_keep hostOps0).trans (arg8_at0 m ρ c)
theorem arg8_at2 : W2 m ρ c (Proc.devRef .tc main_arg8) = m ((c : Thread nD τ).loc main_arg8) :=
  (show W2 m ρ c (Proc.devRef .tc main_arg8) = W1 m ρ c (Proc.devRef .tc main_arg8) from W2_of_ne m ρ c main_arg8 (by decide)).trans (arg8_at1 m ρ c)
/-- `main_arg9` is written by no host operation and is no region's output: it holds its launch contents at every boundary up to 5. -/
theorem arg9_at0 : W0 m ρ c (Proc.devRef .tc main_arg9) = m ((c : Thread nD τ).loc main_arg9) := rfl
theorem arg9_at1 : W1 m ρ c (Proc.devRef .tc main_arg9) = m ((c : Thread nD τ).loc main_arg9) :=
  (show W1 m ρ c (Proc.devRef .tc main_arg9) = W0 m ρ c (Proc.devRef .tc main_arg9) from host_keep hostOps0).trans (arg9_at0 m ρ c)
theorem arg9_at2 : W2 m ρ c (Proc.devRef .tc main_arg9) = m ((c : Thread nD τ).loc main_arg9) :=
  (show W2 m ρ c (Proc.devRef .tc main_arg9) = W1 m ρ c (Proc.devRef .tc main_arg9) from W2_of_ne m ρ c main_arg9 (by decide)).trans (arg9_at1 m ρ c)
theorem arg9_at3 : W3 m ρ c (Proc.devRef .tc main_arg9) = m ((c : Thread nD τ).loc main_arg9) :=
  (show W3 m ρ c (Proc.devRef .tc main_arg9) = W2 m ρ c (Proc.devRef .tc main_arg9) from host_keep hostOps1).trans (arg9_at2 m ρ c)
theorem arg9_at4 : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (arg9_at3 m ρ c)
theorem arg9_at5 : W5 m ρ c (Proc.devRef .tc main_arg9) = m ((c : Thread nD τ).loc main_arg9) :=
  (show W5 m ρ c (Proc.devRef .tc main_arg9) = W4 m ρ c (Proc.devRef .tc main_arg9) from host_keep hostOps2).trans (arg9_at4 m ρ c)
/-- `main_arg10` is written by no host operation and is no region's output: it holds its launch contents at every boundary up to 4. -/
theorem arg10_at0 : W0 m ρ c (Proc.devRef .tc main_arg10) = m ((c : Thread nD τ).loc main_arg10) := rfl
theorem arg10_at1 : W1 m ρ c (Proc.devRef .tc main_arg10) = m ((c : Thread nD τ).loc main_arg10) :=
  (show W1 m ρ c (Proc.devRef .tc main_arg10) = W0 m ρ c (Proc.devRef .tc main_arg10) from host_keep hostOps0).trans (arg10_at0 m ρ c)
theorem arg10_at2 : W2 m ρ c (Proc.devRef .tc main_arg10) = m ((c : Thread nD τ).loc main_arg10) :=
  (show W2 m ρ c (Proc.devRef .tc main_arg10) = W1 m ρ c (Proc.devRef .tc main_arg10) from W2_of_ne m ρ c main_arg10 (by decide)).trans (arg10_at1 m ρ c)
theorem arg10_at3 : W3 m ρ c (Proc.devRef .tc main_arg10) = m ((c : Thread nD τ).loc main_arg10) :=
  (show W3 m ρ c (Proc.devRef .tc main_arg10) = W2 m ρ c (Proc.devRef .tc main_arg10) from host_keep hostOps1).trans (arg10_at2 m ρ c)
theorem arg10_at4 : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (arg10_at3 m ρ c)
/-- `main_arg11` is written by no host operation and is no region's output: it holds its launch contents at every boundary up to 7. -/
theorem arg11_at0 : W0 m ρ c (Proc.devRef .tc main_arg11) = m ((c : Thread nD τ).loc main_arg11) := rfl
theorem arg11_at1 : W1 m ρ c (Proc.devRef .tc main_arg11) = m ((c : Thread nD τ).loc main_arg11) :=
  (show W1 m ρ c (Proc.devRef .tc main_arg11) = W0 m ρ c (Proc.devRef .tc main_arg11) from host_keep hostOps0).trans (arg11_at0 m ρ c)
theorem arg11_at2 : W2 m ρ c (Proc.devRef .tc main_arg11) = m ((c : Thread nD τ).loc main_arg11) :=
  (show W2 m ρ c (Proc.devRef .tc main_arg11) = W1 m ρ c (Proc.devRef .tc main_arg11) from W2_of_ne m ρ c main_arg11 (by decide)).trans (arg11_at1 m ρ c)
theorem arg11_at3 : W3 m ρ c (Proc.devRef .tc main_arg11) = m ((c : Thread nD τ).loc main_arg11) :=
  (show W3 m ρ c (Proc.devRef .tc main_arg11) = W2 m ρ c (Proc.devRef .tc main_arg11) from host_keep hostOps1).trans (arg11_at2 m ρ c)
theorem arg11_at4 : W4 m ρ c (Proc.devRef .tc main_arg11) = m ((c : Thread nD τ).loc main_arg11) :=
  (show W4 m ρ c (Proc.devRef .tc main_arg11) = W3 m ρ c (Proc.devRef .tc main_arg11) from W4_of_ne m ρ c main_arg11 (by decide)).trans (arg11_at3 m ρ c)
theorem arg11_at5 : W5 m ρ c (Proc.devRef .tc main_arg11) = m ((c : Thread nD τ).loc main_arg11) :=
  (show W5 m ρ c (Proc.devRef .tc main_arg11) = W4 m ρ c (Proc.devRef .tc main_arg11) from host_keep hostOps2).trans (arg11_at4 m ρ c)
theorem arg11_at6 : W6 m ρ c (Proc.devRef .tc main_arg11) = m ((c : Thread nD τ).loc main_arg11) :=
  (show W6 m ρ c (Proc.devRef .tc main_arg11) = W5 m ρ c (Proc.devRef .tc main_arg11) from W6_of_ne m ρ c main_arg11 (by decide)).trans (arg11_at5 m ρ c)
theorem arg11_at7 : W7 m ρ c (Proc.devRef .tc main_arg11) = m ((c : Thread nD τ).loc main_arg11) :=
  (show W7 m ρ c (Proc.devRef .tc main_arg11) = W6 m ρ c (Proc.devRef .tc main_arg11) from host_keep hostOps3).trans (arg11_at6 m ρ c)
/-- `main_arg12` is written by no host operation and is no region's output: it holds its launch contents at every boundary up to 6. -/
theorem arg12_at0 : W0 m ρ c (Proc.devRef .tc main_arg12) = m ((c : Thread nD τ).loc main_arg12) := rfl
theorem arg12_at1 : W1 m ρ c (Proc.devRef .tc main_arg12) = m ((c : Thread nD τ).loc main_arg12) :=
  (show W1 m ρ c (Proc.devRef .tc main_arg12) = W0 m ρ c (Proc.devRef .tc main_arg12) from host_keep hostOps0).trans (arg12_at0 m ρ c)
theorem arg12_at2 : W2 m ρ c (Proc.devRef .tc main_arg12) = m ((c : Thread nD τ).loc main_arg12) :=
  (show W2 m ρ c (Proc.devRef .tc main_arg12) = W1 m ρ c (Proc.devRef .tc main_arg12) from W2_of_ne m ρ c main_arg12 (by decide)).trans (arg12_at1 m ρ c)
theorem arg12_at3 : W3 m ρ c (Proc.devRef .tc main_arg12) = m ((c : Thread nD τ).loc main_arg12) :=
  (show W3 m ρ c (Proc.devRef .tc main_arg12) = W2 m ρ c (Proc.devRef .tc main_arg12) from host_keep hostOps1).trans (arg12_at2 m ρ c)
theorem arg12_at4 : W4 m ρ c (Proc.devRef .tc main_arg12) = m ((c : Thread nD τ).loc main_arg12) :=
  (show W4 m ρ c (Proc.devRef .tc main_arg12) = W3 m ρ c (Proc.devRef .tc main_arg12) from W4_of_ne m ρ c main_arg12 (by decide)).trans (arg12_at3 m ρ c)
theorem arg12_at5 : W5 m ρ c (Proc.devRef .tc main_arg12) = m ((c : Thread nD τ).loc main_arg12) :=
  (show W5 m ρ c (Proc.devRef .tc main_arg12) = W4 m ρ c (Proc.devRef .tc main_arg12) from host_keep hostOps2).trans (arg12_at4 m ρ c)
theorem arg12_at6 : W6 m ρ c (Proc.devRef .tc main_arg12) = m ((c : Thread nD τ).loc main_arg12) :=
  (show W6 m ρ c (Proc.devRef .tc main_arg12) = W5 m ρ c (Proc.devRef .tc main_arg12) from W6_of_ne m ρ c main_arg12 (by decide)).trans (arg12_at5 m ρ c)
/-- `main_arg13` is written by no host operation and is no region's output: it holds its launch contents at every boundary up to 7. -/
theorem arg13_at0 : W0 m ρ c (Proc.devRef .tc main_arg13) = m ((c : Thread nD τ).loc main_arg13) := rfl
theorem arg13_at1 : W1 m ρ c (Proc.devRef .tc main_arg13) = m ((c : Thread nD τ).loc main_arg13) :=
  (show W1 m ρ c (Proc.devRef .tc main_arg13) = W0 m ρ c (Proc.devRef .tc main_arg13) from host_keep hostOps0).trans (arg13_at0 m ρ c)
theorem arg13_at2 : W2 m ρ c (Proc.devRef .tc main_arg13) = m ((c : Thread nD τ).loc main_arg13) :=
  (show W2 m ρ c (Proc.devRef .tc main_arg13) = W1 m ρ c (Proc.devRef .tc main_arg13) from W2_of_ne m ρ c main_arg13 (by decide)).trans (arg13_at1 m ρ c)
theorem arg13_at3 : W3 m ρ c (Proc.devRef .tc main_arg13) = m ((c : Thread nD τ).loc main_arg13) :=
  (show W3 m ρ c (Proc.devRef .tc main_arg13) = W2 m ρ c (Proc.devRef .tc main_arg13) from host_keep hostOps1).trans (arg13_at2 m ρ c)
theorem arg13_at4 : W4 m ρ c (Proc.devRef .tc main_arg13) = m ((c : Thread nD τ).loc main_arg13) :=
  (show W4 m ρ c (Proc.devRef .tc main_arg13) = W3 m ρ c (Proc.devRef .tc main_arg13) from W4_of_ne m ρ c main_arg13 (by decide)).trans (arg13_at3 m ρ c)
theorem arg13_at5 : W5 m ρ c (Proc.devRef .tc main_arg13) = m ((c : Thread nD τ).loc main_arg13) :=
  (show W5 m ρ c (Proc.devRef .tc main_arg13) = W4 m ρ c (Proc.devRef .tc main_arg13) from host_keep hostOps2).trans (arg13_at4 m ρ c)
theorem arg13_at6 : W6 m ρ c (Proc.devRef .tc main_arg13) = m ((c : Thread nD τ).loc main_arg13) :=
  (show W6 m ρ c (Proc.devRef .tc main_arg13) = W5 m ρ c (Proc.devRef .tc main_arg13) from W6_of_ne m ρ c main_arg13 (by decide)).trans (arg13_at5 m ρ c)
theorem arg13_at7 : W7 m ρ c (Proc.devRef .tc main_arg13) = m ((c : Thread nD τ).loc main_arg13) :=
  (show W7 m ρ c (Proc.devRef .tc main_arg13) = W6 m ρ c (Proc.devRef .tc main_arg13) from host_keep hostOps3).trans (arg13_at6 m ρ c)
/-- `main_arg14` is written by no host operation and is no region's output: it holds its launch contents at every boundary up to 6. -/
theorem arg14_at0 : W0 m ρ c (Proc.devRef .tc main_arg14) = m ((c : Thread nD τ).loc main_arg14) := rfl
theorem arg14_at1 : W1 m ρ c (Proc.devRef .tc main_arg14) = m ((c : Thread nD τ).loc main_arg14) :=
  (show W1 m ρ c (Proc.devRef .tc main_arg14) = W0 m ρ c (Proc.devRef .tc main_arg14) from host_keep hostOps0).trans (arg14_at0 m ρ c)
theorem arg14_at2 : W2 m ρ c (Proc.devRef .tc main_arg14) = m ((c : Thread nD τ).loc main_arg14) :=
  (show W2 m ρ c (Proc.devRef .tc main_arg14) = W1 m ρ c (Proc.devRef .tc main_arg14) from W2_of_ne m ρ c main_arg14 (by decide)).trans (arg14_at1 m ρ c)
theorem arg14_at3 : W3 m ρ c (Proc.devRef .tc main_arg14) = m ((c : Thread nD τ).loc main_arg14) :=
  (show W3 m ρ c (Proc.devRef .tc main_arg14) = W2 m ρ c (Proc.devRef .tc main_arg14) from host_keep hostOps1).trans (arg14_at2 m ρ c)
theorem arg14_at4 : W4 m ρ c (Proc.devRef .tc main_arg14) = m ((c : Thread nD τ).loc main_arg14) :=
  (show W4 m ρ c (Proc.devRef .tc main_arg14) = W3 m ρ c (Proc.devRef .tc main_arg14) from W4_of_ne m ρ c main_arg14 (by decide)).trans (arg14_at3 m ρ c)
theorem arg14_at5 : W5 m ρ c (Proc.devRef .tc main_arg14) = m ((c : Thread nD τ).loc main_arg14) :=
  (show W5 m ρ c (Proc.devRef .tc main_arg14) = W4 m ρ c (Proc.devRef .tc main_arg14) from host_keep hostOps2).trans (arg14_at4 m ρ c)
theorem arg14_at6 : W6 m ρ c (Proc.devRef .tc main_arg14) = m ((c : Thread nD τ).loc main_arg14) :=
  (show W6 m ρ c (Proc.devRef .tc main_arg14) = W5 m ρ c (Proc.devRef .tc main_arg14) from W6_of_ne m ρ c main_arg14 (by decide)).trans (arg14_at5 m ρ c)
/-- `main_arg15` is written by no host operation and is no region's output: it holds its launch contents at every boundary up to 9. -/
theorem arg15_at0 : W0 m ρ c (Proc.devRef .tc main_arg15) = m ((c : Thread nD τ).loc main_arg15) := rfl
theorem arg15_at1 : W1 m ρ c (Proc.devRef .tc main_arg15) = m ((c : Thread nD τ).loc main_arg15) :=
  (show W1 m ρ c (Proc.devRef .tc main_arg15) = W0 m ρ c (Proc.devRef .tc main_arg15) from host_keep hostOps0).trans (arg15_at0 m ρ c)
theorem arg15_at2 : W2 m ρ c (Proc.devRef .tc main_arg15) = m ((c : Thread nD τ).loc main_arg15) :=
  (show W2 m ρ c (Proc.devRef .tc main_arg15) = W1 m ρ c (Proc.devRef .tc main_arg15) from W2_of_ne m ρ c main_arg15 (by decide)).trans (arg15_at1 m ρ c)
theorem arg15_at3 : W3 m ρ c (Proc.devRef .tc main_arg15) = m ((c : Thread nD τ).loc main_arg15) :=
  (show W3 m ρ c (Proc.devRef .tc main_arg15) = W2 m ρ c (Proc.devRef .tc main_arg15) from host_keep hostOps1).trans (arg15_at2 m ρ c)
theorem arg15_at4 : W4 m ρ c (Proc.devRef .tc main_arg15) = m ((c : Thread nD τ).loc main_arg15) :=
  (show W4 m ρ c (Proc.devRef .tc main_arg15) = W3 m ρ c (Proc.devRef .tc main_arg15) from W4_of_ne m ρ c main_arg15 (by decide)).trans (arg15_at3 m ρ c)
theorem arg15_at5 : W5 m ρ c (Proc.devRef .tc main_arg15) = m ((c : Thread nD τ).loc main_arg15) :=
  (show W5 m ρ c (Proc.devRef .tc main_arg15) = W4 m ρ c (Proc.devRef .tc main_arg15) from host_keep hostOps2).trans (arg15_at4 m ρ c)
theorem arg15_at6 : W6 m ρ c (Proc.devRef .tc main_arg15) = m ((c : Thread nD τ).loc main_arg15) :=
  (show W6 m ρ c (Proc.devRef .tc main_arg15) = W5 m ρ c (Proc.devRef .tc main_arg15) from W6_of_ne m ρ c main_arg15 (by decide)).trans (arg15_at5 m ρ c)
theorem arg15_at7 : W7 m ρ c (Proc.devRef .tc main_arg15) = m ((c : Thread nD τ).loc main_arg15) :=
  (show W7 m ρ c (Proc.devRef .tc main_arg15) = W6 m ρ c (Proc.devRef .tc main_arg15) from host_keep hostOps3).trans (arg15_at6 m ρ c)
theorem arg15_at8 : W8 m ρ c (Proc.devRef .tc main_arg15) = m ((c : Thread nD τ).loc main_arg15) :=
  (show W8 m ρ c (Proc.devRef .tc main_arg15) = W7 m ρ c (Proc.devRef .tc main_arg15) from W8_of_ne m ρ c main_arg15 (by decide)).trans (arg15_at7 m ρ c)
theorem arg15_at9 : W9 m ρ c (Proc.devRef .tc main_arg15) = m ((c : Thread nD τ).loc main_arg15) :=
  (show W9 m ρ c (Proc.devRef .tc main_arg15) = W8 m ρ c (Proc.devRef .tc main_arg15) from host_keep hostOps4).trans (arg15_at8 m ρ c)
/-- `main_arg16` is written by no host operation and is no region's output: it holds its launch contents at every boundary up to 8. -/
theorem arg16_at0 : W0 m ρ c (Proc.devRef .tc main_arg16) = m ((c : Thread nD τ).loc main_arg16) := rfl
theorem arg16_at1 : W1 m ρ c (Proc.devRef .tc main_arg16) = m ((c : Thread nD τ).loc main_arg16) :=
  (show W1 m ρ c (Proc.devRef .tc main_arg16) = W0 m ρ c (Proc.devRef .tc main_arg16) from host_keep hostOps0).trans (arg16_at0 m ρ c)
theorem arg16_at2 : W2 m ρ c (Proc.devRef .tc main_arg16) = m ((c : Thread nD τ).loc main_arg16) :=
  (show W2 m ρ c (Proc.devRef .tc main_arg16) = W1 m ρ c (Proc.devRef .tc main_arg16) from W2_of_ne m ρ c main_arg16 (by decide)).trans (arg16_at1 m ρ c)
theorem arg16_at3 : W3 m ρ c (Proc.devRef .tc main_arg16) = m ((c : Thread nD τ).loc main_arg16) :=
  (show W3 m ρ c (Proc.devRef .tc main_arg16) = W2 m ρ c (Proc.devRef .tc main_arg16) from host_keep hostOps1).trans (arg16_at2 m ρ c)
theorem arg16_at4 : W4 m ρ c (Proc.devRef .tc main_arg16) = m ((c : Thread nD τ).loc main_arg16) :=
  (show W4 m ρ c (Proc.devRef .tc main_arg16) = W3 m ρ c (Proc.devRef .tc main_arg16) from W4_of_ne m ρ c main_arg16 (by decide)).trans (arg16_at3 m ρ c)
theorem arg16_at5 : W5 m ρ c (Proc.devRef .tc main_arg16) = m ((c : Thread nD τ).loc main_arg16) :=
  (show W5 m ρ c (Proc.devRef .tc main_arg16) = W4 m ρ c (Proc.devRef .tc main_arg16) from host_keep hostOps2).trans (arg16_at4 m ρ c)
theorem arg16_at6 : W6 m ρ c (Proc.devRef .tc main_arg16) = m ((c : Thread nD τ).loc main_arg16) :=
  (show W6 m ρ c (Proc.devRef .tc main_arg16) = W5 m ρ c (Proc.devRef .tc main_arg16) from W6_of_ne m ρ c main_arg16 (by decide)).trans (arg16_at5 m ρ c)
theorem arg16_at7 : W7 m ρ c (Proc.devRef .tc main_arg16) = m ((c : Thread nD τ).loc main_arg16) :=
  (show W7 m ρ c (Proc.devRef .tc main_arg16) = W6 m ρ c (Proc.devRef .tc main_arg16) from host_keep hostOps3).trans (arg16_at6 m ρ c)
theorem arg16_at8 : W8 m ρ c (Proc.devRef .tc main_arg16) = m ((c : Thread nD τ).loc main_arg16) :=
  (show W8 m ρ c (Proc.devRef .tc main_arg16) = W7 m ρ c (Proc.devRef .tc main_arg16) from W8_of_ne m ρ c main_arg16 (by decide)).trans (arg16_at7 m ρ c)
/-- `main_arg17` is written by no host operation and is no region's output: it holds its launch contents at every boundary up to 11. -/
theorem arg17_at0 : W0 m ρ c (Proc.devRef .tc main_arg17) = m ((c : Thread nD τ).loc main_arg17) := rfl
theorem arg17_at1 : W1 m ρ c (Proc.devRef .tc main_arg17) = m ((c : Thread nD τ).loc main_arg17) :=
  (show W1 m ρ c (Proc.devRef .tc main_arg17) = W0 m ρ c (Proc.devRef .tc main_arg17) from host_keep hostOps0).trans (arg17_at0 m ρ c)
theorem arg17_at2 : W2 m ρ c (Proc.devRef .tc main_arg17) = m ((c : Thread nD τ).loc main_arg17) :=
  (show W2 m ρ c (Proc.devRef .tc main_arg17) = W1 m ρ c (Proc.devRef .tc main_arg17) from W2_of_ne m ρ c main_arg17 (by decide)).trans (arg17_at1 m ρ c)
theorem arg17_at3 : W3 m ρ c (Proc.devRef .tc main_arg17) = m ((c : Thread nD τ).loc main_arg17) :=
  (show W3 m ρ c (Proc.devRef .tc main_arg17) = W2 m ρ c (Proc.devRef .tc main_arg17) from host_keep hostOps1).trans (arg17_at2 m ρ c)
theorem arg17_at4 : W4 m ρ c (Proc.devRef .tc main_arg17) = m ((c : Thread nD τ).loc main_arg17) :=
  (show W4 m ρ c (Proc.devRef .tc main_arg17) = W3 m ρ c (Proc.devRef .tc main_arg17) from W4_of_ne m ρ c main_arg17 (by decide)).trans (arg17_at3 m ρ c)
theorem arg17_at5 : W5 m ρ c (Proc.devRef .tc main_arg17) = m ((c : Thread nD τ).loc main_arg17) :=
  (show W5 m ρ c (Proc.devRef .tc main_arg17) = W4 m ρ c (Proc.devRef .tc main_arg17) from host_keep hostOps2).trans (arg17_at4 m ρ c)
theorem arg17_at6 : W6 m ρ c (Proc.devRef .tc main_arg17) = m ((c : Thread nD τ).loc main_arg17) :=
  (show W6 m ρ c (Proc.devRef .tc main_arg17) = W5 m ρ c (Proc.devRef .tc main_arg17) from W6_of_ne m ρ c main_arg17 (by decide)).trans (arg17_at5 m ρ c)
theorem arg17_at7 : W7 m ρ c (Proc.devRef .tc main_arg17) = m ((c : Thread nD τ).loc main_arg17) :=
  (show W7 m ρ c (Proc.devRef .tc main_arg17) = W6 m ρ c (Proc.devRef .tc main_arg17) from host_keep hostOps3).trans (arg17_at6 m ρ c)
theorem arg17_at8 : W8 m ρ c (Proc.devRef .tc main_arg17) = m ((c : Thread nD τ).loc main_arg17) :=
  (show W8 m ρ c (Proc.devRef .tc main_arg17) = W7 m ρ c (Proc.devRef .tc main_arg17) from W8_of_ne m ρ c main_arg17 (by decide)).trans (arg17_at7 m ρ c)
theorem arg17_at9 : W9 m ρ c (Proc.devRef .tc main_arg17) = m ((c : Thread nD τ).loc main_arg17) :=
  (show W9 m ρ c (Proc.devRef .tc main_arg17) = W8 m ρ c (Proc.devRef .tc main_arg17) from host_keep hostOps4).trans (arg17_at8 m ρ c)
theorem arg17_at10 : W10 m ρ c (Proc.devRef .tc main_arg17) = m ((c : Thread nD τ).loc main_arg17) :=
  (show W10 m ρ c (Proc.devRef .tc main_arg17) = W9 m ρ c (Proc.devRef .tc main_arg17) from W10_of_ne m ρ c main_arg17 (by decide)).trans (arg17_at9 m ρ c)
theorem arg17_at11 : W11 m ρ c (Proc.devRef .tc main_arg17) = m ((c : Thread nD τ).loc main_arg17) :=
  (show W11 m ρ c (Proc.devRef .tc main_arg17) = W10 m ρ c (Proc.devRef .tc main_arg17) from host_keep hostOps5).trans (arg17_at10 m ρ c)
/-- `main_arg18` is written by no host operation and is no region's output: it holds its launch contents at every boundary up to 10. -/
theorem arg18_at0 : W0 m ρ c (Proc.devRef .tc main_arg18) = m ((c : Thread nD τ).loc main_arg18) := rfl
theorem arg18_at1 : W1 m ρ c (Proc.devRef .tc main_arg18) = m ((c : Thread nD τ).loc main_arg18) :=
  (show W1 m ρ c (Proc.devRef .tc main_arg18) = W0 m ρ c (Proc.devRef .tc main_arg18) from host_keep hostOps0).trans (arg18_at0 m ρ c)
theorem arg18_at2 : W2 m ρ c (Proc.devRef .tc main_arg18) = m ((c : Thread nD τ).loc main_arg18) :=
  (show W2 m ρ c (Proc.devRef .tc main_arg18) = W1 m ρ c (Proc.devRef .tc main_arg18) from W2_of_ne m ρ c main_arg18 (by decide)).trans (arg18_at1 m ρ c)
theorem arg18_at3 : W3 m ρ c (Proc.devRef .tc main_arg18) = m ((c : Thread nD τ).loc main_arg18) :=
  (show W3 m ρ c (Proc.devRef .tc main_arg18) = W2 m ρ c (Proc.devRef .tc main_arg18) from host_keep hostOps1).trans (arg18_at2 m ρ c)
theorem arg18_at4 : W4 m ρ c (Proc.devRef .tc main_arg18) = m ((c : Thread nD τ).loc main_arg18) :=
  (show W4 m ρ c (Proc.devRef .tc main_arg18) = W3 m ρ c (Proc.devRef .tc main_arg18) from W4_of_ne m ρ c main_arg18 (by decide)).trans (arg18_at3 m ρ c)
theorem arg18_at5 : W5 m ρ c (Proc.devRef .tc main_arg18) = m ((c : Thread nD τ).loc main_arg18) :=
  (show W5 m ρ c (Proc.devRef .tc main_arg18) = W4 m ρ c (Proc.devRef .tc main_arg18) from host_keep hostOps2).trans (arg18_at4 m ρ c)
theorem arg18_at6 : W6 m ρ c (Proc.devRef .tc main_arg18) = m ((c : Thread nD τ).loc main_arg18) :=
  (show W6 m ρ c (Proc.devRef .tc main_arg18) = W5 m ρ c (Proc.devRef .tc main_arg18) from W6_of_ne m ρ c main_arg18 (by decide)).trans (arg18_at5 m ρ c)
theorem arg18_at7 : W7 m ρ c (Proc.devRef .tc main_arg18) = m ((c : Thread nD τ).loc main_arg18) :=
  (show W7 m ρ c (Proc.devRef .tc main_arg18) = W6 m ρ c (Proc.devRef .tc main_arg18) from host_keep hostOps3).trans (arg18_at6 m ρ c)
theorem arg18_at8 : W8 m ρ c (Proc.devRef .tc main_arg18) = m ((c : Thread nD τ).loc main_arg18) :=
  (show W8 m ρ c (Proc.devRef .tc main_arg18) = W7 m ρ c (Proc.devRef .tc main_arg18) from W8_of_ne m ρ c main_arg18 (by decide)).trans (arg18_at7 m ρ c)
theorem arg18_at9 : W9 m ρ c (Proc.devRef .tc main_arg18) = m ((c : Thread nD τ).loc main_arg18) :=
  (show W9 m ρ c (Proc.devRef .tc main_arg18) = W8 m ρ c (Proc.devRef .tc main_arg18) from host_keep hostOps4).trans (arg18_at8 m ρ c)
theorem arg18_at10 : W10 m ρ c (Proc.devRef .tc main_arg18) = m ((c : Thread nD τ).loc main_arg18) :=
  (show W10 m ρ c (Proc.devRef .tc main_arg18) = W9 m ρ c (Proc.devRef .tc main_arg18) from W10_of_ne m ρ c main_arg18 (by decide)).trans (arg18_at9 m ρ c)
/-- `main_arg19` is written by no host operation and is no region's output: it holds its launch contents at every boundary up to 11. -/
theorem arg19_at0 : W0 m ρ c (Proc.devRef .tc main_arg19) = m ((c : Thread nD τ).loc main_arg19) := rfl
theorem arg19_at1 : W1 m ρ c (Proc.devRef .tc main_arg19) = m ((c : Thread nD τ).loc main_arg19) :=
  (show W1 m ρ c (Proc.devRef .tc main_arg19) = W0 m ρ c (Proc.devRef .tc main_arg19) from host_keep hostOps0).trans (arg19_at0 m ρ c)
theorem arg19_at2 : W2 m ρ c (Proc.devRef .tc main_arg19) = m ((c : Thread nD τ).loc main_arg19) :=
  (show W2 m ρ c (Proc.devRef .tc main_arg19) = W1 m ρ c (Proc.devRef .tc main_arg19) from W2_of_ne m ρ c main_arg19 (by decide)).trans (arg19_at1 m ρ c)
theorem arg19_at3 : W3 m ρ c (Proc.devRef .tc main_arg19) = m ((c : Thread nD τ).loc main_arg19) :=
  (show W3 m ρ c (Proc.devRef .tc main_arg19) = W2 m ρ c (Proc.devRef .tc main_arg19) from host_keep hostOps1).trans (arg19_at2 m ρ c)
theorem arg19_at4 : W4 m ρ c (Proc.devRef .tc main_arg19) = m ((c : Thread nD τ).loc main_arg19) :=
  (show W4 m ρ c (Proc.devRef .tc main_arg19) = W3 m ρ c (Proc.devRef .tc main_arg19) from W4_of_ne m ρ c main_arg19 (by decide)).trans (arg19_at3 m ρ c)
theorem arg19_at5 : W5 m ρ c (Proc.devRef .tc main_arg19) = m ((c : Thread nD τ).loc main_arg19) :=
  (show W5 m ρ c (Proc.devRef .tc main_arg19) = W4 m ρ c (Proc.devRef .tc main_arg19) from host_keep hostOps2).trans (arg19_at4 m ρ c)
theorem arg19_at6 : W6 m ρ c (Proc.devRef .tc main_arg19) = m ((c : Thread nD τ).loc main_arg19) :=
  (show W6 m ρ c (Proc.devRef .tc main_arg19) = W5 m ρ c (Proc.devRef .tc main_arg19) from W6_of_ne m ρ c main_arg19 (by decide)).trans (arg19_at5 m ρ c)
theorem arg19_at7 : W7 m ρ c (Proc.devRef .tc main_arg19) = m ((c : Thread nD τ).loc main_arg19) :=
  (show W7 m ρ c (Proc.devRef .tc main_arg19) = W6 m ρ c (Proc.devRef .tc main_arg19) from host_keep hostOps3).trans (arg19_at6 m ρ c)
theorem arg19_at8 : W8 m ρ c (Proc.devRef .tc main_arg19) = m ((c : Thread nD τ).loc main_arg19) :=
  (show W8 m ρ c (Proc.devRef .tc main_arg19) = W7 m ρ c (Proc.devRef .tc main_arg19) from W8_of_ne m ρ c main_arg19 (by decide)).trans (arg19_at7 m ρ c)
theorem arg19_at9 : W9 m ρ c (Proc.devRef .tc main_arg19) = m ((c : Thread nD τ).loc main_arg19) :=
  (show W9 m ρ c (Proc.devRef .tc main_arg19) = W8 m ρ c (Proc.devRef .tc main_arg19) from host_keep hostOps4).trans (arg19_at8 m ρ c)
theorem arg19_at10 : W10 m ρ c (Proc.devRef .tc main_arg19) = m ((c : Thread nD τ).loc main_arg19) :=
  (show W10 m ρ c (Proc.devRef .tc main_arg19) = W9 m ρ c (Proc.devRef .tc main_arg19) from W10_of_ne m ρ c main_arg19 (by decide)).trans (arg19_at9 m ρ c)
theorem arg19_at11 : W11 m ρ c (Proc.devRef .tc main_arg19) = m ((c : Thread nD τ).loc main_arg19) :=
  (show W11 m ρ c (Proc.devRef .tc main_arg19) = W10 m ρ c (Proc.devRef .tc main_arg19) from host_keep hostOps5).trans (arg19_at10 m ρ c)
/-- `main_arg20` is written by no host operation and is no region's output: it holds its launch contents at every boundary up to 10. -/
theorem arg20_at0 : W0 m ρ c (Proc.devRef .tc main_arg20) = m ((c : Thread nD τ).loc main_arg20) := rfl
theorem arg20_at1 : W1 m ρ c (Proc.devRef .tc main_arg20) = m ((c : Thread nD τ).loc main_arg20) :=
  (show W1 m ρ c (Proc.devRef .tc main_arg20) = W0 m ρ c (Proc.devRef .tc main_arg20) from host_keep hostOps0).trans (arg20_at0 m ρ c)
theorem arg20_at2 : W2 m ρ c (Proc.devRef .tc main_arg20) = m ((c : Thread nD τ).loc main_arg20) :=
  (show W2 m ρ c (Proc.devRef .tc main_arg20) = W1 m ρ c (Proc.devRef .tc main_arg20) from W2_of_ne m ρ c main_arg20 (by decide)).trans (arg20_at1 m ρ c)
theorem arg20_at3 : W3 m ρ c (Proc.devRef .tc main_arg20) = m ((c : Thread nD τ).loc main_arg20) :=
  (show W3 m ρ c (Proc.devRef .tc main_arg20) = W2 m ρ c (Proc.devRef .tc main_arg20) from host_keep hostOps1).trans (arg20_at2 m ρ c)
theorem arg20_at4 : W4 m ρ c (Proc.devRef .tc main_arg20) = m ((c : Thread nD τ).loc main_arg20) :=
  (show W4 m ρ c (Proc.devRef .tc main_arg20) = W3 m ρ c (Proc.devRef .tc main_arg20) from W4_of_ne m ρ c main_arg20 (by decide)).trans (arg20_at3 m ρ c)
theorem arg20_at5 : W5 m ρ c (Proc.devRef .tc main_arg20) = m ((c : Thread nD τ).loc main_arg20) :=
  (show W5 m ρ c (Proc.devRef .tc main_arg20) = W4 m ρ c (Proc.devRef .tc main_arg20) from host_keep hostOps2).trans (arg20_at4 m ρ c)
theorem arg20_at6 : W6 m ρ c (Proc.devRef .tc main_arg20) = m ((c : Thread nD τ).loc main_arg20) :=
  (show W6 m ρ c (Proc.devRef .tc main_arg20) = W5 m ρ c (Proc.devRef .tc main_arg20) from W6_of_ne m ρ c main_arg20 (by decide)).trans (arg20_at5 m ρ c)
theorem arg20_at7 : W7 m ρ c (Proc.devRef .tc main_arg20) = m ((c : Thread nD τ).loc main_arg20) :=
  (show W7 m ρ c (Proc.devRef .tc main_arg20) = W6 m ρ c (Proc.devRef .tc main_arg20) from host_keep hostOps3).trans (arg20_at6 m ρ c)
theorem arg20_at8 : W8 m ρ c (Proc.devRef .tc main_arg20) = m ((c : Thread nD τ).loc main_arg20) :=
  (show W8 m ρ c (Proc.devRef .tc main_arg20) = W7 m ρ c (Proc.devRef .tc main_arg20) from W8_of_ne m ρ c main_arg20 (by decide)).trans (arg20_at7 m ρ c)
theorem arg20_at9 : W9 m ρ c (Proc.devRef .tc main_arg20) = m ((c : Thread nD τ).loc main_arg20) :=
  (show W9 m ρ c (Proc.devRef .tc main_arg20) = W8 m ρ c (Proc.devRef .tc main_arg20) from host_keep hostOps4).trans (arg20_at8 m ρ c)
theorem arg20_at10 : W10 m ρ c (Proc.devRef .tc main_arg20) = m ((c : Thread nD τ).loc main_arg20) :=
  (show W10 m ρ c (Proc.devRef .tc main_arg20) = W9 m ρ c (Proc.devRef .tc main_arg20) from W10_of_ne m ρ c main_arg20 (by decide)).trans (arg20_at9 m ρ c)
/-- `main_arg21` is written by no host operation and is no region's output: it holds its launch contents at every boundary up to 12. -/
theorem arg21_at0 : W0 m ρ c (Proc.devRef .tc main_arg21) = m ((c : Thread nD τ).loc main_arg21) := rfl
theorem arg21_at1 : W1 m ρ c (Proc.devRef .tc main_arg21) = m ((c : Thread nD τ).loc main_arg21) :=
  (show W1 m ρ c (Proc.devRef .tc main_arg21) = W0 m ρ c (Proc.devRef .tc main_arg21) from host_keep hostOps0).trans (arg21_at0 m ρ c)
theorem arg21_at2 : W2 m ρ c (Proc.devRef .tc main_arg21) = m ((c : Thread nD τ).loc main_arg21) :=
  (show W2 m ρ c (Proc.devRef .tc main_arg21) = W1 m ρ c (Proc.devRef .tc main_arg21) from W2_of_ne m ρ c main_arg21 (by decide)).trans (arg21_at1 m ρ c)
theorem arg21_at3 : W3 m ρ c (Proc.devRef .tc main_arg21) = m ((c : Thread nD τ).loc main_arg21) :=
  (show W3 m ρ c (Proc.devRef .tc main_arg21) = W2 m ρ c (Proc.devRef .tc main_arg21) from host_keep hostOps1).trans (arg21_at2 m ρ c)
theorem arg21_at4 : W4 m ρ c (Proc.devRef .tc main_arg21) = m ((c : Thread nD τ).loc main_arg21) :=
  (show W4 m ρ c (Proc.devRef .tc main_arg21) = W3 m ρ c (Proc.devRef .tc main_arg21) from W4_of_ne m ρ c main_arg21 (by decide)).trans (arg21_at3 m ρ c)
theorem arg21_at5 : W5 m ρ c (Proc.devRef .tc main_arg21) = m ((c : Thread nD τ).loc main_arg21) :=
  (show W5 m ρ c (Proc.devRef .tc main_arg21) = W4 m ρ c (Proc.devRef .tc main_arg21) from host_keep hostOps2).trans (arg21_at4 m ρ c)
theorem arg21_at6 : W6 m ρ c (Proc.devRef .tc main_arg21) = m ((c : Thread nD τ).loc main_arg21) :=
  (show W6 m ρ c (Proc.devRef .tc main_arg21) = W5 m ρ c (Proc.devRef .tc main_arg21) from W6_of_ne m ρ c main_arg21 (by decide)).trans (arg21_at5 m ρ c)
theorem arg21_at7 : W7 m ρ c (Proc.devRef .tc main_arg21) = m ((c : Thread nD τ).loc main_arg21) :=
  (show W7 m ρ c (Proc.devRef .tc main_arg21) = W6 m ρ c (Proc.devRef .tc main_arg21) from host_keep hostOps3).trans (arg21_at6 m ρ c)
theorem arg21_at8 : W8 m ρ c (Proc.devRef .tc main_arg21) = m ((c : Thread nD τ).loc main_arg21) :=
  (show W8 m ρ c (Proc.devRef .tc main_arg21) = W7 m ρ c (Proc.devRef .tc main_arg21) from W8_of_ne m ρ c main_arg21 (by decide)).trans (arg21_at7 m ρ c)
theorem arg21_at9 : W9 m ρ c (Proc.devRef .tc main_arg21) = m ((c : Thread nD τ).loc main_arg21) :=
  (show W9 m ρ c (Proc.devRef .tc main_arg21) = W8 m ρ c (Proc.devRef .tc main_arg21) from host_keep hostOps4).trans (arg21_at8 m ρ c)
theorem arg21_at10 : W10 m ρ c (Proc.devRef .tc main_arg21) = m ((c : Thread nD τ).loc main_arg21) :=
  (show W10 m ρ c (Proc.devRef .tc main_arg21) = W9 m ρ c (Proc.devRef .tc main_arg21) from W10_of_ne m ρ c main_arg21 (by decide)).trans (arg21_at9 m ρ c)
theorem arg21_at11 : W11 m ρ c (Proc.devRef .tc main_arg21) = m ((c : Thread nD τ).loc main_arg21) :=
  (show W11 m ρ c (Proc.devRef .tc main_arg21) = W10 m ρ c (Proc.devRef .tc main_arg21) from host_keep hostOps5).trans (arg21_at10 m ρ c)
theorem arg21_at12 : W12 m ρ c (Proc.devRef .tc main_arg21) = m ((c : Thread nD τ).loc main_arg21) :=
  (show W12 m ρ c (Proc.devRef .tc main_arg21) = W11 m ρ c (Proc.devRef .tc main_arg21) from W12_of_ne m ρ c main_arg21 (by decide)).trans (arg21_at11 m ρ c)
/-- `main_arg22` is written by no host operation and is no region's output: it holds its launch contents at every boundary up to 12. -/
theorem arg22_at0 : W0 m ρ c (Proc.devRef .tc main_arg22) = m ((c : Thread nD τ).loc main_arg22) := rfl
theorem arg22_at1 : W1 m ρ c (Proc.devRef .tc main_arg22) = m ((c : Thread nD τ).loc main_arg22) :=
  (show W1 m ρ c (Proc.devRef .tc main_arg22) = W0 m ρ c (Proc.devRef .tc main_arg22) from host_keep hostOps0).trans (arg22_at0 m ρ c)
theorem arg22_at2 : W2 m ρ c (Proc.devRef .tc main_arg22) = m ((c : Thread nD τ).loc main_arg22) :=
  (show W2 m ρ c (Proc.devRef .tc main_arg22) = W1 m ρ c (Proc.devRef .tc main_arg22) from W2_of_ne m ρ c main_arg22 (by decide)).trans (arg22_at1 m ρ c)
theorem arg22_at3 : W3 m ρ c (Proc.devRef .tc main_arg22) = m ((c : Thread nD τ).loc main_arg22) :=
  (show W3 m ρ c (Proc.devRef .tc main_arg22) = W2 m ρ c (Proc.devRef .tc main_arg22) from host_keep hostOps1).trans (arg22_at2 m ρ c)
theorem arg22_at4 : W4 m ρ c (Proc.devRef .tc main_arg22) = m ((c : Thread nD τ).loc main_arg22) :=
  (show W4 m ρ c (Proc.devRef .tc main_arg22) = W3 m ρ c (Proc.devRef .tc main_arg22) from W4_of_ne m ρ c main_arg22 (by decide)).trans (arg22_at3 m ρ c)
theorem arg22_at5 : W5 m ρ c (Proc.devRef .tc main_arg22) = m ((c : Thread nD τ).loc main_arg22) :=
  (show W5 m ρ c (Proc.devRef .tc main_arg22) = W4 m ρ c (Proc.devRef .tc main_arg22) from host_keep hostOps2).trans (arg22_at4 m ρ c)
theorem arg22_at6 : W6 m ρ c (Proc.devRef .tc main_arg22) = m ((c : Thread nD τ).loc main_arg22) :=
  (show W6 m ρ c (Proc.devRef .tc main_arg22) = W5 m ρ c (Proc.devRef .tc main_arg22) from W6_of_ne m ρ c main_arg22 (by decide)).trans (arg22_at5 m ρ c)
theorem arg22_at7 : W7 m ρ c (Proc.devRef .tc main_arg22) = m ((c : Thread nD τ).loc main_arg22) :=
  (show W7 m ρ c (Proc.devRef .tc main_arg22) = W6 m ρ c (Proc.devRef .tc main_arg22) from host_keep hostOps3).trans (arg22_at6 m ρ c)
theorem arg22_at8 : W8 m ρ c (Proc.devRef .tc main_arg22) = m ((c : Thread nD τ).loc main_arg22) :=
  (show W8 m ρ c (Proc.devRef .tc main_arg22) = W7 m ρ c (Proc.devRef .tc main_arg22) from W8_of_ne m ρ c main_arg22 (by decide)).trans (arg22_at7 m ρ c)
theorem arg22_at9 : W9 m ρ c (Proc.devRef .tc main_arg22) = m ((c : Thread nD τ).loc main_arg22) :=
  (show W9 m ρ c (Proc.devRef .tc main_arg22) = W8 m ρ c (Proc.devRef .tc main_arg22) from host_keep hostOps4).trans (arg22_at8 m ρ c)
theorem arg22_at10 : W10 m ρ c (Proc.devRef .tc main_arg22) = m ((c : Thread nD τ).loc main_arg22) :=
  (show W10 m ρ c (Proc.devRef .tc main_arg22) = W9 m ρ c (Proc.devRef .tc main_arg22) from W10_of_ne m ρ c main_arg22 (by decide)).trans (arg22_at9 m ρ c)
theorem arg22_at11 : W11 m ρ c (Proc.devRef .tc main_arg22) = m ((c : Thread nD τ).loc main_arg22) :=
  (show W11 m ρ c (Proc.devRef .tc main_arg22) = W10 m ρ c (Proc.devRef .tc main_arg22) from host_keep hostOps5).trans (arg22_at10 m ρ c)
theorem arg22_at12 : W12 m ρ c (Proc.devRef .tc main_arg22) = m ((c : Thread nD τ).loc main_arg22) :=
  (show W12 m ρ c (Proc.devRef .tc main_arg22) = W11 m ρ c (Proc.devRef .tc main_arg22) from W12_of_ne m ρ c main_arg22 (by decide)).trans (arg22_at11 m ρ c)
/-- `main_v1` has its value at boundary 1 and is not written again up to boundary 8. -/
theorem v1_at1 : W1 m ρ c (Proc.devRef .tc main_v1) = W1 m ρ c (Proc.devRef .tc main_v1) := rfl
theorem v1_at2 : W2 m ρ c (Proc.devRef .tc main_v1) = W1 m ρ c (Proc.devRef .tc main_v1) :=
  (show W2 m ρ c (Proc.devRef .tc main_v1) = W1 m ρ c (Proc.devRef .tc main_v1) from W2_of_ne m ρ c main_v1 (by decide)).trans (v1_at1 m ρ c)
theorem v1_at3 : W3 m ρ c (Proc.devRef .tc main_v1) = W1 m ρ c (Proc.devRef .tc main_v1) :=
  (show W3 m ρ c (Proc.devRef .tc main_v1) = W2 m ρ c (Proc.devRef .tc main_v1) from host_keep hostOps1).trans (v1_at2 m ρ c)
theorem v1_at4 : W4 m ρ c (Proc.devRef .tc main_v1) = W1 m ρ c (Proc.devRef .tc main_v1) :=
  (show W4 m ρ c (Proc.devRef .tc main_v1) = W3 m ρ c (Proc.devRef .tc main_v1) from W4_of_ne m ρ c main_v1 (by decide)).trans (v1_at3 m ρ c)
theorem v1_at5 : W5 m ρ c (Proc.devRef .tc main_v1) = W1 m ρ c (Proc.devRef .tc main_v1) :=
  (show W5 m ρ c (Proc.devRef .tc main_v1) = W4 m ρ c (Proc.devRef .tc main_v1) from host_keep hostOps2).trans (v1_at4 m ρ c)
theorem v1_at6 : W6 m ρ c (Proc.devRef .tc main_v1) = W1 m ρ c (Proc.devRef .tc main_v1) :=
  (show W6 m ρ c (Proc.devRef .tc main_v1) = W5 m ρ c (Proc.devRef .tc main_v1) from W6_of_ne m ρ c main_v1 (by decide)).trans (v1_at5 m ρ c)
theorem v1_at7 : W7 m ρ c (Proc.devRef .tc main_v1) = W1 m ρ c (Proc.devRef .tc main_v1) :=
  (show W7 m ρ c (Proc.devRef .tc main_v1) = W6 m ρ c (Proc.devRef .tc main_v1) from host_keep hostOps3).trans (v1_at6 m ρ c)
theorem v1_at8 : W8 m ρ c (Proc.devRef .tc main_v1) = W1 m ρ c (Proc.devRef .tc main_v1) :=
  (show W8 m ρ c (Proc.devRef .tc main_v1) = W7 m ρ c (Proc.devRef .tc main_v1) from W8_of_ne m ρ c main_v1 (by decide)).trans (v1_at7 m ρ c)
/-- `main_v3` has its value at boundary 1 and is not written again up to boundary 10. -/
theorem v3_at1 : W1 m ρ c (Proc.devRef .tc main_v3) = W1 m ρ c (Proc.devRef .tc main_v3) := rfl
theorem v3_at2 : W2 m ρ c (Proc.devRef .tc main_v3) = W1 m ρ c (Proc.devRef .tc main_v3) :=
  (show W2 m ρ c (Proc.devRef .tc main_v3) = W1 m ρ c (Proc.devRef .tc main_v3) from W2_of_ne m ρ c main_v3 (by decide)).trans (v3_at1 m ρ c)
theorem v3_at3 : W3 m ρ c (Proc.devRef .tc main_v3) = W1 m ρ c (Proc.devRef .tc main_v3) :=
  (show W3 m ρ c (Proc.devRef .tc main_v3) = W2 m ρ c (Proc.devRef .tc main_v3) from host_keep hostOps1).trans (v3_at2 m ρ c)
theorem v3_at4 : W4 m ρ c (Proc.devRef .tc main_v3) = W1 m ρ c (Proc.devRef .tc main_v3) :=
  (show W4 m ρ c (Proc.devRef .tc main_v3) = W3 m ρ c (Proc.devRef .tc main_v3) from W4_of_ne m ρ c main_v3 (by decide)).trans (v3_at3 m ρ c)
theorem v3_at5 : W5 m ρ c (Proc.devRef .tc main_v3) = W1 m ρ c (Proc.devRef .tc main_v3) :=
  (show W5 m ρ c (Proc.devRef .tc main_v3) = W4 m ρ c (Proc.devRef .tc main_v3) from host_keep hostOps2).trans (v3_at4 m ρ c)
theorem v3_at6 : W6 m ρ c (Proc.devRef .tc main_v3) = W1 m ρ c (Proc.devRef .tc main_v3) :=
  (show W6 m ρ c (Proc.devRef .tc main_v3) = W5 m ρ c (Proc.devRef .tc main_v3) from W6_of_ne m ρ c main_v3 (by decide)).trans (v3_at5 m ρ c)
theorem v3_at7 : W7 m ρ c (Proc.devRef .tc main_v3) = W1 m ρ c (Proc.devRef .tc main_v3) :=
  (show W7 m ρ c (Proc.devRef .tc main_v3) = W6 m ρ c (Proc.devRef .tc main_v3) from host_keep hostOps3).trans (v3_at6 m ρ c)
theorem v3_at8 : W8 m ρ c (Proc.devRef .tc main_v3) = W1 m ρ c (Proc.devRef .tc main_v3) :=
  (show W8 m ρ c (Proc.devRef .tc main_v3) = W7 m ρ c (Proc.devRef .tc main_v3) from W8_of_ne m ρ c main_v3 (by decide)).trans (v3_at7 m ρ c)
theorem v3_at9 : W9 m ρ c (Proc.devRef .tc main_v3) = W1 m ρ c (Proc.devRef .tc main_v3) :=
  (show W9 m ρ c (Proc.devRef .tc main_v3) = W8 m ρ c (Proc.devRef .tc main_v3) from host_keep hostOps4).trans (v3_at8 m ρ c)
theorem v3_at10 : W10 m ρ c (Proc.devRef .tc main_v3) = W1 m ρ c (Proc.devRef .tc main_v3) :=
  (show W10 m ρ c (Proc.devRef .tc main_v3) = W9 m ρ c (Proc.devRef .tc main_v3) from W10_of_ne m ρ c main_v3 (by decide)).trans (v3_at9 m ρ c)
/-- `main_v18` has its value at boundary 4 and is not written again up to boundary 7. -/
theorem v18_at4 : W4 m ρ c (Proc.devRef .tc main_v18) = W4 m ρ c (Proc.devRef .tc main_v18) := rfl
theorem v18_at5 : W5 m ρ c (Proc.devRef .tc main_v18) = W4 m ρ c (Proc.devRef .tc main_v18) :=
  (show W5 m ρ c (Proc.devRef .tc main_v18) = W4 m ρ c (Proc.devRef .tc main_v18) from host_keep hostOps2).trans (v18_at4 m ρ c)
theorem v18_at6 : W6 m ρ c (Proc.devRef .tc main_v18) = W4 m ρ c (Proc.devRef .tc main_v18) :=
  (show W6 m ρ c (Proc.devRef .tc main_v18) = W5 m ρ c (Proc.devRef .tc main_v18) from W6_of_ne m ρ c main_v18 (by decide)).trans (v18_at5 m ρ c)
theorem v18_at7 : W7 m ρ c (Proc.devRef .tc main_v18) = W4 m ρ c (Proc.devRef .tc main_v18) :=
  (show W7 m ρ c (Proc.devRef .tc main_v18) = W6 m ρ c (Proc.devRef .tc main_v18) from host_keep hostOps3).trans (v18_at6 m ρ c)
/-- `main_v33` has its value at boundary 8 and is not written again up to boundary 11. -/
theorem v33_at8 : W8 m ρ c (Proc.devRef .tc main_v33) = W8 m ρ c (Proc.devRef .tc main_v33) := rfl
theorem v33_at9 : W9 m ρ c (Proc.devRef .tc main_v33) = W8 m ρ c (Proc.devRef .tc main_v33) :=
  (show W9 m ρ c (Proc.devRef .tc main_v33) = W8 m ρ c (Proc.devRef .tc main_v33) from host_keep hostOps4).trans (v33_at8 m ρ c)
theorem v33_at10 : W10 m ρ c (Proc.devRef .tc main_v33) = W8 m ρ c (Proc.devRef .tc main_v33) :=
  (show W10 m ρ c (Proc.devRef .tc main_v33) = W9 m ρ c (Proc.devRef .tc main_v33) from W10_of_ne m ρ c main_v33 (by decide)).trans (v33_at9 m ρ c)
theorem v33_at11 : W11 m ρ c (Proc.devRef .tc main_v33) = W8 m ρ c (Proc.devRef .tc main_v33) :=
  (show W11 m ρ c (Proc.devRef .tc main_v33) = W10 m ρ c (Proc.devRef .tc main_v33) from host_keep hostOps5).trans (v33_at10 m ρ c)

end Cert.KernelIdeal.Kept

end
-- ==== Proof.Spec.lean ====
/-
  The mathematics both programs compute, stated once over plain extended-real arrays of the literal shapes.

  A layer of the network has two dense steps.  The MESSAGE step sends, along every edge e, the row
  relu((xs e + ea e · We) + be): the gathered source row plus the edge attributes' projection plus a bias row,
  clamped below at zero.  The NODE step maps every node row r through a two-layer perceptron,
  relu(relu(((x r + agg r) · W1) + b1) · W2 + b2).  A matrix product is the finite sum over the contracted axis;
  nothing here needs the entries to be finite.  The zero the clamps compare with is kept as the f32 word 0x00000000
  read as an extended real (it is 0): both programs spell it by that word.
-/
import Idealize.ShloMosaic.PureOps.Ideal
import Idealize.ShloMosaic.Lib.ValueIdx

noncomputable section

namespace Cert.Gine

open Idealize.ShloMosaic Idealize.ShloMosaic.ValueIdx

/-- The f32 word 0x00000000 as an extended real. -/
abbrev zeroWord : EReal := Ideal.ofBits .f32 0x00000000#32

/-- Row and column of an index of a two-axis array, as numbers below the literal extents. -/
abbrev rowOf {n0 n1 : Nat} (i : (⟨2, ![n0, n1]⟩ : Shape).Idx) : Fin n0 := ⟨(i 0).val, idx2_lt0 i⟩
abbrev colOf {n0 n1 : Nat} (i : (⟨2, ![n0, n1]⟩ : Shape).Idx) : Fin n1 := ⟨(i 1).val, idx2_lt1 i⟩

/-- Messages into 64 channels: entry (e, j) is max ((xs (e, j) + Σ_k ea (e, k) · We (k, j)) + be (0, j)) 0. -/
def msg64 (xs : (⟨2, ![1600000, 64]⟩ : Shape).Idx → EReal) (ea : (⟨2, ![1600000, 16]⟩ : Shape).Idx → EReal)
    (We : (⟨2, ![16, 64]⟩ : Shape).Idx → EReal) (be : (⟨2, ![1, 64]⟩ : Shape).Idx → EReal) :
    (⟨2, ![1600000, 64]⟩ : Shape).Idx → EReal :=
  fun i => max ((xs i + ∑ k : Fin 16, ea (ix2 (rowOf i) k) * We (ix2 k (colOf i))) + be (ix2 (0 : Fin 1) (colOf i))) zeroWord

/-- Messages into 128 channels: the same formula at width 128. -/
def msg128 (xs : (⟨2, ![1600000, 128]⟩ : Shape).Idx → EReal) (ea : (⟨2, ![1600000, 16]⟩ : Shape).Idx → EReal)
    (We : (⟨2, ![16, 128]⟩ : Shape).Idx → EReal) (be : (⟨2, ![1, 128]⟩ : Shape).Idx → EReal) :
    (⟨2, ![1600000, 128]⟩ : Shape).Idx → EReal :=
  fun i => max ((xs i + ∑ k : Fin 16, ea (ix2 (rowOf i) k) * We (ix2 k (colOf i))) + be (ix2 (0 : Fin 1) (colOf i))) zeroWord

/-- The hidden row of the node step from 64 channels: entry (r, h) is
    max ((Σ_k (x (r, k) + agg (r, k)) · W1 (k, h)) + b1 (0, h)) 0. -/
def hidden64 (x agg : (⟨2, ![50000, 64]⟩ : Shape).Idx → EReal) (W1 : (⟨2, ![64, 128]⟩ : Shape).Idx → EReal)
    (b1 : (⟨2, ![1, 128]⟩ : Shape).Idx → EReal) (r : Fin 50000) (h : Fin 128) : EReal :=
  max ((∑ k : Fin 64, (x (ix2 r k) + agg (ix2 r k)) * W1 (ix2 k h)) + b1 (ix2 (0 : Fin 1) h)) zeroWord

/-- The node step from 64 channels: entry (r, j) is max ((Σ_h hidden (r, h) · W2 (h, j)) + b2 (0, j)) 0. -/
def node64 (x agg : (⟨2, ![50000, 64]⟩ : Shape).Idx → EReal) (W1 : (⟨2, ![64, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) : (⟨2, ![50000, 128]⟩ : Shape).Idx → EReal :=
  fun i => max ((∑ h : Fin 128, hidden64 x agg W1 b1 (rowOf i) h * W2 (ix2 h (colOf i))) + b2 (ix2 (0 : Fin 1) (colOf i))) zeroWord

/-- The hidden row of the node step from 128 channels. -/
def hidden128 (x agg : (⟨2, ![50000, 128]⟩ : Shape).Idx → EReal) (W1 : (⟨2, ![128, 128]⟩ : Shape).Idx → EReal)
    (b1 : (⟨2, ![1, 128]⟩ : Shape).Idx → EReal) (r : Fin 50000) (h : Fin 128) : EReal :=
  max ((∑ k : Fin 128, (x (ix2 r k) + agg (ix2 r k)) * W1 (ix2 k h)) + b1 (ix2 (0 : Fin 1) h)) zeroWord

/-- The node step from 128 channels. -/
def node128 (x agg : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) : (⟨2, ![50000, 128]⟩ : Shape).Idx → EReal :=
  fun i => max ((∑ h : Fin 128, hidden128 x agg W1 b1 (rowOf i) h * W2 (ix2 h (colOf i))) + b2 (ix2 (0 : Fin 1) (colOf i))) zeroWord

end Cert.Gine

end
-- ==== Proof.RefStages.lean ====
/-
  The reference program, layer by layer, is the shared specification.  The generated read-at-an-index lemmas give each
  host operation of the reference at an index; chained, a layer's message array is
  max ((gathered + Σ_k ea·We) + bias) 0 and its node array is max ((Σ_h max ((Σ_k (x + agg)·W1) + b1) 0 · W2) + b2) 0,
  entry by entry — the formulas of the specification, with the reference's own gathered rows, aggregated messages and
  bias rows as the inputs.  Also here: a bias vector reshaped to one row and the same vector broadcast to one row are
  the same row (the kernel does the former, the reference the latter).
-/
import proofs.«101451_j12455405159096_1_alg».proof.Proof.Gen.ReferenceIdeal.Read
import proofs.«101451_j12455405159096_1_alg».proof.Proof.Spec
import Idealize.ShloMosaic.PureOps.Ideal
import Idealize.ShloMosaic.Lib.ValueIdx
import Idealize.ShloMosaic.Lib.Pipeline.Value

set_option maxRecDepth 16384

noncomputable section

namespace Cert.ReferenceIdeal.Stages

open Idealize.ShloMosaic Idealize.ShloMosaic.ValueIdx
open Cert.ReferenceIdeal Cert.ReferenceIdeal.Read

/-- A vector of 64 entries reshaped to the one row [1, 64] is the vector broadcast to that row. -/
theorem row64 (x : (⟨S64, .f32⟩ : BufTy).Contents (Elt Ideal)) (h : S64.ShapeCasts S1x64) :
    shapeCast S1x64 x h = val_main_v13 (F := Ideal) x := by
  funext j
  rw [val_main_v13_apply]
  exact (shapeCast_addUnit_apply ![64] x h j).trans (congrArg x (funext fun a => Fin.ext (by match a with | ⟨0, _⟩ => rfl)))

/-- A vector of 128 entries reshaped to the one row [1, 128] is the vector broadcast to that row. -/
theorem row128 (x : (⟨S128, .f32⟩ : BufTy).Contents (Elt Ideal)) (h : S128.ShapeCasts S1x128) :
    shapeCast S1x128 x h = val_main_v22 (F := Ideal) x := by
  funext j
  rw [val_main_v22_apply]
  exact (shapeCast_addUnit_apply ![128] x h j).trans (congrArg x (funext fun a => Fin.ext (by match a with | ⟨0, _⟩ => rfl)))

/-- The reference's messages of this layer are the specification's: the gathered rows, plus the edge projection (the
    host's dot_general is the finite sum over the 16 edge attributes), plus the bias row broadcast along the edges,
    clamped at zero. -/
theorem v16_eq (x0 : (⟨S50000x64, .f32⟩ : BufTy).Contents (Elt Ideal)) (x1 : (⟨S2x1600000, .i32⟩ : BufTy).Contents (Elt Ideal)) (x2 : (⟨S1600000x16, .f32⟩ : BufTy).Contents (Elt Ideal)) (x3 : (⟨S16x64, .f32⟩ : BufTy).Contents (Elt Ideal)) (x4 : (⟨S64, .f32⟩ : BufTy).Contents (Elt Ideal)) :
    val_main_v16 (F := Ideal) x0 x1 x2 x3 x4
      = Cert.Gine.msg64 (val_main_v10 (F := Ideal) x0 x1) x2 x3 (val_main_v13 (F := Ideal) x4) := by
  funext i
  obtain ⟨p, q, rfl⟩ : ∃ (p : Fin 1600000) (q : Fin 64), i = ix2 p q := ⟨i 0, i 1, eq_ix2 i⟩
  have el : ∀ k : Fin 16, lidx_main_v11 (ix2 p q) k = ix2 p k := fun k => funext fun a => Fin.ext (by match a with | ⟨0, _⟩ => rfl | ⟨1, _⟩ => rfl)
  have er : ∀ k : Fin 16, ridx_main_v11 (ix2 p q) k = ix2 k q := fun k => funext fun a => Fin.ext (by match a with | ⟨0, _⟩ => rfl | ⟨1, _⟩ => rfl)
  have eb : idx_main_v14 (ix2 p q) = ix2 (0 : Fin 1) q := funext fun a => Fin.ext (by match a with | ⟨0, _⟩ => rfl | ⟨1, _⟩ => rfl)
  rw [val_main_v16_apply, val_main_v15_apply, val_main_v12_apply, val_main_v11_apply, val_main_v14_apply,
    val_main_call0_v0_apply, val_main_call0_cst_apply, eb]
  simp only [el, er]
  rfl

/-- The reference's node step of this layer is the specification's: both dot_generals are finite sums over the
    contracted axis, the bias rows are broadcast along the nodes, and each relu is a maximum with zero. -/
theorem v30_eq (x0 : (⟨S50000x64, .f32⟩ : BufTy).Contents (Elt Ideal)) (x1 : (⟨S2x1600000, .i32⟩ : BufTy).Contents (Elt Ideal)) (x2 : (⟨S1600000x16, .f32⟩ : BufTy).Contents (Elt Ideal)) (x3 : (⟨S16x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v30 (F := Ideal) x0 x1 x2 x3 x4 x5 x6 x7 x8
      = Cert.Gine.node64 x0 (val_main_v19 (F := Ideal) x0 x1 x2 x3 x4) x5 (val_main_v22 (F := Ideal) x6) x7 (val_main_v27 (F := Ideal) x8) := by
  funext i
  obtain ⟨p, q, rfl⟩ : ∃ (p : Fin 50000) (q : Fin 128), i = ix2 p q := ⟨i 0, i 1, eq_ix2 i⟩
  have inner : ∀ h : Fin 128, val_main_v25 (F := Ideal) x0 x1 x2 x3 x4 x5 x6 (ix2 p h)
      = Cert.Gine.hidden64 x0 (val_main_v19 (F := Ideal) x0 x1 x2 x3 x4) x5 (val_main_v22 (F := Ideal) x6) p h := fun h => by
    have el1 : ∀ k : Fin 64, lidx_main_v21 (ix2 p h) k = ix2 p k := fun k => funext fun a => Fin.ext (by match a with | ⟨0, _⟩ => rfl | ⟨1, _⟩ => rfl)
    have er1 : ∀ k : Fin 64, ridx_main_v21 (ix2 p h) k = ix2 k h := fun k => funext fun a => Fin.ext (by match a with | ⟨0, _⟩ => rfl | ⟨1, _⟩ => rfl)
    have eb1 : idx_main_v23 (ix2 p h) = ix2 (0 : Fin 1) h := funext fun a => Fin.ext (by match a with | ⟨0, _⟩ => rfl | ⟨1, _⟩ => rfl)
    rw [val_main_v25_apply, val_main_v24_apply, val_main_v21_apply, val_main_v23_apply,
      val_main_call1_v0_apply, val_main_call1_cst_apply, eb1]
    simp only [el1, er1, val_main_v20_apply]
    rfl
  have el2 : ∀ h : Fin 128, lidx_main_v26 (ix2 p q) h = ix2 p h := fun h => funext fun a => Fin.ext (by match a with | ⟨0, _⟩ => rfl | ⟨1, _⟩ => rfl)
  have er2 : ∀ h : Fin 128, ridx_main_v26 (ix2 p q) h = ix2 h q := fun h => funext fun a => Fin.ext (by match a with | ⟨0, _⟩ => rfl | ⟨1, _⟩ => rfl)
  have eb2 : idx_main_v28 (ix2 p q) = ix2 (0 : Fin 1) q := funext fun a => Fin.ext (by match a with | ⟨0, _⟩ => rfl | ⟨1, _⟩ => rfl)
  rw [val_main_v30_apply, val_main_v29_apply, val_main_v26_apply, val_main_v28_apply,
    val_main_call2_v0_apply, val_main_call2_cst_apply, eb2]
  simp only [el2, er2, inner]
  rfl

/-- The reference's messages of this layer are the specification's: the gathered rows, plus the edge projection (the
    host's dot_general is the finite sum over the 16 edge attributes), plus the bias row broadcast along the edges,
    clamped at zero. -/
theorem v43_eq (x0 : (⟨S50000x64, .f32⟩ : BufTy).Contents (Elt Ideal)) (x1 : (⟨S2x1600000, .i32⟩ : BufTy).Contents (Elt Ideal)) (x2 : (⟨S1600000x16, .f32⟩ : BufTy).Contents (Elt Ideal)) (x3 : (⟨S16x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S16x128, .f32⟩ : BufTy).Contents (Elt Ideal)) (x10 : (⟨S128, .f32⟩ : BufTy).Contents (Elt Ideal)) :
    val_main_v43 (F := Ideal) x0 x1 x2 x3 x4 x5 x6 x7 x8 x9 x10
      = Cert.Gine.msg128 (val_main_v37 (F := Ideal) x0 x1 x2 x3 x4 x5 x6 x7 x8) x2 x9 (val_main_v40 (F := Ideal) x10) := by
  funext i
  obtain ⟨p, q, rfl⟩ : ∃ (p : Fin 1600000) (q : Fin 128), i = ix2 p q := ⟨i 0, i 1, eq_ix2 i⟩
  have el : ∀ k : Fin 16, lidx_main_v38 (ix2 p q) k = ix2 p k := fun k => funext fun a => Fin.ext (by match a with | ⟨0, _⟩ => rfl | ⟨1, _⟩ => rfl)
  have er : ∀ k : Fin 16, ridx_main_v38 (ix2 p q) k = ix2 k q := fun k => funext fun a => Fin.ext (by match a with | ⟨0, _⟩ => rfl | ⟨1, _⟩ => rfl)
  have eb : idx_main_v41 (ix2 p q) = ix2 (0 : Fin 1) q := funext fun a => Fin.ext (by match a with | ⟨0, _⟩ => rfl | ⟨1, _⟩ => rfl)
  rw [val_main_v43_apply, val_main_v42_apply, val_main_v39_apply, val_main_v38_apply, val_main_v41_apply,
    val_main_call3_v0_apply, val_main_call3_cst_apply, eb]
  simp only [el, er]
  rfl

/-- The reference's node step of this layer is the specification's: both dot_generals are finite sums over the
    contracted axis, the bias rows are broadcast along the nodes, and each relu is a maximum with zero. -/
theorem v57_eq (x0 : (⟨S50000x64, .f32⟩ : BufTy).Contents (Elt Ideal)) (x1 : (⟨S2x1600000, .i32⟩ : BufTy).Contents (Elt Ideal)) (x2 : (⟨S1600000x16, .f32⟩ : BufTy).Contents (Elt Ideal)) (x3 : (⟨S16x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S16x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v57 (F := Ideal) x0 x1 x2 x3 x4 x5 x6 x7 x8 x9 x10 x11 x12 x13 x14
      = Cert.Gine.node128 (val_main_v30 (F := Ideal) x0 x1 x2 x3 x4 x5 x6 x7 x8) (val_main_v46 (F := Ideal) x0 x1 x2 x3 x4 x5 x6 x7 x8 x9 x10) x11 (val_main_v49 (F := Ideal) x12) x13 (val_main_v54 (F := Ideal) x14) := by
  funext i
  obtain ⟨p, q, rfl⟩ : ∃ (p : Fin 50000) (q : Fin 128), i = ix2 p q := ⟨i 0, i 1, eq_ix2 i⟩
  have inner : ∀ h : Fin 128, val_main_v52 (F := Ideal) x0 x1 x2 x3 x4 x5 x6 x7 x8 x9 x10 x11 x12 (ix2 p h)
      = Cert.Gine.hidden128 (val_main_v30 (F := Ideal) x0 x1 x2 x3 x4 x5 x6 x7 x8) (val_main_v46 (F := Ideal) x0 x1 x2 x3 x4 x5 x6 x7 x8 x9 x10) x11 (val_main_v49 (F := Ideal) x12) p h := fun h => by
    have el1 : ∀ k : Fin 128, lidx_main_v48 (ix2 p h) k = ix2 p k := fun k => funext fun a => Fin.ext (by match a with | ⟨0, _⟩ => rfl | ⟨1, _⟩ => rfl)
    have er1 : ∀ k : Fin 128, ridx_main_v48 (ix2 p h) k = ix2 k h := fun k => funext fun a => Fin.ext (by match a with | ⟨0, _⟩ => rfl | ⟨1, _⟩ => rfl)
    have eb1 : idx_main_v50 (ix2 p h) = ix2 (0 : Fin 1) h := funext fun a => Fin.ext (by match a with | ⟨0, _⟩ => rfl | ⟨1, _⟩ => rfl)
    rw [val_main_v52_apply, val_main_v51_apply, val_main_v48_apply, val_main_v50_apply,
      val_main_call4_v0_apply, val_main_call4_cst_apply, eb1]
    simp only [el1, er1, val_main_v47_apply]
    rfl
  have el2 : ∀ h : Fin 128, lidx_main_v53 (ix2 p q) h = ix2 p h := fun h => funext fun a => Fin.ext (by match a with | ⟨0, _⟩ => rfl | ⟨1, _⟩ => rfl)
  have er2 : ∀ h : Fin 128, ridx_main_v53 (ix2 p q) h = ix2 h q := fun h => funext fun a => Fin.ext (by match a with | ⟨0, _⟩ => rfl | ⟨1, _⟩ => rfl)
  have eb2 : idx_main_v55 (ix2 p q) = ix2 (0 : Fin 1) q := funext fun a => Fin.ext (by match a with | ⟨0, _⟩ => rfl | ⟨1, _⟩ => rfl)
  rw [val_main_v57_apply, val_main_v56_apply, val_main_v53_apply, val_main_v55_apply,
    val_main_call5_v0_apply, val_main_call5_cst_apply, eb2]
  simp only [el2, er2, inner]
  rfl

/-- The reference's messages of this layer are the specification's: the gathered rows, plus the edge projection (the
    host's dot_general is the finite sum over the 16 edge attributes), plus the bias row broadcast along the edges,
    clamped at zero. -/
theorem v70_eq (x0 : (⟨S50000x64, .f32⟩ : BufTy).Contents (Elt Ideal)) (x1 : (⟨S2x1600000, .i32⟩ : BufTy).Contents (Elt Ideal)) (x2 : (⟨S1600000x16, .f32⟩ : BufTy).Contents (Elt Ideal)) (x3 : (⟨S16x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S16x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S16x128, .f32⟩ : BufTy).Contents (Elt Ideal)) (x16 : (⟨S128, .f32⟩ : BufTy).Contents (Elt Ideal)) :
    val_main_v70 (F := Ideal) x0 x1 x2 x3 x4 x5 x6 x7 x8 x9 x10 x11 x12 x13 x14 x15 x16
      = Cert.Gine.msg128 (val_main_v64 (F := Ideal) x0 x1 x2 x3 x4 x5 x6 x7 x8 x9 x10 x11 x12 x13 x14) x2 x15 (val_main_v67 (F := Ideal) x16) := by
  funext i
  obtain ⟨p, q, rfl⟩ : ∃ (p : Fin 1600000) (q : Fin 128), i = ix2 p q := ⟨i 0, i 1, eq_ix2 i⟩
  have el : ∀ k : Fin 16, lidx_main_v65 (ix2 p q) k = ix2 p k := fun k => funext fun a => Fin.ext (by match a with | ⟨0, _⟩ => rfl | ⟨1, _⟩ => rfl)
  have er : ∀ k : Fin 16, ridx_main_v65 (ix2 p q) k = ix2 k q := fun k => funext fun a => Fin.ext (by match a with | ⟨0, _⟩ => rfl | ⟨1, _⟩ => rfl)
  have eb : idx_main_v68 (ix2 p q) = ix2 (0 : Fin 1) q := funext fun a => Fin.ext (by match a with | ⟨0, _⟩ => rfl | ⟨1, _⟩ => rfl)
  rw [val_main_v70_apply, val_main_v69_apply, val_main_v66_apply, val_main_v65_apply, val_main_v68_apply,
    val_main_call6_v0_apply, val_main_call6_cst_apply, eb]
  simp only [el, er]
  rfl

/-- The reference's node step of this layer is the specification's: both dot_generals are finite sums over the
    contracted axis, the bias rows are broadcast along the nodes, and each relu is a maximum with zero. -/
theorem v84_eq (x0 : (⟨S50000x64, .f32⟩ : BufTy).Contents (Elt Ideal)) (x1 : (⟨S2x1600000, .i32⟩ : BufTy).Contents (Elt Ideal)) (x2 : (⟨S1600000x16, .f32⟩ : BufTy).Contents (Elt Ideal)) (x3 : (⟨S16x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S16x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S16x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) :
    val_main_v84 (F := Ideal) x0 x1 x2 x3 x4 x5 x6 x7 x8 x9 x10 x11 x12 x13 x14 x15 x16 x17 x18 x19 x20
      = Cert.Gine.node128 (val_main_v57 (F := Ideal) x0 x1 x2 x3 x4 x5 x6 x7 x8 x9 x10 x11 x12 x13 x14) (val_main_v73 (F := Ideal) x0 x1 x2 x3 x4 x5 x6 x7 x8 x9 x10 x11 x12 x13 x14 x15 x16) x17 (val_main_v76 (F := Ideal) x18) x19 (val_main_v81 (F := Ideal) x20) := by
  funext i
  obtain ⟨p, q, rfl⟩ : ∃ (p : Fin 50000) (q : Fin 128), i = ix2 p q := ⟨i 0, i 1, eq_ix2 i⟩
  have inner : ∀ h : Fin 128, val_main_v79 (F := Ideal) x0 x1 x2 x3 x4 x5 x6 x7 x8 x9 x10 x11 x12 x13 x14 x15 x16 x17 x18 (ix2 p h)
      = Cert.Gine.hidden128 (val_main_v57 (F := Ideal) x0 x1 x2 x3 x4 x5 x6 x7 x8 x9 x10 x11 x12 x13 x14) (val_main_v73 (F := Ideal) x0 x1 x2 x3 x4 x5 x6 x7 x8 x9 x10 x11 x12 x13 x14 x15 x16) x17 (val_main_v76 (F := Ideal) x18) p h := fun h => by
    have el1 : ∀ k : Fin 128, lidx_main_v75 (ix2 p h) k = ix2 p k := fun k => funext fun a => Fin.ext (by match a with | ⟨0, _⟩ => rfl | ⟨1, _⟩ => rfl)
    have er1 : ∀ k : Fin 128, ridx_main_v75 (ix2 p h) k = ix2 k h := fun k => funext fun a => Fin.ext (by match a with | ⟨0, _⟩ => rfl | ⟨1, _⟩ => rfl)
    have eb1 : idx_main_v77 (ix2 p h) = ix2 (0 : Fin 1) h := funext fun a => Fin.ext (by match a with | ⟨0, _⟩ => rfl | ⟨1, _⟩ => rfl)
    rw [val_main_v79_apply, val_main_v78_apply, val_main_v75_apply, val_main_v77_apply,
      val_main_call7_v0_apply, val_main_call7_cst_apply, eb1]
    simp only [el1, er1, val_main_v74_apply]
    rfl
  have el2 : ∀ h : Fin 128, lidx_main_v80 (ix2 p q) h = ix2 p h := fun h => funext fun a => Fin.ext (by match a with | ⟨0, _⟩ => rfl | ⟨1, _⟩ => rfl)
  have er2 : ∀ h : Fin 128, ridx_main_v80 (ix2 p q) h = ix2 h q := fun h => funext fun a => Fin.ext (by match a with | ⟨0, _⟩ => rfl | ⟨1, _⟩ => rfl)
  have eb2 : idx_main_v82 (ix2 p q) = ix2 (0 : Fin 1) q := funext fun a => Fin.ext (by match a with | ⟨0, _⟩ => rfl | ⟨1, _⟩ => rfl)
  rw [val_main_v84_apply, val_main_v83_apply, val_main_v80_apply, val_main_v82_apply,
    val_main_call8_v0_apply, val_main_call8_cst_apply, eb2]
  simp only [el2, er2, inner]
  rfl

end Cert.ReferenceIdeal.Stages

end
-- ==== Proof.Fold.lean ====
/-
  The idealized kernel's boundary contents, stage by stage, are the reference's stages.  Walking @main from the launch:
  the first host stretch computes the edge endpoints and gathers the source rows exactly as the reference does; a
  message region leaves the specification's message array of its inputs, which the reference's own message stage also
  is; the next stretch scatter-adds it over the destination nodes with the reference's operation; a node region leaves
  the specification's node array, again the reference's stage; and so on through three layers, to the head (a product
  with the last weight column, a bias, and 1 / (1 + exp (−·))), which both programs spell with the same operations.
  Hence the kernel's result array is the reference's result term of the launch arguments.
  The six facts about the regions (what each leaves in its output array, for any entry contents) are taken as
  hypotheses here and proved region by region in their own modules.  In every host step the contents the stretch starts
  from enter only through the few buffers it reads, so they are replaced by an arbitrary valuation with those buffers'
  values as hypotheses before the stretch's operations are read.
-/
import proofs.«101451_j12455405159096_1_alg».proof.Proof.Kept
import proofs.«101451_j12455405159096_1_alg».proof.Proof.RefStages
import proofs.«101451_j12455405159096_1_alg».proof.Proof.Spec
import Idealize.ShloMosaic.Lib.StableHlo.Run

set_option maxRecDepth 16384
set_option maxHeartbeats 1000000

noncomputable section

namespace Cert.KernelIdeal.Fold

open Idealize.ShloMosaic Idealize.ShloMosaic.TcCoe Idealize.SL.Sem Idealize.ShloMosaic.StableHlo
open Cert.KernelIdeal Cert.KernelIdeal.Gen

/-- What the first message region (into 64 channels) leaves, for any entry contents. -/
def Msg0 : Prop := ∀ (V : (c : Dev nD) → (b : Ref sig .tc) → Buf (Elt Ideal) ((c : Thread nD τ).loc b)) (c : Dev nD),
  (dat0 (F := Ideal) V c).arrAt 4 cfg0.N = Cert.Gine.msg64 (V c main_v10) (V c main_arg2) (V c main_arg3) (V c main_v11)
/-- What the first node region (from 64 channels) leaves. -/
def Node1 : Prop := ∀ (V : (c : Dev nD) → (b : Ref sig .tc) → Buf (Elt Ideal) ((c : Thread nD τ).loc b)) (c : Dev nD),
  (dat1 (F := Ideal) V c).arrAt 6 cfg1.N = Cert.Gine.node64 (V c main_arg0) (V c main_v15) (V c main_arg5) (V c main_v16) (V c main_arg7) (V c main_v17)
/-- What the second message region leaves. -/
def Msg2 : Prop := ∀ (V : (c : Dev nD) → (b : Ref sig .tc) → Buf (Elt Ideal) ((c : Thread nD τ).loc b)) (c : Dev nD),
  (dat2 (F := Ideal) V c).arrAt 4 cfg2.N = Cert.Gine.msg128 (V c main_v25) (V c main_arg2) (V c main_arg9) (V c main_v26)
/-- What the second node region leaves. -/
def Node3 : Prop := ∀ (V : (c : Dev nD) → (b : Ref sig .tc) → Buf (Elt Ideal) ((c : Thread nD τ).loc b)) (c : Dev nD),
  (dat3 (F := Ideal) V c).arrAt 6 cfg3.N = Cert.Gine.node128 (V c main_v18) (V c main_v30) (V c main_arg11) (V c main_v31) (V c main_arg13) (V c main_v32)
/-- What the third message region leaves. -/
def Msg4 : Prop := ∀ (V : (c : Dev nD) → (b : Ref sig .tc) → Buf (Elt Ideal) ((c : Thread nD τ).loc b)) (c : Dev nD),
  (dat4 (F := Ideal) V c).arrAt 4 cfg4.N = Cert.Gine.msg128 (V c main_v40) (V c main_arg2) (V c main_arg15) (V c main_v41)
/-- What the third node region leaves. -/
def Node5 : Prop := ∀ (V : (c : Dev nD) → (b : Ref sig .tc) → Buf (Elt Ideal) ((c : Thread nD τ).loc b)) (c : Dev nD),
  (dat5 (F := Ideal) V c).arrAt 6 cfg5.N = Cert.Gine.node128 (V c main_v33) (V c main_v45) (V c main_arg17) (V c main_v46) (V c main_arg19) (V c main_v47)

variable (m : (ℓ : Loc nD τ sig) → Buf (Elt Ideal) ℓ) (ρ : Dev nD → PrngReg) (c : Dev nD)

/-! ## Before the first region -/

/-- The source endpoints, as the reference slices them out of the edge index. -/
theorem w1_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results
  rfl

/-- The destination endpoints. -/
theorem w1_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results
  rfl

/-- The gathered source rows of layer 0. -/
theorem w1_v10 : W1 m ρ c (Proc.devRef .tc main_v10) = (Cert.ReferenceIdeal.Read.val_main_v10 (F := Ideal) (m ((c : Thread nD τ).loc main_arg0)) (m ((c : Thread nD τ).loc main_arg1))) := by
  show StableHlo.after hostOps0 (W0 m ρ c) (Proc.devRef .tc main_v10) = _
  after_results
  rfl

/-- The bias vector reshaped to one row is the reference's broadcast row. -/
theorem w1_v11 : W1 m ρ c (Proc.devRef .tc main_v11) = (Cert.ReferenceIdeal.Read.val_main_v13 (F := Ideal) (m ((c : Thread nD τ).loc main_arg4))) := by
  show StableHlo.after hostOps0 (W0 m ρ c) (Proc.devRef .tc main_v11) = _
  after_results
  exact (Cert.ReferenceIdeal.Stages.row64 (m ((c : Thread nD τ).loc main_arg4)) shapeCasts_S64_S1x64).trans rfl

/-! ## Layer 0 -/

/-- Region 0 leaves the reference's layer-0 messages. -/
theorem w2_v12 (hM0 : Msg0) : W2 m ρ c (Proc.devRef .tc main_v12) = (Cert.ReferenceIdeal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have e0 : V1 m ρ c main_v10 = (Cert.ReferenceIdeal.Read.val_main_v10 (F := Ideal) (m ((c : Thread nD τ).loc main_arg0)) (m ((c : Thread nD τ).loc main_arg1))) := w1_v10 m ρ c
  have e1 : V1 m ρ c main_arg2 = (m ((c : Thread nD τ).loc main_arg2)) := Kept.arg2_at1 m ρ c
  have e2 : V1 m ρ c main_arg3 = (m ((c : Thread nD τ).loc main_arg3)) := Kept.arg3_at1 m ρ c
  have e3 : V1 m ρ c main_v11 = (Cert.ReferenceIdeal.Read.val_main_v13 (F := Ideal) (m ((c : Thread nD τ).loc main_arg4))) := w1_v11 m ρ c
  have hr := hM0 (V1 m ρ) c
  rw [e0, e1, e2, e3] at hr
  exact (W2_arr m ρ c 4).trans (hr.trans (Cert.ReferenceIdeal.Stages.v16_eq (m ((c : Thread nD τ).loc main_arg0)) (m ((c : Thread nD τ).loc main_arg1)) (m ((c : Thread nD τ).loc main_arg2)) (m ((c : Thread nD τ).loc main_arg3)) (m ((c : Thread nD τ).loc main_arg4))).symm)

/-- The layer-0 messages summed over each destination node. -/
theorem w3_v15 (hM0 : Msg0) : W3 m ρ c (Proc.devRef .tc main_v15) = (Cert.ReferenceIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have h0 : W2 m ρ c (Proc.devRef .tc main_v12) = (Cert.ReferenceIdeal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := w2_v12 m ρ c hM0
  have h1 : W2 m ρ c (Proc.devRef .tc main_v3) = (Cert.ReferenceIdeal.Read.val_main_v3 (F := Ideal) (m ((c : Thread nD τ).loc main_arg1))) := (Kept.v3_at2 m ρ c).trans (w1_v3 m ρ c)
  show StableHlo.after hostOps1 (W2 m ρ c) (Proc.devRef .tc main_v15) = _
  generalize W2 m ρ c = W at h0 h1 ⊢
  after_results
  rw [h0, h1]
  rfl

/-- The bias vector reshaped to one row is the reference's broadcast row. -/
theorem w3_v16 : W3 m ρ c (Proc.devRef .tc main_v16) = (Cert.ReferenceIdeal.Read.val_main_v22 (F := Ideal) (m ((c : Thread nD τ).loc main_arg6))) := by
  have h0 : W2 m ρ c (Proc.devRef .tc main_arg6) = (m ((c : Thread nD τ).loc main_arg6)) := Kept.arg6_at2 m ρ c
  show StableHlo.after hostOps1 (W2 m ρ c) (Proc.devRef .tc main_v16) = _
  generalize W2 m ρ c = W at h0 ⊢
  after_results
  rw [h0]
  exact (Cert.ReferenceIdeal.Stages.row128 (m ((c : Thread nD τ).loc main_arg6)) shapeCasts_S128_S1x128).trans rfl

/-- The bias vector reshaped to one row is the reference's broadcast row. -/
theorem w3_v17 : W3 m ρ c (Proc.devRef .tc main_v17) = (Cert.ReferenceIdeal.Read.val_main_v27 (F := Ideal) (m ((c : Thread nD τ).loc main_arg8))) := by
  have h0 : W2 m ρ c (Proc.devRef .tc main_arg8) = (m ((c : Thread nD τ).loc main_arg8)) := Kept.arg8_at2 m ρ c
  show StableHlo.after hostOps1 (W2 m ρ c) (Proc.devRef .tc main_v17) = _
  generalize W2 m ρ c = W at h0 ⊢
  after_results
  rw [h0]
  exact (Cert.ReferenceIdeal.Stages.row128 (m ((c : Thread nD τ).loc main_arg8)) shapeCasts_S128_S1x128).trans rfl

/-- Region 1 leaves the reference's layer-0 node features. -/
theorem w4_v18 (hM0 : Msg0) (hN1 : Node1) : W4 m ρ c (Proc.devRef .tc main_v18) = (Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have e0 : V3 m ρ c main_arg0 = (m ((c : Thread nD τ).loc main_arg0)) := Kept.arg0_at3 m ρ c
  have e1 : V3 m ρ c main_v15 = (Cert.ReferenceIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := w3_v15 m ρ c hM0
  have e2 : V3 m ρ c main_arg5 = (m ((c : Thread nD τ).loc main_arg5)) := Kept.arg5_at3 m ρ c
  have e3 : V3 m ρ c main_v16 = (Cert.ReferenceIdeal.Read.val_main_v22 (F := Ideal) (m ((c : Thread nD τ).loc main_arg6))) := w3_v16 m ρ c
  have e4 : V3 m ρ c main_arg7 = (m ((c : Thread nD τ).loc main_arg7)) := Kept.arg7_at3 m ρ c
  have e5 : V3 m ρ c main_v17 = (Cert.ReferenceIdeal.Read.val_main_v27 (F := Ideal) (m ((c : Thread nD τ).loc main_arg8))) := w3_v17 m ρ c
  have hr := hN1 (V3 m ρ) c
  rw [e0, e1, e2, e3, e4, e5] at hr
  exact (W4_arr m ρ c 6).trans (hr.trans (Cert.ReferenceIdeal.Stages.v30_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm)

/-! ## Layer 1 -/

/-- The gathered source rows of layer 1. -/
theorem w5_v25 (hM0 : Msg0) (hN1 : Node1) : W5 m ρ c (Proc.devRef .tc main_v25) = (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h0 : W4 m ρ c (Proc.devRef .tc main_v18) = (Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := w4_v18 m ρ c hM0 hN1
  have h1 : W4 m ρ c (Proc.devRef .tc main_v1) = (Cert.ReferenceIdeal.Read.val_main_v1 (F := Ideal) (m ((c : Thread nD τ).loc main_arg1))) := (Kept.v1_at4 m ρ c).trans (w1_v1 m ρ c)
  show StableHlo.after hostOps2 (W4 m ρ c) (Proc.devRef .tc main_v25) = _
  generalize W4 m ρ c = W at h0 h1 ⊢
  after_results
  rw [h0, h1]
  rfl

/-- The bias vector reshaped to one row is the reference's broadcast row. -/
theorem w5_v26 : W5 m ρ c (Proc.devRef .tc main_v26) = (Cert.ReferenceIdeal.Read.val_main_v40 (F := Ideal) (m ((c : Thread nD τ).loc main_arg10))) := by
  have h0 : W4 m ρ c (Proc.devRef .tc main_arg10) = (m ((c : Thread nD τ).loc main_arg10)) := Kept.arg10_at4 m ρ c
  show StableHlo.after hostOps2 (W4 m ρ c) (Proc.devRef .tc main_v26) = _
  generalize W4 m ρ c = W at h0 ⊢
  after_results
  rw [h0]
  exact (Cert.ReferenceIdeal.Stages.row128 (m ((c : Thread nD τ).loc main_arg10)) shapeCasts_S128_S1x128).trans rfl

/-- Region 2 leaves the reference's layer-1 messages. -/
theorem w6_v27 (hM0 : Msg0) (hN1 : Node1) (hM2 : Msg2) : W6 m ρ c (Proc.devRef .tc main_v27) = (Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e0 : V5 m ρ c main_v25 = (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := w5_v25 m ρ c hM0 hN1
  have e1 : V5 m ρ c main_arg2 = (m ((c : Thread nD τ).loc main_arg2)) := Kept.arg2_at5 m ρ c
  have e2 : V5 m ρ c main_arg9 = (m ((c : Thread nD τ).loc main_arg9)) := Kept.arg9_at5 m ρ c
  have e3 : V5 m ρ c main_v26 = (Cert.ReferenceIdeal.Read.val_main_v40 (F := Ideal) (m ((c : Thread nD τ).loc main_arg10))) := w5_v26 m ρ c
  have hr := hM2 (V5 m ρ) c
  rw [e0, e1, e2, e3] at hr
  exact (W6_arr m ρ c 4).trans (hr.trans (Cert.ReferenceIdeal.Stages.v43_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm)

/-- The layer-1 messages summed over each destination node. -/
theorem w7_v30 (hM0 : Msg0) (hN1 : Node1) (hM2 : Msg2) : W7 m ρ c (Proc.devRef .tc main_v30) = (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have h0 : W6 m ρ c (Proc.devRef .tc main_v27) = (Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := w6_v27 m ρ c hM0 hN1 hM2
  have h1 : W6 m ρ c (Proc.devRef .tc main_v3) = (Cert.ReferenceIdeal.Read.val_main_v3 (F := Ideal) (m ((c : Thread nD τ).loc main_arg1))) := (Kept.v3_at6 m ρ c).trans (w1_v3 m ρ c)
  show StableHlo.after hostOps3 (W6 m ρ c) (Proc.devRef .tc main_v30) = _
  generalize W6 m ρ c = W at h0 h1 ⊢
  after_results
  rw [h0, h1]
  rfl

/-- The bias vector reshaped to one row is the reference's broadcast row. -/
theorem w7_v31 : W7 m ρ c (Proc.devRef .tc main_v31) = (Cert.ReferenceIdeal.Read.val_main_v49 (F := Ideal) (m ((c : Thread nD τ).loc main_arg12))) := by
  have h0 : W6 m ρ c (Proc.devRef .tc main_arg12) = (m ((c : Thread nD τ).loc main_arg12)) := Kept.arg12_at6 m ρ c
  show StableHlo.after hostOps3 (W6 m ρ c) (Proc.devRef .tc main_v31) = _
  generalize W6 m ρ c = W at h0 ⊢
  after_results
  rw [h0]
  exact (Cert.ReferenceIdeal.Stages.row128 (m ((c : Thread nD τ).loc main_arg12)) shapeCasts_S128_S1x128).trans rfl

/-- The bias vector reshaped to one row is the reference's broadcast row. -/
theorem w7_v32 : W7 m ρ c (Proc.devRef .tc main_v32) = (Cert.ReferenceIdeal.Read.val_main_v54 (F := Ideal) (m ((c : Thread nD τ).loc main_arg14))) := by
  have h0 : W6 m ρ c (Proc.devRef .tc main_arg14) = (m ((c : Thread nD τ).loc main_arg14)) := Kept.arg14_at6 m ρ c
  show StableHlo.after hostOps3 (W6 m ρ c) (Proc.devRef .tc main_v32) = _
  generalize W6 m ρ c = W at h0 ⊢
  after_results
  rw [h0]
  exact (Cert.ReferenceIdeal.Stages.row128 (m ((c : Thread nD τ).loc main_arg14)) shapeCasts_S128_S1x128).trans rfl

/-- Region 3 leaves the reference's layer-1 node features. -/
theorem w8_v33 (hM0 : Msg0) (hN1 : Node1) (hM2 : Msg2) (hN3 : Node3) : W8 m ρ c (Proc.devRef .tc main_v33) = (Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  have e0 : V7 m ρ c main_v18 = (Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := (Kept.v18_at7 m ρ c).trans (w4_v18 m ρ c hM0 hN1)
  have e1 : V7 m ρ c main_v30 = (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := w7_v30 m ρ c hM0 hN1 hM2
  have e2 : V7 m ρ c main_arg11 = (m ((c : Thread nD τ).loc main_arg11)) := Kept.arg11_at7 m ρ c
  have e3 : V7 m ρ c main_v31 = (Cert.ReferenceIdeal.Read.val_main_v49 (F := Ideal) (m ((c : Thread nD τ).loc main_arg12))) := w7_v31 m ρ c
  have e4 : V7 m ρ c main_arg13 = (m ((c : Thread nD τ).loc main_arg13)) := Kept.arg13_at7 m ρ c
  have e5 : V7 m ρ c main_v32 = (Cert.ReferenceIdeal.Read.val_main_v54 (F := Ideal) (m ((c : Thread nD τ).loc main_arg14))) := w7_v32 m ρ c
  have hr := hN3 (V7 m ρ) c
  rw [e0, e1, e2, e3, e4, e5] at hr
  exact (W8_arr m ρ c 6).trans (hr.trans (Cert.ReferenceIdeal.Stages.v57_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))).symm)

/-! ## Layer 2 -/

/-- The gathered source rows of layer 2. -/
theorem w9_v40 (hM0 : Msg0) (hN1 : Node1) (hM2 : Msg2) (hN3 : Node3) : W9 m ρ c (Proc.devRef .tc main_v40) = (Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  have h0 : W8 m ρ c (Proc.devRef .tc main_v33) = (Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := w8_v33 m ρ c hM0 hN1 hM2 hN3
  have h1 : W8 m ρ c (Proc.devRef .tc main_v1) = (Cert.ReferenceIdeal.Read.val_main_v1 (F := Ideal) (m ((c : Thread nD τ).loc main_arg1))) := (Kept.v1_at8 m ρ c).trans (w1_v1 m ρ c)
  show StableHlo.after hostOps4 (W8 m ρ c) (Proc.devRef .tc main_v40) = _
  generalize W8 m ρ c = W at h0 h1 ⊢
  after_results
  rw [h0, h1]
  rfl

/-- The bias vector reshaped to one row is the reference's broadcast row. -/
theorem w9_v41 : W9 m ρ c (Proc.devRef .tc main_v41) = (Cert.ReferenceIdeal.Read.val_main_v67 (F := Ideal) (m ((c : Thread nD τ).loc main_arg16))) := by
  have h0 : W8 m ρ c (Proc.devRef .tc main_arg16) = (m ((c : Thread nD τ).loc main_arg16)) := Kept.arg16_at8 m ρ c
  show StableHlo.after hostOps4 (W8 m ρ c) (Proc.devRef .tc main_v41) = _
  generalize W8 m ρ c = W at h0 ⊢
  after_results
  rw [h0]
  exact (Cert.ReferenceIdeal.Stages.row128 (m ((c : Thread nD τ).loc main_arg16)) shapeCasts_S128_S1x128).trans rfl

/-- Region 4 leaves the reference's layer-2 messages. -/
theorem w10_v42 (hM0 : Msg0) (hN1 : Node1) (hM2 : Msg2) (hN3 : Node3) (hM4 : Msg4) : W10 m ρ c (Proc.devRef .tc main_v42) = (Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  have e0 : V9 m ρ c main_v40 = (Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := w9_v40 m ρ c hM0 hN1 hM2 hN3
  have e1 : V9 m ρ c main_arg2 = (m ((c : Thread nD τ).loc main_arg2)) := Kept.arg2_at9 m ρ c
  have e2 : V9 m ρ c main_arg15 = (m ((c : Thread nD τ).loc main_arg15)) := Kept.arg15_at9 m ρ c
  have e3 : V9 m ρ c main_v41 = (Cert.ReferenceIdeal.Read.val_main_v67 (F := Ideal) (m ((c : Thread nD τ).loc main_arg16))) := w9_v41 m ρ c
  have hr := hM4 (V9 m ρ) c
  rw [e0, e1, e2, e3] at hr
  exact (W10_arr m ρ c 4).trans (hr.trans (Cert.ReferenceIdeal.Stages.v70_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))).symm)

/-- The layer-2 messages summed over each destination node. -/
theorem w11_v45 (hM0 : Msg0) (hN1 : Node1) (hM2 : Msg2) (hN3 : Node3) (hM4 : Msg4) : W11 m ρ c (Proc.devRef .tc main_v45) = (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  have h0 : W10 m ρ c (Proc.devRef .tc main_v42) = (Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := w10_v42 m ρ c hM0 hN1 hM2 hN3 hM4
  have h1 : W10 m ρ c (Proc.devRef .tc main_v3) = (Cert.ReferenceIdeal.Read.val_main_v3 (F := Ideal) (m ((c : Thread nD τ).loc main_arg1))) := (Kept.v3_at10 m ρ c).trans (w1_v3 m ρ c)
  show StableHlo.after hostOps5 (W10 m ρ c) (Proc.devRef .tc main_v45) = _
  generalize W10 m ρ c = W at h0 h1 ⊢
  after_results
  rw [h0, h1]
  rfl

/-- The bias vector reshaped to one row is the reference's broadcast row. -/
theorem w11_v46 : W11 m ρ c (Proc.devRef .tc main_v46) = (Cert.ReferenceIdeal.Read.val_main_v76 (F := Ideal) (m ((c : Thread nD τ).loc main_arg18))) := by
  have h0 : W10 m ρ c (Proc.devRef .tc main_arg18) = (m ((c : Thread nD τ).loc main_arg18)) := Kept.arg18_at10 m ρ c
  show StableHlo.after hostOps5 (W10 m ρ c) (Proc.devRef .tc main_v46) = _
  generalize W10 m ρ c = W at h0 ⊢
  after_results
  rw [h0]
  exact (Cert.ReferenceIdeal.Stages.row128 (m ((c : Thread nD τ).loc main_arg18)) shapeCasts_S128_S1x128).trans rfl

/-- The bias vector reshaped to one row is the reference's broadcast row. -/
theorem w11_v47 : W11 m ρ c (Proc.devRef .tc main_v47) = (Cert.ReferenceIdeal.Read.val_main_v81 (F := Ideal) (m ((c : Thread nD τ).loc main_arg20))) := by
  have h0 : W10 m ρ c (Proc.devRef .tc main_arg20) = (m ((c : Thread nD τ).loc main_arg20)) := Kept.arg20_at10 m ρ c
  show StableHlo.after hostOps5 (W10 m ρ c) (Proc.devRef .tc main_v47) = _
  generalize W10 m ρ c = W at h0 ⊢
  after_results
  rw [h0]
  exact (Cert.ReferenceIdeal.Stages.row128 (m ((c : Thread nD τ).loc main_arg20)) shapeCasts_S128_S1x128).trans rfl

/-- Region 5 leaves the reference's layer-2 node features. -/
theorem w12_v48 (hM0 : Msg0) (hN1 : Node1) (hM2 : Msg2) (hN3 : Node3) (hM4 : Msg4) (hN5 : Node5) : W12 m ρ c (Proc.devRef .tc main_v48) = (Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  have e0 : V11 m ρ c main_v33 = (Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := (Kept.v33_at11 m ρ c).trans (w8_v33 m ρ c hM0 hN1 hM2 hN3)
  have e1 : V11 m ρ c main_v45 = (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := w11_v45 m ρ c hM0 hN1 hM2 hN3 hM4
  have e2 : V11 m ρ c main_arg17 = (m ((c : Thread nD τ).loc main_arg17)) := Kept.arg17_at11 m ρ c
  have e3 : V11 m ρ c main_v46 = (Cert.ReferenceIdeal.Read.val_main_v76 (F := Ideal) (m ((c : Thread nD τ).loc main_arg18))) := w11_v46 m ρ c
  have e4 : V11 m ρ c main_arg19 = (m ((c : Thread nD τ).loc main_arg19)) := Kept.arg19_at11 m ρ c
  have e5 : V11 m ρ c main_v47 = (Cert.ReferenceIdeal.Read.val_main_v81 (F := Ideal) (m ((c : Thread nD τ).loc main_arg20))) := w11_v47 m ρ c
  have hr := hN5 (V11 m ρ) c
  rw [e0, e1, e2, e3, e4, e5] at hr
  exact (W12_arr m ρ c 6).trans (hr.trans (Cert.ReferenceIdeal.Stages.v84_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))).symm)

/-! ## The head -/

/-- The kernel's result array at the return is the reference's result term of the launch arguments. -/
theorem result (hM0 : Msg0) (hN1 : Node1) (hM2 : Msg2) (hN3 : Node3) (hM4 : Msg4) (hN5 : Node5) : W13 m ρ c (Proc.devRef .tc main_v59) = (Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  have h0 : W12 m ρ c (Proc.devRef .tc main_v48) = (Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := w12_v48 m ρ c hM0 hN1 hM2 hN3 hM4 hN5
  have h1 : W12 m ρ c (Proc.devRef .tc main_arg21) = (m ((c : Thread nD τ).loc main_arg21)) := Kept.arg21_at12 m ρ c
  have h2 : W12 m ρ c (Proc.devRef .tc main_arg22) = (m ((c : Thread nD τ).loc main_arg22)) := Kept.arg22_at12 m ρ c
  show StableHlo.after hostOps6 (W12 m ρ c) (Proc.devRef .tc main_v59) = _
  generalize W12 m ρ c = W at h0 h1 h2 ⊢
  after_results
  rw [h0, h1, h2]
  rfl

end Cert.KernelIdeal.Fold

end
-- ==== Proof.MsgRegion0.lean ====
/-
  The first message step, read off the blocks: the 1600000 x 64 array of messages that the 400 grid points leave is,
  entry by entry, the clamped sum  max ((xs (e, j) + Σ_k ea (e, k) · We (k, j)) + be (0, j)) 0.

  Grid point t handles the 4000 edges [4000 t, 4000 t + 4000): it reads those rows of the edge attributes and of the
  gathered source rows, the whole weight matrix and the whole bias row, and writes those rows of the result.  So the
  block that point t writes is the restriction of one whole-array function to its rows, and the blocks of the 400
  points tile the array: row r belongs to point r / 4000.
-/
import proofs.«101451_j12455405159096_1_alg».proof.Proof.Gen.KernelIdeal.Frame
import proofs.«101451_j12455405159096_1_alg».proof.Proof.Spec
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Msg64

open Cert.KernelIdeal Cert.KernelIdeal.Gen Idealize.ShloMosaic Idealize.ShloMosaic.TcCoe Idealize.ShloMosaic.ValueIdx
open Idealize.ShloMosaic.Pipeline (Dat)

/-! ## One entry of the block a point computes -/

/-- The product's dimension numbers: the left operand's row is the result's row. -/
theorem lhs_row (i : S4000x64.Idx) (s : dot_S4000x16_S16x64_S4000x64_1_0_0_1_n_n.contr.Idx) :
    (dot_S4000x16_S16x64_S4000x64_1_0_0_1_n_n.lhsIdx i s 0).val = (i 0).val := by
  unfold DotDims.lhsIdx
  rw [dif_neg (show ¬(0 : Fin S4000x16.rank) ∈ dot_S4000x16_S16x64_S4000x64_1_0_0_1_n_n.lhsBatch by decide), dif_pos (show (0 : Fin S4000x16.rank) ∈ dot_S4000x16_S16x64_S4000x64_1_0_0_1_n_n.lhsNonContracting by decide)]
  rfl
/-- The left operand's column is the contracted coordinate. -/
theorem lhs_col (i : S4000x64.Idx) (s : dot_S4000x16_S16x64_S4000x64_1_0_0_1_n_n.contr.Idx) :
    (dot_S4000x16_S16x64_S4000x64_1_0_0_1_n_n.lhsIdx i s 1).val = (s ⟨0, by decide⟩).val :=
  dot_S4000x16_S16x64_S4000x64_1_0_0_1_n_n.lhsIdx_val_of_single rfl i s
/-- The right operand's row is the contracted coordinate. -/
theorem rhs_row (i : S4000x64.Idx) (s : dot_S4000x16_S16x64_S4000x64_1_0_0_1_n_n.contr.Idx) :
    (dot_S4000x16_S16x64_S4000x64_1_0_0_1_n_n.rhsIdx i s 0).val = (s ⟨0, by decide⟩).val :=
  dot_S4000x16_S16x64_S4000x64_1_0_0_1_n_n.rhsIdx_val_of_single rfl i s
/-- The right operand's column is the result's column. -/
theorem rhs_col (i : S4000x64.Idx) (s : dot_S4000x16_S16x64_S4000x64_1_0_0_1_n_n.contr.Idx) :
    (dot_S4000x16_S16x64_S4000x64_1_0_0_1_n_n.rhsIdx i s 1).val = (i 1).val := by
  unfold DotDims.rhsIdx
  rw [dif_neg (show ¬(1 : Fin S16x64.rank) ∈ dot_S4000x16_S16x64_S4000x64_1_0_0_1_n_n.rhsBatch by decide), dif_pos (show (1 : Fin S16x64.rank) ∈ dot_S4000x16_S16x64_S4000x64_1_0_0_1_n_n.rhsNonContracting by decide)]
  rfl

/-- The matrix product into a zero accumulator, at entry (p, q): the sum over the 16 contracted coordinates of
    row p of the left factor times column q of the right factor. -/
theorem product_at (a : FVec Ideal S4000x16 .bf16) (b : FVec Ideal S16x64 .bf16) (p : Fin 4000) (q : Fin 64) :
    matmul dot_S4000x16_S16x64_S4000x64_1_0_0_1_n_n none a b (constant (F := Ideal) S4000x64 .f32 0x00000000#32) (ix2 p q)
      = ∑ k : Fin 16, a (ix2 p k) * b (ix2 k q) := by
  refine (Ideal.matmul_constant_zero_apply dot_S4000x16_S16x64_S4000x64_1_0_0_1_n_n none a b (ix2 p q)).trans ?_
  rw [← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p q) ((contrEquiv1 dot_S4000x16_S16x64_S4000x64_1_0_0_1_n_n 16 rfl rfl).symm k) = ix2 p k := funext fun a => Fin.ext (by
    match a with
    | ⟨0, _⟩ => exact lhs_row _ _
    | ⟨1, _⟩ => exact (lhs_col _ _).trans hk)
  have er : dot_S4000x16_S16x64_S4000x64_1_0_0_1_n_n.rhsIdx (ix2 p q) ((contrEquiv1 dot_S4000x16_S16x64_S4000x64_1_0_0_1_n_n 16 rfl rfl).symm k) = ix2 k q := funext fun a => Fin.ext (by
    match a with
    | ⟨0, _⟩ => exact (rhs_row _ _).trans hk
    | ⟨1, _⟩ => exact rhs_col _ _)
  rw [el, er]

/-- A one-row array stretched over 4000 rows reads, at (p, q), its entry (0, q). -/
theorem row_stretched_at (v : S1x64.Idx → EReal) (h : S1x64.Broadcasts S4000x64) (p : Fin 4000) (q : Fin 64) :
    broadcastTo S4000x64 v h (ix2 p q) = v (ix2 (0 : Fin 1) q) := by
  refine broadcastTo_apply v h (ix2 p q) (ix2 (0 : Fin 1) q) fun a => ?_
  match a with
  | ⟨0, _⟩ => show (0 : Nat) = if (1 : Nat) = 1 then 0 else p.val; rw [if_pos rfl]
  | ⟨1, _⟩ => show q.val = if (64 : Nat) = 1 then 0 else q.val; rw [if_neg (by decide)]

/-- What the body computes from its four loaded blocks, at entry (p, q) of the block: the source row's entry plus
    the attributes' row times the weights' column plus the bias, clamped below at the zero word.  (Rounding the
    factors to a narrower format changes nothing over the extended reals.) -/
theorem entry_at (x0 : Vec Ideal S4000x16 .f32) (x2 : Vec Ideal S16x64 .f32) (x5 : Vec Ideal S4000x64 .f32) (x8 : Vec Ideal S1x64 .f32)
    (p : Fin 4000) (q : Fin 64) :
    k0_pay1 x0 x2 x5 x8 (ix2 p q)
      = max ((x5 (ix2 p q) + ∑ k : Fin 16, x0 (ix2 p k) * x2 (ix2 k q)) + x8 (ix2 (0 : Fin 1) q)) (Ideal.ofBits .f32 0x00000000#32) := by
  unfold k0_pay1
  rw [maximumf_apply, addf_apply, addf_apply, broadcast_apply, shapeCast_self, shapeCast_self, product_at, row_stretched_at]
  rfl

/-! ## Which rows and columns each window's block holds -/

theorem zero_offsets : (![0, 0] : Fin 2 → Nat) = fun _ => 0 := funext fun a => by fin_cases a <;> rfl

/-- The block indices, decided once over the 400 grid points: the attributes, the source rows and the result move
    together, one block of rows per point, in the one block of columns; the weights and the bias row stay at their
    only block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Entry (p, q) of the source rows' block at point t is the source array at the same place as entry (p, q) of the
    result's block. -/
theorem source_block (c : Dev nD) (t : Fin cfg0.N) (p : Fin 4000) (q : Fin 64) :
    (iblk0 V c 1 t : Vec Ideal S4000x64 .f32) (ix2 p q)
      = (V c main_v10 : S1600000x64.Idx → EReal) (((cfg0.win 4).blk t).view.emb (ix2 p q)) := by
  obtain ⟨-, -, e2, e3, -, -, -, -, e8, e9⟩ := block_indices t
  show (V c main_v10 : S1600000x64.Idx → EReal) (((cfg0.win 1).blk t).view.emb (ix2 p q)) = _
  refine congrArg (V c main_v10 : S1600000x64.Idx → EReal) (funext fun a => Fin.ext ?_)
  match a with
  | ⟨0, _⟩ => show win0_1.index t (0 : Fin 2) * 4000 + 1 * p.val = win0_4.index t (0 : Fin 2) * 4000 + 1 * p.val; omega
  | ⟨1, _⟩ => show win0_1.index t (1 : Fin 2) * 64 + 1 * q.val = win0_4.index t (1 : Fin 2) * 64 + 1 * q.val; omega

/-- Entry (p, k) of the attributes' block at point t is the attributes' array at the row of the result's entry
    (p, q) and column k. -/
theorem attribute_block (c : Dev nD) (t : Fin cfg0.N) (p : Fin 4000) (q : Fin 64) (k : Fin 16) :
    (iblk0 V c 0 t : Vec Ideal S4000x16 .f32) (ix2 p k)
      = (V c main_arg2 : S1600000x16.Idx → EReal)
          (ix2 (Cert.Gine.rowOf (n0 := 1600000) (n1 := 64) (((cfg0.win 4).blk t).view.emb (ix2 p q))) k) := by
  obtain ⟨e0, e1, -, -, -, -, -, -, e8, e9⟩ := block_indices t
  show (V c main_arg2 : S1600000x16.Idx → EReal) (((cfg0.win 0).blk t).view.emb (ix2 p k)) = _
  refine congrArg (V c main_arg2 : S1600000x16.Idx → EReal) (funext fun a => Fin.ext ?_)
  match a with
  | ⟨0, _⟩ => show win0_0.index t (0 : Fin 2) * 4000 + 1 * p.val = win0_4.index t (0 : Fin 2) * 4000 + 1 * p.val; omega
  | ⟨1, _⟩ => show win0_0.index t (1 : Fin 2) * 16 + 1 * k.val = k.val; omega

/-- Entry (k, q) of the weights' block is the weights' array at row k and the column of the result's entry (p, q). -/
theorem weight_block (c : Dev nD) (t : Fin cfg0.N) (p : Fin 4000) (q : Fin 64) (k : Fin 16) :
    (iblk0 V c 2 t : Vec Ideal S16x64 .f32) (ix2 k q)
      = (V c main_arg3 : S16x64.Idx → EReal)
          (ix2 k (Cert.Gine.colOf (n0 := 1600000) (n1 := 64) (((cfg0.win 4).blk t).view.emb (ix2 p q)))) := by
  obtain ⟨-, -, -, -, e4, e5, -, -, e8, e9⟩ := block_indices t
  show (V c main_arg3 : S16x64.Idx → EReal) (((cfg0.win 2).blk t).view.emb (ix2 k q)) = _
  refine congrArg (V c main_arg3 : S16x64.Idx → EReal) (funext fun a => Fin.ext ?_)
  match a with
  | ⟨0, _⟩ => show win0_2.index t (0 : Fin 2) * 16 + 1 * k.val = k.val; omega
  | ⟨1, _⟩ => show win0_2.index t (1 : Fin 2) * 64 + 1 * q.val = win0_4.index t (1 : Fin 2) * 64 + 1 * q.val; omega

/-- Entry (0, q) of the bias row's block is the bias row at the column of the result's entry (p, q). -/
theorem bias_block (c : Dev nD) (t : Fin cfg0.N) (p : Fin 4000) (q : Fin 64) :
    (iblk0 V c 3 t : Vec Ideal S1x64 .f32) (ix2 (0 : Fin 1) q)
      = (V c main_v11 : S1x64.Idx → EReal)
          (ix2 (0 : Fin 1) (Cert.Gine.colOf (n0 := 1600000) (n1 := 64) (((cfg0.win 4).blk t).view.emb (ix2 p q)))) := by
  obtain ⟨-, -, -, -, -, -, e6, e7, e8, e9⟩ := block_indices t
  show (V c main_v11 : S1x64.Idx → EReal) (((cfg0.win 3).blk t).view.emb (ix2 (0 : Fin 1) q)) = _
  refine congrArg (V c main_v11 : S1x64.Idx → EReal) (funext fun a => Fin.ext ?_)
  match a with
  | ⟨0, _⟩ => show win0_3.index t (0 : Fin 2) * 1 + 1 * 0 = 0; omega
  | ⟨1, _⟩ => show win0_3.index t (1 : Fin 2) * 64 + 1 * q.val = win0_4.index t (1 : Fin 2) * 64 + 1 * q.val; omega

/-! ## From the blocks to the array -/

/-- What point t writes back is its block of the whole-array message function. -/
theorem written_block (c : Dev nD) (t : Fin cfg0.N) :
    (dat0 (F := Ideal) V c).flushed 4 t
      = ((cfg0.win 4).blk t).view.read (Elt Ideal) (Cert.Gine.msg64 (V c main_v10) (V c main_arg2) (V c main_arg3) (V c main_v11)) := by
  show (cfg0.win 4).cut (grid0.coords t) ((dat0 V c).after 4 t) = _
  rw [after0_4]
  unfold out0_4
  rw [View.canon_unit_zero zero_offsets]
  simp only [View.ld_unit_zero (S := S4000x16) zero_offsets, View.ld_unit_zero (S := S16x64) zero_offsets,
    View.ld_unit_zero (S := S4000x64) zero_offsets, View.ld_unit_zero (S := S1x64) zero_offsets]
  refine funext fun (j : S4000x64.Idx) => ?_
  obtain ⟨p, q, rfl⟩ : ∃ (p : Fin 4000) (q : Fin 64), j = ix2 p q := ⟨j 0, j 1, eq_ix2 j⟩
  show k0_pay1 (iblk0 V c 0 t) (iblk0 V c 2 t) (iblk0 V c 1 t) (iblk0 V c 3 t) (ix2 p q)
      = Cert.Gine.msg64 (V c main_v10) (V c main_arg2) (V c main_arg3) (V c main_v11) (((cfg0.win 4).blk t).view.emb (ix2 p q))
  refine (entry_at _ _ _ _ p q).trans ?_
  unfold Cert.Gine.msg64
  refine congrArg₂ max (congrArg₂ (· + ·) (congrArg₂ (· + ·) (source_block V c t p q)
    (Finset.sum_congr rfl fun k _ => congrArg₂ (· * ·) (attribute_block V c t p q k) (weight_block V c t p q k)))
    (bias_block V c t p q)) rfl

/-- An index of the array is in point t's block iff each coordinate is in the block's range on its axis. -/
theorem in_block_iff (t : Fin cfg0.N) (i : S1600000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v12).slice (win0_4.rect t)).set ↔ _
  rw [View.set_slice_whole, Rect.mem_set_unit]
  exact Iff.rfl

/-- Every index of the array is in some point's block: row r is among the rows of point r / 4000. -/
theorem tiled (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  obtain ⟨t, ht⟩ : ∃ t : Fin cfg0.N, t.val = (i 0).val / 4000 :=
    ⟨⟨(i 0).val / 4000, by rw [show cfg0.N = 400 from N_0]; omega⟩, rfl⟩
  obtain ⟨-, -, -, -, -, -, -, -, e8, e9⟩ := block_indices t
  refine ⟨t, flush0_4 t, ?_⟩
  rw [in_block_iff]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 64 ≤ (i 1).val ∧ (i 1).val < win0_4.index t (1 : Fin 2) * 64 + 64; omega

/-- The array the first message step leaves: the message function of the arrays the step finds. -/
theorem arr (c : Dev nD) :
    (dat0 (F := Ideal) V c).arrAt 4 cfg0.N = Cert.Gine.msg64 (V c main_v10) (V c main_arg2) (V c main_arg3) (V c main_v11) :=
  (dat0 (F := Ideal) V c).arrAt_eq_of_cover 4 (Cert.Gine.msg64 (V c main_v10) (V c main_arg2) (V c main_arg3) (V c main_v11))
    (fun t _ => written_block V c t) tiled

end Cert.KernelIdeal.Msg64

end
-- ==== Proof.NodeRegion1.lean ====
/-
  The node step of one layer, read off the region's proof data: after the region the output array is the shared
  specification's node step of the arrays the region finds, entry by entry.

  The body stores one block: relu(relu((x + agg) · W1 + b1) · W2 + b2) of its row blocks of x and agg and of the whole
  weights and bias rows. Over the extended reals a narrowing of the number format changes nothing, a product into the zero
  accumulator is the finite sum over the contracted channel, and a bias row broadcast over the rows reads its one row; so
  entry (p, q) of the stored block is two nested finite sums. Block t of a row-blocked array is rows 5000 t … 5000 t + 4999,
  all columns, so row p of the block is row 5000 t + p of the array, and the ten blocks tile the 50000 rows: the array
  the region leaves is one function of the arrays it finds.
-/
import proofs.«101451_j12455405159096_1_alg».proof.Proof.Gen.KernelIdeal.Frame
import proofs.«101451_j12455405159096_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeRegion1

open Cert.KernelIdeal Cert.KernelIdeal.Gen Idealize.ShloMosaic Idealize.ShloMosaic.ValueIdx
open Idealize.ShloMosaic.TcCoe Idealize.SL.Sem
open Idealize.ShloMosaic.Pipeline (Dat)

/-! ## A matrix product into the zero accumulator, entry by entry -/

/-- At output index i and contraction index q, the left operand of First is read at row (i 0) … -/
theorem lhsFirst_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and column q; -/
theorem lhsFirst_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right operand at row q … -/
theorem rhsFirst_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and column (i 1). -/
theorem rhsFirst_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- So First, accumulated into zero, is at (p, h) the sum over the 64 contracted channels of the products. -/
theorem mulFirst_apply (A : FVec Ideal S5000x64 .bf16) (B : FVec Ideal S64x128 .bf16) (p : Fin 5000) (h : Fin 128) :
    matmul dot_S5000x64_S64x128_S5000x128_1_0_0_1_n_n none A B (constant (F := Ideal) S5000x128 .f32 0x00000000#32) (ix2 p h)
      = ∑ k : Fin 64, A (ix2 p k) * B (ix2 k h) := by
  refine (Ideal.matmul_constant_zero_apply dot_S5000x64_S64x128_S5000x128_1_0_0_1_n_n none A B (ix2 p h)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p h) ((contrEquiv1 dot_S5000x64_S64x128_S5000x128_1_0_0_1_n_n 64 rfl rfl).symm k) = ix2 p k := funext fun a => Fin.ext (by
    match a with
    | ⟨0, _⟩ => exact lhsFirst_0 _ _
    | ⟨1, _⟩ => exact (lhsFirst_1 _ _).trans hk)
  have er : dot_S5000x64_S64x128_S5000x128_1_0_0_1_n_n.rhsIdx (ix2 p h) ((contrEquiv1 dot_S5000x64_S64x128_S5000x128_1_0_0_1_n_n 64 rfl rfl).symm k) = ix2 k h := funext fun a => Fin.ext (by
    match a with
    | ⟨0, _⟩ => exact (rhsFirst_0 _ _).trans hk
    | ⟨1, _⟩ => exact rhsFirst_1 _ _)
  rw [el, er]

/-- At output index i and contraction index q, the left operand of Second is read at row (i 0) … -/
theorem lhsSecond_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column q; -/
theorem lhsSecond_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at row q … -/
theorem rhsSecond_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and column (i 1). -/
theorem rhsSecond_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- So Second, accumulated into zero, is at (p, h) the sum over the 128 contracted channels of the products. -/
theorem mulSecond_apply (A : FVec Ideal S5000x128 .bf16) (B : FVec Ideal S128x128 .bf16) (p : Fin 5000) (h : Fin 128) :
    matmul dot_S5000x128_S128x128_S5000x128_1_0_0_1_n_n none A B (constant (F := Ideal) S5000x128 .f32 0x00000000#32) (ix2 p h)
      = ∑ k : Fin 128, A (ix2 p k) * B (ix2 k h) := by
  refine (Ideal.matmul_constant_zero_apply dot_S5000x128_S128x128_S5000x128_1_0_0_1_n_n none A B (ix2 p h)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p h) ((contrEquiv1 dot_S5000x128_S128x128_S5000x128_1_0_0_1_n_n 128 rfl rfl).symm k) = ix2 p k := funext fun a => Fin.ext (by
    match a with
    | ⟨0, _⟩ => exact lhsSecond_0 _ _
    | ⟨1, _⟩ => exact (lhsSecond_1 _ _).trans hk)
  have er : dot_S5000x128_S128x128_S5000x128_1_0_0_1_n_n.rhsIdx (ix2 p h) ((contrEquiv1 dot_S5000x128_S128x128_S5000x128_1_0_0_1_n_n 128 rfl rfl).symm k) = ix2 k h := funext fun a => Fin.ext (by
    match a with
    | ⟨0, _⟩ => exact (rhsSecond_0 _ _).trans hk
    | ⟨1, _⟩ => exact rhsSecond_1 _ _)
  rw [el, er]

/-! ## The stored block at an entry -/

/-- The hidden block: the first layer of the stored block, as one term of the loaded blocks. -/
def hiddenBlock (v0 v1 : Vec Ideal S5000x64 .f32) (v5 : Vec Ideal S64x128 .f32) (v8 : Vec Ideal S1x128 .f32) :
    FVec Ideal S5000x128 .f32 :=
  maximumf (addf (matmul dot_S5000x64_S64x128_S5000x128_1_0_0_1_n_n none
        (truncf .bf16 (addf v0 (shapeCast S5000x64 v1 shapeCasts_S5000x64_S5000x64)) bitsLt_bf16_f32)
        (truncf .bf16 v5 bitsLt_bf16_f32) (constant (F := Ideal) S5000x128 .f32 0x00000000#32))
      (broadcastTo S5000x128 (shapeCast S1x128 v8 shapeCasts_S1x128_S1x128) broadcasts_S1x128_S5000x128))
    (broadcast S5000x128 (Scalar.ofBits (F := Ideal) .f32 0x00000000#32))

/-- The stored block is the second layer applied to the hidden block. -/
theorem pay_eq (v0 v1 : Vec Ideal S5000x64 .f32) (v5 : Vec Ideal S64x128 .f32) (v8 : Vec Ideal S1x128 .f32)
    (v15 : Vec Ideal S128x128 .f32) (v18 : Vec Ideal S1x128 .f32) :
    k1_pay1 v0 v1 v5 v8 v15 v18 =
      maximumf (addf (matmul dot_S5000x128_S128x128_S5000x128_1_0_0_1_n_n none
            (truncf .bf16 (hiddenBlock v0 v1 v5 v8) bitsLt_bf16_f32)
            (truncf .bf16 v15 bitsLt_bf16_f32) (constant (F := Ideal) S5000x128 .f32 0x00000000#32))
          (broadcastTo S5000x128 (shapeCast S1x128 v18 shapeCasts_S1x128_S1x128) broadcasts_S1x128_S5000x128))
        (broadcast S5000x128 (Scalar.ofBits (F := Ideal) .f32 0x00000000#32)) := rfl

/-- Entry (p, h) of the hidden block: the 64 summed channels of row p against column h of the first weights, plus
    the first bias at h, clamped below at zero. A narrowing of the format changes no extended real, the sum of two
    blocks is entrywise, and the bias row is the same for every p. -/
theorem hiddenBlock_apply (v0 v1 : Vec Ideal S5000x64 .f32) (v5 : Vec Ideal S64x128 .f32) (v8 : Vec Ideal S1x128 .f32)
    (p : Fin 5000) (h : Fin 128) :
    hiddenBlock v0 v1 v5 v8 (ix2 p h)
      = max ((∑ k : Fin 64, (v0 (ix2 p k) + v1 (ix2 p k)) * v5 (ix2 k h)) + v8 (ix2 (0 : Fin 1) h))
          (Ideal.ofBits .f32 0x00000000#32) := by
  unfold hiddenBlock
  simp only [shapeCast_self]
  show max (matmul (F := Ideal) dot_S5000x64_S64x128_S5000x128_1_0_0_1_n_n none _ _ _ (ix2 p h)
      + broadcastTo S5000x128 v8 broadcasts_S1x128_S5000x128 (ix2 p h)) _ = _
  rw [mulFirst_apply, broadcastTo_1b_ab_apply]
  rfl

/-- Entry (p, q) of the stored block: the 128 hidden entries of row p against column q of the second weights, plus
    the second bias at q, clamped below at zero. -/
theorem pay_apply (v0 v1 : Vec Ideal S5000x64 .f32) (v5 : Vec Ideal S64x128 .f32) (v8 : Vec Ideal S1x128 .f32)
    (v15 : Vec Ideal S128x128 .f32) (v18 : Vec Ideal S1x128 .f32) (p : Fin 5000) (q : Fin 128) :
    k1_pay1 v0 v1 v5 v8 v15 v18 (ix2 p q)
      = max ((∑ h : Fin 128, hiddenBlock v0 v1 v5 v8 (ix2 p h) * v15 (ix2 h q)) + v18 (ix2 (0 : Fin 1) q))
          (Ideal.ofBits .f32 0x00000000#32) := by
  rw [pay_eq]
  simp only [shapeCast_self]
  show max (matmul (F := Ideal) dot_S5000x128_S128x128_S5000x128_1_0_0_1_n_n none _ _ _ (ix2 p q)
      + broadcastTo S5000x128 v18 broadcasts_S1x128_S5000x128 (ix2 p q)) _ = _
  rw [mulSecond_apply, broadcastTo_1b_ab_apply]
  rfl

/-- The stored block's entry (p, q), when row p of the row-blocked inputs is row r of the arrays and the other inputs
    are the whole arrays, is the node step's entry (r, q): the same two sums, term by term. -/
theorem pay_node (X AG : (⟨2, ![50000, 64]⟩ : Shape).Idx → EReal) (W1 : (⟨2, ![64, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal)
    (x0 x1 : Vec Ideal S5000x64 .f32) (x2 : Vec Ideal S64x128 .f32) (x3 : Vec Ideal S1x128 .f32)
    (x4 : Vec Ideal S128x128 .f32) (x5 : Vec Ideal S1x128 .f32) (r : Fin 50000) (p : Fin 5000)
    (h0 : ∀ k : Fin 64, x0 (ix2 p k) = X (ix2 r k)) (h1 : ∀ k : Fin 64, x1 (ix2 p k) = AG (ix2 r k))
    (h2 : x2 = W1) (h3 : x3 = b1) (h4 : x4 = W2) (h5 : x5 = b2) (q : Fin 128) :
    k1_pay1 x0 x1 x2 x3 x4 x5 (ix2 p q) = Cert.Gine.node64 X AG W1 b1 W2 b2 (ix2 r q) := by
  subst h2 h3 h4 h5
  rw [pay_apply]
  simp only [hiddenBlock_apply, h0, h1]
  rfl

/-! ## From the blocks to the array -/

theorem zeroOff : (![0, 0] : Fin 2 → Nat) = fun _ => 0 := funext fun a => by fin_cases a <;> rfl

/-- The windows' block indices, decided over the ten grid points: the row-blocked windows (the node rows, the
    aggregated messages, the output) sit at block row t, block column 0; the weights and the bias rows are whole,
    block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Array
variable (V : (c : Dev nD) → (b : Ref sig .tc) → Buf (Elt Ideal) ((c : Thread nD τ).loc b))

/-- Row p, channel k of the node rows' block at point t is row 5000 t + p of the array: a block's coordinate is its block index times the block's extent plus the coordinate inside. -/
theorem read_rows (c : Dev nD) (t : Fin cfg1.N) (p : Fin 5000) (k : Fin 64) (hr : t.val * 5000 + p.val < 50000) :
    iblk1 V c 0 t (ix2 p k) = (V c main_arg0 : S50000x64.Idx → EReal) (ix2 ⟨t.val * 5000 + p.val, hr⟩ k) := by
  have e := blockIndex t
  show (V c main_arg0 : S50000x64.Idx → EReal) (((cfg1.win 0).blk t).view.emb (ix2 p k)) = _
  refine congrArg (V c main_arg0 : S50000x64.Idx → EReal) (funext fun a => Fin.ext ?_)
  match a with
  | ⟨0, _⟩ => show win1_0.index t (0 : Fin 2) * 5000 + 1 * p.val = t.val * 5000 + p.val; rw [e.1]; omega
  | ⟨1, _⟩ => show win1_0.index t (1 : Fin 2) * 64 + 1 * k.val = k.val; rw [e.2.1]; omega

/-- The same for the aggregated messages. -/
theorem read_agg (c : Dev nD) (t : Fin cfg1.N) (p : Fin 5000) (k : Fin 64) (hr : t.val * 5000 + p.val < 50000) :
    iblk1 V c 1 t (ix2 p k) = (V c main_v15 : S50000x64.Idx → EReal) (ix2 ⟨t.val * 5000 + p.val, hr⟩ k) := by
  have e := blockIndex t
  show (V c main_v15 : S50000x64.Idx → EReal) (((cfg1.win 1).blk t).view.emb (ix2 p k)) = _
  refine congrArg (V c main_v15 : S50000x64.Idx → EReal) (funext fun a => Fin.ext ?_)
  match a with
  | ⟨0, _⟩ => show win1_1.index t (0 : Fin 2) * 5000 + 1 * p.val = t.val * 5000 + p.val; rw [e.2.2.1]; omega
  | ⟨1, _⟩ => show win1_1.index t (1 : Fin 2) * 64 + 1 * k.val = k.val; rw [e.2.2.2.1]; omega

/-- The first weights' block is the whole array at every point. -/
theorem read_w1 (c : Dev nD) (t : Fin cfg1.N) (y : S64x128.Idx) :
    iblk1 V c 2 t y = (V c main_arg5 : S64x128.Idx → EReal) y := by
  have e := blockIndex t
  show (V c main_arg5 : S64x128.Idx → EReal) (((cfg1.win 2).blk t).view.emb y) = _
  refine congrArg (V c main_arg5 : S64x128.Idx → EReal) (funext fun a => Fin.ext ?_)
  match a with
  | ⟨0, _⟩ => show win1_2.index t (0 : Fin 2) * 64 + 1 * (y 0).val = (y 0).val; rw [e.2.2.2.2.1]; omega
  | ⟨1, _⟩ => show win1_2.index t (1 : Fin 2) * 128 + 1 * (y 1).val = (y 1).val; rw [e.2.2.2.2.2.1]; omega

/-- So is the first bias row's, -/
theorem read_b1 (c : Dev nD) (t : Fin cfg1.N) (y : S1x128.Idx) :
    iblk1 V c 3 t y = (V c main_v16 : S1x128.Idx → EReal) y := by
  have e := blockIndex t
  show (V c main_v16 : S1x128.Idx → EReal) (((cfg1.win 3).blk t).view.emb y) = _
  refine congrArg (V c main_v16 : S1x128.Idx → EReal) (funext fun a => Fin.ext ?_)
  match a with
  | ⟨0, _⟩ => show win1_3.index t (0 : Fin 2) * 1 + 1 * (y 0).val = (y 0).val; rw [e.2.2.2.2.2.2.1]; omega
  | ⟨1, _⟩ => show win1_3.index t (1 : Fin 2) * 128 + 1 * (y 1).val = (y 1).val; rw [e.2.2.2.2.2.2.2.1]; omega

/-- the second weights', -/
theorem read_w2 (c : Dev nD) (t : Fin cfg1.N) (y : S128x128.Idx) :
    iblk1 V c 4 t y = (V c main_arg7 : S128x128.Idx → EReal) y := by
  have e := blockIndex t
  show (V c main_arg7 : S128x128.Idx → EReal) (((cfg1.win 4).blk t).view.emb y) = _
  refine congrArg (V c main_arg7 : S128x128.Idx → EReal) (funext fun a => Fin.ext ?_)
  match a with
  | ⟨0, _⟩ => show win1_4.index t (0 : Fin 2) * 128 + 1 * (y 0).val = (y 0).val; rw [e.2.2.2.2.2.2.2.2.1]; omega
  | ⟨1, _⟩ => show win1_4.index t (1 : Fin 2) * 128 + 1 * (y 1).val = (y 1).val; rw [e.2.2.2.2.2.2.2.2.2.1]; omega

/-- and the second bias row's. -/
theorem read_b2 (c : Dev nD) (t : Fin cfg1.N) (y : S1x128.Idx) :
    iblk1 V c 5 t y = (V c main_v17 : S1x128.Idx → EReal) y := by
  have e := blockIndex t
  show (V c main_v17 : S1x128.Idx → EReal) (((cfg1.win 5).blk t).view.emb y) = _
  refine congrArg (V c main_v17 : S1x128.Idx → EReal) (funext fun a => Fin.ext ?_)
  match a with
  | ⟨0, _⟩ => show win1_5.index t (0 : Fin 2) * 1 + 1 * (y 0).val = (y 0).val; rw [e.2.2.2.2.2.2.2.2.2.2.1]; omega
  | ⟨1, _⟩ => show win1_5.index t (1 : Fin 2) * 128 + 1 * (y 1).val = (y 1).val; rw [e.2.2.2.2.2.2.2.2.2.2.2.1]; omega

/-- What point t writes back is block t of the node step of the arrays as the region finds them. -/
theorem flushed_eq (c : Dev nD) (t : Fin cfg1.N) :
    (dat1 (F := Ideal) V c).flushed 6 t = ((cfg1.win 6).blk t).view.read (Elt Ideal)
      (Cert.Gine.node64 (V c main_arg0) (V c main_v15) (V c main_arg5) (V c main_v16) (V c main_arg7) (V c main_v17)) := by
  have hN : cfg1.N = 10 := N_1
  have ht : t.val < 10 := by have := t.isLt; omega
  have e := blockIndex t
  show (cfg1.win 6).cut (grid1.coords t) ((dat1 V c).after 6 t) = _
  rw [after1_6]
  unfold out1_6
  rw [View.canon_unit_zero zeroOff]
  simp only [View.ld_unit_zero (S := S5000x64) zeroOff,
    View.ld_unit_zero (S := S64x128) zeroOff,
    View.ld_unit_zero (S := S1x128) zeroOff,
    View.ld_unit_zero (S := S128x128) zeroOff]
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg1.win 6).blk t).view.emb (ix2 p q) = (ix2 ⟨t.val * 5000 + p.val, hr⟩ q : S50000x128.Idx) :=
    funext fun a => Fin.ext (by
      match a with
      | ⟨0, _⟩ => show win1_6.index t (0 : Fin 2) * 5000 + 1 * p.val = t.val * 5000 + p.val; rw [e.2.2.2.2.2.2.2.2.2.2.2.2.1]; omega
      | ⟨1, _⟩ => show win1_6.index t (1 : Fin 2) * 128 + 1 * q.val = q.val; rw [e.2.2.2.2.2.2.2.2.2.2.2.2.2]; omega)
  show k1_pay1 (iblk1 V c 0 t) (iblk1 V c 1 t) (iblk1 V c 2 t) (iblk1 V c 3 t) (iblk1 V c 4 t) (iblk1 V c 5 t) (ix2 p q)
    = Cert.Gine.node64 _ _ _ _ _ _ (((cfg1.win 6).blk t).view.emb (ix2 p q))
  rw [hemb]
  exact pay_node _ _ _ _ _ _ _ _ _ _ _ _ ⟨t.val * 5000 + p.val, hr⟩ p (fun k => read_rows V c t p k hr)
    (fun k => read_agg V c t p k hr) (funext (read_w1 V c t)) (funext (read_b1 V c t)) (funext (read_w2 V c t))
    (funext (read_b2 V c t)) q

/-- An index of the output array is in point t's block iff each coordinate is in the block's range on its axis. -/
theorem mem_block (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v18).slice (win1_6.rect t)).set ↔ _
  rw [View.set_slice_whole, Rect.mem_set_unit]
  exact Iff.rfl

/-- The ten blocks of 5000 rows tile the 50000 rows: row r is in the block of point r / 5000. -/
theorem cover (i : S50000x128.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  obtain ⟨t, htv⟩ : ∃ t : Fin cfg1.N, t.val = (i 0).val / 5000 := ⟨⟨(i 0).val / 5000, by omega⟩, rfl⟩
  have e := blockIndex t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    rw [e.2.2.2.2.2.2.2.2.2.2.2.2.1]; omega
  | ⟨1, _⟩ =>
    show win1_6.index t (1 : Fin 2) * 128 ≤ (i 1).val ∧ (i 1).val < win1_6.index t (1 : Fin 2) * 128 + 128
    rw [e.2.2.2.2.2.2.2.2.2.2.2.2.2]; omega

/-- After the region the output array is the node step of the arrays the region found. -/
theorem arr (c : Dev nD) :
    (Gen.dat1 (F := Ideal) V c).arrAt 6 cfg1.N = Cert.Gine.node64 (V c main_arg0) (V c main_v15) (V c main_arg5)
      (V c main_v16) (V c main_arg7) (V c main_v17) :=
  (dat1 (F := Ideal) V c).arrAt_eq_of_cover 6 _ (fun t _ => flushed_eq V c t) cover

end Array

end Cert.KernelIdeal.NodeRegion1

end
-- ==== Proof.MsgRegion2.lean ====
/-
  The second message step, read off the blocks: the 1600000 x 128 array of messages that the 400 grid points leave is,
  entry by entry, the clamped sum  max ((xs (e, j) + Σ_k ea (e, k) · We (k, j)) + be (0, j)) 0.

  Grid point t handles the 4000 edges [4000 t, 4000 t + 4000): it reads those rows of the edge attributes and of the
  gathered source rows, the whole weight matrix and the whole bias row, and writes those rows of the result.  So the
  block that point t writes is the restriction of one whole-array function to its rows, and the blocks of the 400
  points tile the array: row r belongs to point r / 4000.
-/
import proofs.«101451_j12455405159096_1_alg».proof.Proof.Gen.KernelIdeal.Frame
import proofs.«101451_j12455405159096_1_alg».proof.Proof.Spec
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Msg128Second

open Cert.KernelIdeal Cert.KernelIdeal.Gen Idealize.ShloMosaic Idealize.ShloMosaic.TcCoe Idealize.ShloMosaic.ValueIdx
open Idealize.ShloMosaic.Pipeline (Dat)

/-! ## One entry of the block a point computes -/

/-- The product's dimension numbers: the left operand's row is the result's row. -/
theorem lhs_row (i : S4000x128.Idx) (s : dot_S4000x16_S16x128_S4000x128_1_0_0_1_n_n.contr.Idx) :
    (dot_S4000x16_S16x128_S4000x128_1_0_0_1_n_n.lhsIdx i s 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
/-- The left operand's column is the contracted coordinate. -/
theorem lhs_col (i : S4000x128.Idx) (s : dot_S4000x16_S16x128_S4000x128_1_0_0_1_n_n.contr.Idx) :
    (dot_S4000x16_S16x128_S4000x128_1_0_0_1_n_n.lhsIdx i s 1).val = (s ⟨0, by decide⟩).val :=
  dot_S4000x16_S16x128_S4000x128_1_0_0_1_n_n.lhsIdx_val_of_single rfl i s
/-- The right operand's row is the contracted coordinate. -/
theorem rhs_row (i : S4000x128.Idx) (s : dot_S4000x16_S16x128_S4000x128_1_0_0_1_n_n.contr.Idx) :
    (dot_S4000x16_S16x128_S4000x128_1_0_0_1_n_n.rhsIdx i s 0).val = (s ⟨0, by decide⟩).val :=
  dot_S4000x16_S16x128_S4000x128_1_0_0_1_n_n.rhsIdx_val_of_single rfl i s
/-- The right operand's column is the result's column. -/
theorem rhs_col (i : S4000x128.Idx) (s : dot_S4000x16_S16x128_S4000x128_1_0_0_1_n_n.contr.Idx) :
    (dot_S4000x16_S16x128_S4000x128_1_0_0_1_n_n.rhsIdx i s 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-- The matrix product into a zero accumulator, at entry (p, q): the sum over the 16 contracted coordinates of
    row p of the left factor times column q of the right factor. -/
theorem product_at (a : FVec Ideal S4000x16 .bf16) (b : FVec Ideal S16x128 .bf16) (p : Fin 4000) (q : Fin 128) :
    matmul dot_S4000x16_S16x128_S4000x128_1_0_0_1_n_n none a b (constant (F := Ideal) S4000x128 .f32 0x00000000#32) (ix2 p q)
      = ∑ k : Fin 16, a (ix2 p k) * b (ix2 k q) := by
  refine (Ideal.matmul_constant_zero_apply dot_S4000x16_S16x128_S4000x128_1_0_0_1_n_n none a b (ix2 p q)).trans ?_
  rw [← Equiv.sum_comp (contrEquiv1 dot_S4000x16_S16x128_S4000x128_1_0_0_1_n_n 16 rfl rfl).symm]
  refine Finset.sum_congr rfl fun k _ => ?_
  have hk := contrEquiv1_symm_val dot_S4000x16_S16x128_S4000x128_1_0_0_1_n_n 16 rfl rfl k
  have el : dot_S4000x16_S16x128_S4000x128_1_0_0_1_n_n.lhsIdx (ix2 p q) ((contrEquiv1 dot_S4000x16_S16x128_S4000x128_1_0_0_1_n_n 16 rfl rfl).symm k) = ix2 p k := funext fun a => Fin.ext (by
    match a with
    | ⟨0, _⟩ => exact lhs_row _ _
    | ⟨1, _⟩ => exact (lhs_col _ _).trans hk)
  have er : dot_S4000x16_S16x128_S4000x128_1_0_0_1_n_n.rhsIdx (ix2 p q) ((contrEquiv1 dot_S4000x16_S16x128_S4000x128_1_0_0_1_n_n 16 rfl rfl).symm k) = ix2 k q := funext fun a => Fin.ext (by
    match a with
    | ⟨0, _⟩ => exact (rhs_row _ _).trans hk
    | ⟨1, _⟩ => exact rhs_col _ _)
  rw [el, er]

/-- A one-row array stretched over 4000 rows reads, at (p, q), its entry (0, q). -/
theorem row_stretched_at (v : S1x128.Idx → EReal) (h : S1x128.Broadcasts S4000x128) (p : Fin 4000) (q : Fin 128) :
    broadcastTo S4000x128 v h (ix2 p q) = v (ix2 (0 : Fin 1) q) := by
  refine broadcastTo_apply v h (ix2 p q) (ix2 (0 : Fin 1) q) fun a => ?_
  match a with
  | ⟨0, _⟩ => show (0 : Nat) = if (1 : Nat) = 1 then 0 else p.val; rw [if_pos rfl]
  | ⟨1, _⟩ => show q.val = if (128 : Nat) = 1 then 0 else q.val; rw [if_neg (by decide)]

/-- What the body computes from its four loaded blocks, at entry (p, q) of the block: the source row's entry plus
    the attributes' row times the weights' column plus the bias, clamped below at the zero word.  (Rounding the
    factors to a narrower format changes nothing over the extended reals.) -/
theorem entry_at (x0 : Vec Ideal S4000x16 .f32) (x2 : Vec Ideal S16x128 .f32) (x5 : Vec Ideal S4000x128 .f32) (x8 : Vec Ideal S1x128 .f32)
    (p : Fin 4000) (q : Fin 128) :
    k2_pay1 x0 x2 x5 x8 (ix2 p q)
      = max ((x5 (ix2 p q) + ∑ k : Fin 16, x0 (ix2 p k) * x2 (ix2 k q)) + x8 (ix2 (0 : Fin 1) q)) (Ideal.ofBits .f32 0x00000000#32) := by
  unfold k2_pay1
  rw [maximumf_apply, addf_apply, addf_apply, broadcast_apply, shapeCast_self, shapeCast_self, product_at, row_stretched_at]
  rfl

/-! ## Which rows and columns each window's block holds -/

theorem zero_offsets : (![0, 0] : Fin 2 → Nat) = fun _ => 0 := funext fun a => by fin_cases a <;> rfl

/-- The block indices, decided once over the 400 grid points: the attributes, the source rows and the result move
    together, one block of rows per point, in the one block of columns; the weights and the bias row stay at their
    only block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- Entry (p, q) of the source rows' block at point t is the source array at the same place as entry (p, q) of the
    result's block. -/
theorem source_block (c : Dev nD) (t : Fin cfg2.N) (p : Fin 4000) (q : Fin 128) :
    (iblk2 V c 1 t : Vec Ideal S4000x128 .f32) (ix2 p q)
      = (V c main_v25 : S1600000x128.Idx → EReal) (((cfg2.win 4).blk t).view.emb (ix2 p q)) := by
  obtain ⟨-, -, e2, e3, -, -, -, -, e8, e9⟩ := block_indices t
  show (V c main_v25 : S1600000x128.Idx → EReal) (((cfg2.win 1).blk t).view.emb (ix2 p q)) = _
  refine congrArg (V c main_v25 : S1600000x128.Idx → EReal) (funext fun a => Fin.ext ?_)
  match a with
  | ⟨0, _⟩ => show win2_1.index t (0 : Fin 2) * 4000 + 1 * p.val = win2_4.index t (0 : Fin 2) * 4000 + 1 * p.val; omega
  | ⟨1, _⟩ => show win2_1.index t (1 : Fin 2) * 128 + 1 * q.val = win2_4.index t (1 : Fin 2) * 128 + 1 * q.val; omega

/-- Entry (p, k) of the attributes' block at point t is the attributes' array at the row of the result's entry
    (p, q) and column k. -/
theorem attribute_block (c : Dev nD) (t : Fin cfg2.N) (p : Fin 4000) (q : Fin 128) (k : Fin 16) :
    (iblk2 V c 0 t : Vec Ideal S4000x16 .f32) (ix2 p k)
      = (V c main_arg2 : S1600000x16.Idx → EReal)
          (ix2 (Cert.Gine.rowOf (n0 := 1600000) (n1 := 128) (((cfg2.win 4).blk t).view.emb (ix2 p q))) k) := by
  obtain ⟨e0, e1, -, -, -, -, -, -, e8, e9⟩ := block_indices t
  show (V c main_arg2 : S1600000x16.Idx → EReal) (((cfg2.win 0).blk t).view.emb (ix2 p k)) = _
  refine congrArg (V c main_arg2 : S1600000x16.Idx → EReal) (funext fun a => Fin.ext ?_)
  match a with
  | ⟨0, _⟩ => show win2_0.index t (0 : Fin 2) * 4000 + 1 * p.val = win2_4.index t (0 : Fin 2) * 4000 + 1 * p.val; omega
  | ⟨1, _⟩ => show win2_0.index t (1 : Fin 2) * 16 + 1 * k.val = k.val; omega

/-- Entry (k, q) of the weights' block is the weights' array at row k and the column of the result's entry (p, q). -/
theorem weight_block (c : Dev nD) (t : Fin cfg2.N) (p : Fin 4000) (q : Fin 128) (k : Fin 16) :
    (iblk2 V c 2 t : Vec Ideal S16x128 .f32) (ix2 k q)
      = (V c main_arg9 : S16x128.Idx → EReal)
          (ix2 k (Cert.Gine.colOf (n0 := 1600000) (n1 := 128) (((cfg2.win 4).blk t).view.emb (ix2 p q)))) := by
  obtain ⟨-, -, -, -, e4, e5, -, -, e8, e9⟩ := block_indices t
  show (V c main_arg9 : S16x128.Idx → EReal) (((cfg2.win 2).blk t).view.emb (ix2 k q)) = _
  refine congrArg (V c main_arg9 : S16x128.Idx → EReal) (funext fun a => Fin.ext ?_)
  match a with
  | ⟨0, _⟩ => show win2_2.index t (0 : Fin 2) * 16 + 1 * k.val = k.val; omega
  | ⟨1, _⟩ => show win2_2.index t (1 : Fin 2) * 128 + 1 * q.val = win2_4.index t (1 : Fin 2) * 128 + 1 * q.val; omega

/-- Entry (0, q) of the bias row's block is the bias row at the column of the result's entry (p, q). -/
theorem bias_block (c : Dev nD) (t : Fin cfg2.N) (p : Fin 4000) (q : Fin 128) :
    (iblk2 V c 3 t : Vec Ideal S1x128 .f32) (ix2 (0 : Fin 1) q)
      = (V c main_v26 : S1x128.Idx → EReal)
          (ix2 (0 : Fin 1) (Cert.Gine.colOf (n0 := 1600000) (n1 := 128) (((cfg2.win 4).blk t).view.emb (ix2 p q)))) := by
  obtain ⟨-, -, -, -, -, -, e6, e7, e8, e9⟩ := block_indices t
  show (V c main_v26 : S1x128.Idx → EReal) (((cfg2.win 3).blk t).view.emb (ix2 (0 : Fin 1) q)) = _
  refine congrArg (V c main_v26 : S1x128.Idx → EReal) (funext fun a => Fin.ext ?_)
  match a with
  | ⟨0, _⟩ => show win2_3.index t (0 : Fin 2) * 1 + 1 * 0 = 0; omega
  | ⟨1, _⟩ => show win2_3.index t (1 : Fin 2) * 128 + 1 * q.val = win2_4.index t (1 : Fin 2) * 128 + 1 * q.val; omega

/-! ## From the blocks to the array -/

/-- What point t writes back is its block of the whole-array message function. -/
theorem written_block (c : Dev nD) (t : Fin cfg2.N) :
    (dat2 (F := Ideal) V c).flushed 4 t
      = ((cfg2.win 4).blk t).view.read (Elt Ideal) (Cert.Gine.msg128 (V c main_v25) (V c main_arg2) (V c main_arg9) (V c main_v26)) := by
  show (cfg2.win 4).cut (grid2.coords t) ((dat2 V c).after 4 t) = _
  rw [after2_4]
  unfold out2_4
  rw [View.canon_unit_zero zero_offsets]
  simp only [View.ld_unit_zero (S := S4000x16) zero_offsets, View.ld_unit_zero (S := S16x128) zero_offsets,
    View.ld_unit_zero (S := S4000x128) zero_offsets, View.ld_unit_zero (S := S1x128) zero_offsets]
  refine funext fun (j : S4000x128.Idx) => ?_
  obtain ⟨p, q, rfl⟩ : ∃ (p : Fin 4000) (q : Fin 128), j = ix2 p q := ⟨j 0, j 1, eq_ix2 j⟩
  show k2_pay1 (iblk2 V c 0 t) (iblk2 V c 2 t) (iblk2 V c 1 t) (iblk2 V c 3 t) (ix2 p q)
      = Cert.Gine.msg128 (V c main_v25) (V c main_arg2) (V c main_arg9) (V c main_v26) (((cfg2.win 4).blk t).view.emb (ix2 p q))
  refine (entry_at _ _ _ _ p q).trans ?_
  unfold Cert.Gine.msg128
  refine congrArg₂ max (congrArg₂ (· + ·) (congrArg₂ (· + ·) (source_block V c t p q)
    (Finset.sum_congr rfl fun k _ => congrArg₂ (· * ·) (attribute_block V c t p q k) (weight_block V c t p q k)))
    (bias_block V c t p q)) rfl

/-- An index of the array is in point t's block iff each coordinate is in the block's range on its axis. -/
theorem in_block_iff (t : Fin cfg2.N) (i : S1600000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v27).slice (win2_4.rect t)).set ↔ _
  rw [View.set_slice_whole, Rect.mem_set_unit]
  exact Iff.rfl

/-- Every index of the array is in some point's block: row r is among the rows of point r / 4000. -/
theorem tiled (i : S1600000x128.Idx) :
    ∃ t : Fin cfg2.N, (cfg2.win 4).flush t = true ∧ i ∈ ((cfg2.win 4).blk t).view.set := by
  have hi0 : (i 0).val < 1600000 := (i 0).isLt
  have hi1 : (i 1).val < 128 := (i 1).isLt
  obtain ⟨t, ht⟩ : ∃ t : Fin cfg2.N, t.val = (i 0).val / 4000 :=
    ⟨⟨(i 0).val / 4000, by rw [show cfg2.N = 400 from N_2]; omega⟩, rfl⟩
  obtain ⟨-, -, -, -, -, -, -, -, e8, e9⟩ := block_indices t
  refine ⟨t, flush2_4 t, ?_⟩
  rw [in_block_iff]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

/-- The array the second message step leaves: the message function of the arrays the step finds. -/
theorem arr (c : Dev nD) :
    (dat2 (F := Ideal) V c).arrAt 4 cfg2.N = Cert.Gine.msg128 (V c main_v25) (V c main_arg2) (V c main_arg9) (V c main_v26) :=
  (dat2 (F := Ideal) V c).arrAt_eq_of_cover 4 (Cert.Gine.msg128 (V c main_v25) (V c main_arg2) (V c main_arg9) (V c main_v26))
    (fun t _ => written_block V c t) tiled

end Cert.KernelIdeal.Msg128Second

end
-- ==== Proof.NodeRegion3.lean ====
/-
  The node step of one layer, read off the region's proof data: after the region the output array is the shared
  specification's node step of the arrays the region finds, entry by entry.

  The body stores one block: relu(relu((x + agg) · W1 + b1) · W2 + b2) of its row blocks of x and agg and of the whole
  weights and bias rows. Over the extended reals a narrowing of the number format changes nothing, a product into the zero
  accumulator is the finite sum over the contracted channel, and a bias row broadcast over the rows reads its one row; so
  entry (p, q) of the stored block is two nested finite sums. Block t of a row-blocked array is rows 5000 t … 5000 t + 4999,
  all columns, so row p of the block is row 5000 t + p of the array, and the ten blocks tile the 50000 rows: the array
  the region leaves is one function of the arrays it finds.
-/
import proofs.«101451_j12455405159096_1_alg».proof.Proof.Gen.KernelIdeal.Frame
import proofs.«101451_j12455405159096_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeRegion3

open Cert.KernelIdeal Cert.KernelIdeal.Gen Idealize.ShloMosaic Idealize.ShloMosaic.ValueIdx
open Idealize.ShloMosaic.TcCoe Idealize.SL.Sem
open Idealize.ShloMosaic.Pipeline (Dat)

/-! ## A matrix product into the zero accumulator, entry by entry -/

/-- At output index i and contraction index q, the left operand of Layer is read at row (i 0) … -/
theorem lhsLayer_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column q; -/
theorem lhsLayer_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at row q … -/
theorem rhsLayer_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and column (i 1). -/
theorem rhsLayer_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- So Layer, accumulated into zero, is at (p, h) the sum over the 128 contracted channels of the products. -/
theorem mulLayer_apply (A : FVec Ideal S5000x128 .bf16) (B : FVec Ideal S128x128 .bf16) (p : Fin 5000) (h : Fin 128) :
    matmul dot_S5000x128_S128x128_S5000x128_1_0_0_1_n_n none A B (constant (F := Ideal) S5000x128 .f32 0x00000000#32) (ix2 p h)
      = ∑ k : Fin 128, A (ix2 p k) * B (ix2 k h) := by
  refine (Ideal.matmul_constant_zero_apply dot_S5000x128_S128x128_S5000x128_1_0_0_1_n_n none A B (ix2 p h)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p h) ((contrEquiv1 dot_S5000x128_S128x128_S5000x128_1_0_0_1_n_n 128 rfl rfl).symm k) = ix2 p k := funext fun a => Fin.ext (by
    match a with
    | ⟨0, _⟩ => exact lhsLayer_0 _ _
    | ⟨1, _⟩ => exact (lhsLayer_1 _ _).trans hk)
  have er : dot_S5000x128_S128x128_S5000x128_1_0_0_1_n_n.rhsIdx (ix2 p h) ((contrEquiv1 dot_S5000x128_S128x128_S5000x128_1_0_0_1_n_n 128 rfl rfl).symm k) = ix2 k h := funext fun a => Fin.ext (by
    match a with
    | ⟨0, _⟩ => exact (rhsLayer_0 _ _).trans hk
    | ⟨1, _⟩ => exact rhsLayer_1 _ _)
  rw [el, er]

/-! ## The stored block at an entry -/

/-- The hidden block: the first layer of the stored block, as one term of the loaded blocks. -/
def hiddenBlock (v0 v1 : Vec Ideal S5000x128 .f32) (v5 : Vec Ideal S128x128 .f32) (v8 : Vec Ideal S1x128 .f32) :
    FVec Ideal S5000x128 .f32 :=
  maximumf (addf (matmul dot_S5000x128_S128x128_S5000x128_1_0_0_1_n_n none
        (truncf .bf16 (addf (shapeCast S5000x128 v0 shapeCasts_S5000x128_S5000x128) (shapeCast S5000x128 v1 shapeCasts_S5000x128_S5000x128)) bitsLt_bf16_f32)
        (truncf .bf16 v5 bitsLt_bf16_f32) (constant (F := Ideal) S5000x128 .f32 0x00000000#32))
      (broadcastTo S5000x128 (shapeCast S1x128 v8 shapeCasts_S1x128_S1x128) broadcasts_S1x128_S5000x128))
    (broadcast S5000x128 (Scalar.ofBits (F := Ideal) .f32 0x00000000#32))

/-- The stored block is the second layer applied to the hidden block. -/
theorem pay_eq (v0 v1 : Vec Ideal S5000x128 .f32) (v5 : Vec Ideal S128x128 .f32) (v8 : Vec Ideal S1x128 .f32)
    (v15 : Vec Ideal S128x128 .f32) (v18 : Vec Ideal S1x128 .f32) :
    k3_pay1 v0 v1 v5 v8 v15 v18 =
      maximumf (addf (matmul dot_S5000x128_S128x128_S5000x128_1_0_0_1_n_n none
            (truncf .bf16 (hiddenBlock v0 v1 v5 v8) bitsLt_bf16_f32)
            (truncf .bf16 v15 bitsLt_bf16_f32) (constant (F := Ideal) S5000x128 .f32 0x00000000#32))
          (broadcastTo S5000x128 (shapeCast S1x128 v18 shapeCasts_S1x128_S1x128) broadcasts_S1x128_S5000x128))
        (broadcast S5000x128 (Scalar.ofBits (F := Ideal) .f32 0x00000000#32)) := rfl

/-- Entry (p, h) of the hidden block: the 128 summed channels of row p against column h of the first weights, plus
    the first bias at h, clamped below at zero. A narrowing of the format changes no extended real, the sum of two
    blocks is entrywise, and the bias row is the same for every p. -/
theorem hiddenBlock_apply (v0 v1 : Vec Ideal S5000x128 .f32) (v5 : Vec Ideal S128x128 .f32) (v8 : Vec Ideal S1x128 .f32)
    (p : Fin 5000) (h : Fin 128) :
    hiddenBlock v0 v1 v5 v8 (ix2 p h)
      = max ((∑ k : Fin 128, (v0 (ix2 p k) + v1 (ix2 p k)) * v5 (ix2 k h)) + v8 (ix2 (0 : Fin 1) h))
          (Ideal.ofBits .f32 0x00000000#32) := by
  unfold hiddenBlock
  simp only [shapeCast_self]
  show max (matmul (F := Ideal) dot_S5000x128_S128x128_S5000x128_1_0_0_1_n_n none _ _ _ (ix2 p h)
      + broadcastTo S5000x128 v8 broadcasts_S1x128_S5000x128 (ix2 p h)) _ = _
  rw [mulLayer_apply, broadcastTo_1b_ab_apply]
  rfl

/-- Entry (p, q) of the stored block: the 128 hidden entries of row p against column q of the second weights, plus
    the second bias at q, clamped below at zero. -/
theorem pay_apply (v0 v1 : Vec Ideal S5000x128 .f32) (v5 : Vec Ideal S128x128 .f32) (v8 : Vec Ideal S1x128 .f32)
    (v15 : Vec Ideal S128x128 .f32) (v18 : Vec Ideal S1x128 .f32) (p : Fin 5000) (q : Fin 128) :
    k3_pay1 v0 v1 v5 v8 v15 v18 (ix2 p q)
      = max ((∑ h : Fin 128, hiddenBlock v0 v1 v5 v8 (ix2 p h) * v15 (ix2 h q)) + v18 (ix2 (0 : Fin 1) q))
          (Ideal.ofBits .f32 0x00000000#32) := by
  rw [pay_eq]
  simp only [shapeCast_self]
  show max (matmul (F := Ideal) dot_S5000x128_S128x128_S5000x128_1_0_0_1_n_n none _ _ _ (ix2 p q)
      + broadcastTo S5000x128 v18 broadcasts_S1x128_S5000x128 (ix2 p q)) _ = _
  rw [mulLayer_apply, broadcastTo_1b_ab_apply]
  rfl

/-- The stored block's entry (p, q), when row p of the row-blocked inputs is row r of the arrays and the other inputs
    are the whole arrays, is the node step's entry (r, q): the same two sums, term by term. -/
theorem pay_node (X AG : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal)
    (x0 x1 : Vec Ideal S5000x128 .f32) (x2 : Vec Ideal S128x128 .f32) (x3 : Vec Ideal S1x128 .f32)
    (x4 : Vec Ideal S128x128 .f32) (x5 : Vec Ideal S1x128 .f32) (r : Fin 50000) (p : Fin 5000)
    (h0 : ∀ k : Fin 128, x0 (ix2 p k) = X (ix2 r k)) (h1 : ∀ k : Fin 128, x1 (ix2 p k) = AG (ix2 r k))
    (h2 : x2 = W1) (h3 : x3 = b1) (h4 : x4 = W2) (h5 : x5 = b2) (q : Fin 128) :
    k3_pay1 x0 x1 x2 x3 x4 x5 (ix2 p q) = Cert.Gine.node128 X AG W1 b1 W2 b2 (ix2 r q) := by
  subst h2 h3 h4 h5
  rw [pay_apply]
  simp only [hiddenBlock_apply, h0, h1]
  rfl

/-! ## From the blocks to the array -/

theorem zeroOff : (![0, 0] : Fin 2 → Nat) = fun _ => 0 := funext fun a => by fin_cases a <;> rfl

/-- The windows' block indices, decided over the ten grid points: the row-blocked windows (the node rows, the
    aggregated messages, the output) sit at block row t, block column 0; the weights and the bias rows are whole,
    block (0, 0). -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

section Array
variable (V : (c : Dev nD) → (b : Ref sig .tc) → Buf (Elt Ideal) ((c : Thread nD τ).loc b))

/-- Row p, channel k of the node rows' block at point t is row 5000 t + p of the array: a block's coordinate is its block index times the block's extent plus the coordinate inside. -/
theorem read_rows (c : Dev nD) (t : Fin cfg3.N) (p : Fin 5000) (k : Fin 128) (hr : t.val * 5000 + p.val < 50000) :
    iblk3 V c 0 t (ix2 p k) = (V c main_v18 : S50000x128.Idx → EReal) (ix2 ⟨t.val * 5000 + p.val, hr⟩ k) := by
  have e := blockIndex t
  show (V c main_v18 : S50000x128.Idx → EReal) (((cfg3.win 0).blk t).view.emb (ix2 p k)) = _
  refine congrArg (V c main_v18 : S50000x128.Idx → EReal) (funext fun a => Fin.ext ?_)
  match a with
  | ⟨0, _⟩ => show win3_0.index t (0 : Fin 2) * 5000 + 1 * p.val = t.val * 5000 + p.val; rw [e.1]; omega
  | ⟨1, _⟩ => show win3_0.index t (1 : Fin 2) * 128 + 1 * k.val = k.val; rw [e.2.1]; omega

/-- The same for the aggregated messages. -/
theorem read_agg (c : Dev nD) (t : Fin cfg3.N) (p : Fin 5000) (k : Fin 128) (hr : t.val * 5000 + p.val < 50000) :
    iblk3 V c 1 t (ix2 p k) = (V c main_v30 : S50000x128.Idx → EReal) (ix2 ⟨t.val * 5000 + p.val, hr⟩ k) := by
  have e := blockIndex t
  show (V c main_v30 : S50000x128.Idx → EReal) (((cfg3.win 1).blk t).view.emb (ix2 p k)) = _
  refine congrArg (V c main_v30 : S50000x128.Idx → EReal) (funext fun a => Fin.ext ?_)
  match a with
  | ⟨0, _⟩ => show win3_1.index t (0 : Fin 2) * 5000 + 1 * p.val = t.val * 5000 + p.val; rw [e.2.2.1]; omega
  | ⟨1, _⟩ => show win3_1.index t (1 : Fin 2) * 128 + 1 * k.val = k.val; rw [e.2.2.2.1]; omega

/-- The first weights' block is the whole array at every point. -/
theorem read_w1 (c : Dev nD) (t : Fin cfg3.N) (y : S128x128.Idx) :
    iblk3 V c 2 t y = (V c main_arg11 : S128x128.Idx → EReal) y := by
  have e := blockIndex t
  show (V c main_arg11 : S128x128.Idx → EReal) (((cfg3.win 2).blk t).view.emb y) = _
  refine congrArg (V c main_arg11 : S128x128.Idx → EReal) (funext fun a => Fin.ext ?_)
  match a with
  | ⟨0, _⟩ => show win3_2.index t (0 : Fin 2) * 128 + 1 * (y 0).val = (y 0).val; rw [e.2.2.2.2.1]; omega
  | ⟨1, _⟩ => show win3_2.index t (1 : Fin 2) * 128 + 1 * (y 1).val = (y 1).val; rw [e.2.2.2.2.2.1]; omega

/-- So is the first bias row's, -/
theorem read_b1 (c : Dev nD) (t : Fin cfg3.N) (y : S1x128.Idx) :
    iblk3 V c 3 t y = (V c main_v31 : S1x128.Idx → EReal) y := by
  have e := blockIndex t
  show (V c main_v31 : S1x128.Idx → EReal) (((cfg3.win 3).blk t).view.emb y) = _
  refine congrArg (V c main_v31 : S1x128.Idx → EReal) (funext fun a => Fin.ext ?_)
  match a with
  | ⟨0, _⟩ => show win3_3.index t (0 : Fin 2) * 1 + 1 * (y 0).val = (y 0).val; rw [e.2.2.2.2.2.2.1]; omega
  | ⟨1, _⟩ => show win3_3.index t (1 : Fin 2) * 128 + 1 * (y 1).val = (y 1).val; rw [e.2.2.2.2.2.2.2.1]; omega

/-- the second weights', -/
theorem read_w2 (c : Dev nD) (t : Fin cfg3.N) (y : S128x128.Idx) :
    iblk3 V c 4 t y = (V c main_arg13 : S128x128.Idx → EReal) y := by
  have e := blockIndex t
  show (V c main_arg13 : S128x128.Idx → EReal) (((cfg3.win 4).blk t).view.emb y) = _
  refine congrArg (V c main_arg13 : S128x128.Idx → EReal) (funext fun a => Fin.ext ?_)
  match a with
  | ⟨0, _⟩ => show win3_4.index t (0 : Fin 2) * 128 + 1 * (y 0).val = (y 0).val; rw [e.2.2.2.2.2.2.2.2.1]; omega
  | ⟨1, _⟩ => show win3_4.index t (1 : Fin 2) * 128 + 1 * (y 1).val = (y 1).val; rw [e.2.2.2.2.2.2.2.2.2.1]; omega

/-- and the second bias row's. -/
theorem read_b2 (c : Dev nD) (t : Fin cfg3.N) (y : S1x128.Idx) :
    iblk3 V c 5 t y = (V c main_v32 : S1x128.Idx → EReal) y := by
  have e := blockIndex t
  show (V c main_v32 : S1x128.Idx → EReal) (((cfg3.win 5).blk t).view.emb y) = _
  refine congrArg (V c main_v32 : S1x128.Idx → EReal) (funext fun a => Fin.ext ?_)
  match a with
  | ⟨0, _⟩ => show win3_5.index t (0 : Fin 2) * 1 + 1 * (y 0).val = (y 0).val; rw [e.2.2.2.2.2.2.2.2.2.2.1]; omega
  | ⟨1, _⟩ => show win3_5.index t (1 : Fin 2) * 128 + 1 * (y 1).val = (y 1).val; rw [e.2.2.2.2.2.2.2.2.2.2.2.1]; omega

/-- What point t writes back is block t of the node step of the arrays as the region finds them. -/
theorem flushed_eq (c : Dev nD) (t : Fin cfg3.N) :
    (dat3 (F := Ideal) V c).flushed 6 t = ((cfg3.win 6).blk t).view.read (Elt Ideal)
      (Cert.Gine.node128 (V c main_v18) (V c main_v30) (V c main_arg11) (V c main_v31) (V c main_arg13) (V c main_v32)) := by
  have hN : cfg3.N = 10 := N_3
  have ht : t.val < 10 := by have := t.isLt; omega
  have e := blockIndex t
  show (cfg3.win 6).cut (grid3.coords t) ((dat3 V c).after 6 t) = _
  rw [after3_6]
  unfold out3_6
  rw [View.canon_unit_zero zeroOff]
  simp only [View.ld_unit_zero (S := S5000x128) zeroOff,
    View.ld_unit_zero (S := S128x128) zeroOff,
    View.ld_unit_zero (S := S1x128) zeroOff]
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg3.win 6).blk t).view.emb (ix2 p q) = (ix2 ⟨t.val * 5000 + p.val, hr⟩ q : S50000x128.Idx) :=
    funext fun a => Fin.ext (by
      match a with
      | ⟨0, _⟩ => show win3_6.index t (0 : Fin 2) * 5000 + 1 * p.val = t.val * 5000 + p.val; rw [e.2.2.2.2.2.2.2.2.2.2.2.2.1]; omega
      | ⟨1, _⟩ => show win3_6.index t (1 : Fin 2) * 128 + 1 * q.val = q.val; rw [e.2.2.2.2.2.2.2.2.2.2.2.2.2]; omega)
  show k3_pay1 (iblk3 V c 0 t) (iblk3 V c 1 t) (iblk3 V c 2 t) (iblk3 V c 3 t) (iblk3 V c 4 t) (iblk3 V c 5 t) (ix2 p q)
    = Cert.Gine.node128 _ _ _ _ _ _ (((cfg3.win 6).blk t).view.emb (ix2 p q))
  rw [hemb]
  exact pay_node _ _ _ _ _ _ _ _ _ _ _ _ ⟨t.val * 5000 + p.val, hr⟩ p (fun k => read_rows V c t p k hr)
    (fun k => read_agg V c t p k hr) (funext (read_w1 V c t)) (funext (read_b1 V c t)) (funext (read_w2 V c t))
    (funext (read_b2 V c t)) q

/-- An index of the output array is in point t's block iff each coordinate is in the block's range on its axis. -/
theorem mem_block (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v33).slice (win3_6.rect t)).set ↔ _
  rw [View.set_slice_whole, Rect.mem_set_unit]
  exact Iff.rfl

/-- The ten blocks of 5000 rows tile the 50000 rows: row r is in the block of point r / 5000. -/
theorem cover (i : S50000x128.Idx) :
    ∃ t : Fin cfg3.N, (cfg3.win 6).flush t = true ∧ i ∈ ((cfg3.win 6).blk t).view.set := by
  have hN : cfg3.N = 10 := N_3
  have hi0 : (i 0).val < 50000 := (i 0).isLt
  have hi1 : (i 1).val < 128 := (i 1).isLt
  obtain ⟨t, htv⟩ : ∃ t : Fin cfg3.N, t.val = (i 0).val / 5000 := ⟨⟨(i 0).val / 5000, by omega⟩, rfl⟩
  have e := blockIndex t
  refine ⟨t, flush3_6 t, ?_⟩
  rw [mem_block]
  intro a
  match a with
  | ⟨0, _⟩ =>
    show win3_6.index t (0 : Fin 2) * 5000 ≤ (i 0).val ∧ (i 0).val < win3_6.index t (0 : Fin 2) * 5000 + 5000
    rw [e.2.2.2.2.2.2.2.2.2.2.2.2.1]; omega
  | ⟨1, _⟩ =>
    show win3_6.index t (1 : Fin 2) * 128 ≤ (i 1).val ∧ (i 1).val < win3_6.index t (1 : Fin 2) * 128 + 128
    rw [e.2.2.2.2.2.2.2.2.2.2.2.2.2]; omega

/-- After the region the output array is the node step of the arrays the region found. -/
theorem arr (c : Dev nD) :
    (Gen.dat3 (F := Ideal) V c).arrAt 6 cfg3.N = Cert.Gine.node128 (V c main_v18) (V c main_v30) (V c main_arg11)
      (V c main_v31) (V c main_arg13) (V c main_v32) :=
  (dat3 (F := Ideal) V c).arrAt_eq_of_cover 6 _ (fun t _ => flushed_eq V c t) cover

end Array

end Cert.KernelIdeal.NodeRegion3

end
-- ==== Proof.MsgRegion4.lean ====
/-
  The third message step, read off the blocks: the 1600000 x 128 array of messages that the 400 grid points leave is,
  entry by entry, the clamped sum  max ((xs (e, j) + Σ_k ea (e, k) · We (k, j)) + be (0, j)) 0.

  Grid point t handles the 4000 edges [4000 t, 4000 t + 4000): it reads those rows of the edge attributes and of the
  gathered source rows, the whole weight matrix and the whole bias row, and writes those rows of the result.  So the
  block that point t writes is the restriction of one whole-array function to its rows, and the blocks of the 400
  points tile the array: row r belongs to point r / 4000.
-/
import proofs.«101451_j12455405159096_1_alg».proof.Proof.Gen.KernelIdeal.Frame
import proofs.«101451_j12455405159096_1_alg».proof.Proof.Spec
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Msg128Third

open Cert.KernelIdeal Cert.KernelIdeal.Gen Idealize.ShloMosaic Idealize.ShloMosaic.TcCoe Idealize.ShloMosaic.ValueIdx
open Idealize.ShloMosaic.Pipeline (Dat)

/-! ## One entry of the block a point computes -/

/-- The product's dimension numbers: the left operand's row is the result's row. -/
theorem lhs_row (i : S4000x128.Idx) (s : dot_S4000x16_S16x128_S4000x128_1_0_0_1_n_n.contr.Idx) :
    (dot_S4000x16_S16x128_S4000x128_1_0_0_1_n_n.lhsIdx i s 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
/-- The left operand's column is the contracted coordinate. -/
theorem lhs_col (i : S4000x128.Idx) (s : dot_S4000x16_S16x128_S4000x128_1_0_0_1_n_n.contr.Idx) :
    (dot_S4000x16_S16x128_S4000x128_1_0_0_1_n_n.lhsIdx i s 1).val = (s ⟨0, by decide⟩).val :=
  dot_S4000x16_S16x128_S4000x128_1_0_0_1_n_n.lhsIdx_val_of_single rfl i s
/-- The right operand's row is the contracted coordinate. -/
theorem rhs_row (i : S4000x128.Idx) (s : dot_S4000x16_S16x128_S4000x128_1_0_0_1_n_n.contr.Idx) :
    (dot_S4000x16_S16x128_S4000x128_1_0_0_1_n_n.rhsIdx i s 0).val = (s ⟨0, by decide⟩).val :=
  dot_S4000x16_S16x128_S4000x128_1_0_0_1_n_n.rhsIdx_val_of_single rfl i s
/-- The right operand's column is the result's column. -/
theorem rhs_col (i : S4000x128.Idx) (s : dot_S4000x16_S16x128_S4000x128_1_0_0_1_n_n.contr.Idx) :
    (dot_S4000x16_S16x128_S4000x128_1_0_0_1_n_n.rhsIdx i s 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-- The matrix product into a zero accumulator, at entry (p, q): the sum over the 16 contracted coordinates of
    row p of the left factor times column q of the right factor. -/
theorem product_at (a : FVec Ideal S4000x16 .bf16) (b : FVec Ideal S16x128 .bf16) (p : Fin 4000) (q : Fin 128) :
    matmul dot_S4000x16_S16x128_S4000x128_1_0_0_1_n_n none a b (constant (F := Ideal) S4000x128 .f32 0x00000000#32) (ix2 p q)
      = ∑ k : Fin 16, a (ix2 p k) * b (ix2 k q) := by
  refine (Ideal.matmul_constant_zero_apply dot_S4000x16_S16x128_S4000x128_1_0_0_1_n_n none a b (ix2 p q)).trans ?_
  rw [← Equiv.sum_comp (contrEquiv1 dot_S4000x16_S16x128_S4000x128_1_0_0_1_n_n 16 rfl rfl).symm]
  refine Finset.sum_congr rfl fun k _ => ?_
  have hk := contrEquiv1_symm_val dot_S4000x16_S16x128_S4000x128_1_0_0_1_n_n 16 rfl rfl k
  have el : dot_S4000x16_S16x128_S4000x128_1_0_0_1_n_n.lhsIdx (ix2 p q) ((contrEquiv1 dot_S4000x16_S16x128_S4000x128_1_0_0_1_n_n 16 rfl rfl).symm k) = ix2 p k := funext fun a => Fin.ext (by
    match a with
    | ⟨0, _⟩ => exact lhs_row _ _
    | ⟨1, _⟩ => exact (lhs_col _ _).trans hk)
  have er : dot_S4000x16_S16x128_S4000x128_1_0_0_1_n_n.rhsIdx (ix2 p q) ((contrEquiv1 dot_S4000x16_S16x128_S4000x128_1_0_0_1_n_n 16 rfl rfl).symm k) = ix2 k q := funext fun a => Fin.ext (by
    match a with
    | ⟨0, _⟩ => exact (rhs_row _ _).trans hk
    | ⟨1, _⟩ => exact rhs_col _ _)
  rw [el, er]

/-- A one-row array stretched over 4000 rows reads, at (p, q), its entry (0, q). -/
theorem row_stretched_at (v : S1x128.Idx → EReal) (h : S1x128.Broadcasts S4000x128) (p : Fin 4000) (q : Fin 128) :
    broadcastTo S4000x128 v h (ix2 p q) = v (ix2 (0 : Fin 1) q) := by
  refine broadcastTo_apply v h (ix2 p q) (ix2 (0 : Fin 1) q) fun a => ?_
  match a with
  | ⟨0, _⟩ => show (0 : Nat) = if (1 : Nat) = 1 then 0 else p.val; rw [if_pos rfl]
  | ⟨1, _⟩ => show q.val = if (128 : Nat) = 1 then 0 else q.val; rw [if_neg (by decide)]

/-- What the body computes from its four loaded blocks, at entry (p, q) of the block: the source row's entry plus
    the attributes' row times the weights' column plus the bias, clamped below at the zero word.  (Rounding the
    factors to a narrower format changes nothing over the extended reals.) -/
theorem entry_at (x0 : Vec Ideal S4000x16 .f32) (x2 : Vec Ideal S16x128 .f32) (x5 : Vec Ideal S4000x128 .f32) (x8 : Vec Ideal S1x128 .f32)
    (p : Fin 4000) (q : Fin 128) :
    k4_pay1 x0 x2 x5 x8 (ix2 p q)
      = max ((x5 (ix2 p q) + ∑ k : Fin 16, x0 (ix2 p k) * x2 (ix2 k q)) + x8 (ix2 (0 : Fin 1) q)) (Ideal.ofBits .f32 0x00000000#32) := by
  unfold k4_pay1
  rw [maximumf_apply, addf_apply, addf_apply, broadcast_apply, shapeCast_self, shapeCast_self, product_at, row_stretched_at]
  rfl

/-! ## Which rows and columns each window's block holds -/

theorem zero_offsets : (![0, 0] : Fin 2 → Nat) = fun _ => 0 := funext fun a => by fin_cases a <;> rfl

/-- The block indices, decided once over the 400 grid points: the attributes, the source rows and the result move
    together, one block of rows per point, in the one block of columns; the weights and the bias row stay at their
    only block. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-- Entry (p, q) of the source rows' block at point t is the source array at the same place as entry (p, q) of the
    result's block. -/
theorem source_block (c : Dev nD) (t : Fin cfg4.N) (p : Fin 4000) (q : Fin 128) :
    (iblk4 V c 1 t : Vec Ideal S4000x128 .f32) (ix2 p q)
      = (V c main_v40 : S1600000x128.Idx → EReal) (((cfg4.win 4).blk t).view.emb (ix2 p q)) := by
  obtain ⟨-, -, e2, e3, -, -, -, -, e8, e9⟩ := block_indices t
  show (V c main_v40 : S1600000x128.Idx → EReal) (((cfg4.win 1).blk t).view.emb (ix2 p q)) = _
  refine congrArg (V c main_v40 : S1600000x128.Idx → EReal) (funext fun a => Fin.ext ?_)
  match a with
  | ⟨0, _⟩ => show win4_1.index t (0 : Fin 2) * 4000 + 1 * p.val = win4_4.index t (0 : Fin 2) * 4000 + 1 * p.val; omega
  | ⟨1, _⟩ => show win4_1.index t (1 : Fin 2) * 128 + 1 * q.val = win4_4.index t (1 : Fin 2) * 128 + 1 * q.val; omega

/-- Entry (p, k) of the attributes' block at point t is the attributes' array at the row of the result's entry
    (p, q) and column k. -/
theorem attribute_block (c : Dev nD) (t : Fin cfg4.N) (p : Fin 4000) (q : Fin 128) (k : Fin 16) :
    (iblk4 V c 0 t : Vec Ideal S4000x16 .f32) (ix2 p k)
      = (V c main_arg2 : S1600000x16.Idx → EReal)
          (ix2 (Cert.Gine.rowOf (n0 := 1600000) (n1 := 128) (((cfg4.win 4).blk t).view.emb (ix2 p q))) k) := by
  obtain ⟨e0, e1, -, -, -, -, -, -, e8, e9⟩ := block_indices t
  show (V c main_arg2 : S1600000x16.Idx → EReal) (((cfg4.win 0).blk t).view.emb (ix2 p k)) = _
  refine congrArg (V c main_arg2 : S1600000x16.Idx → EReal) (funext fun a => Fin.ext ?_)
  match a with
  | ⟨0, _⟩ => show win4_0.index t (0 : Fin 2) * 4000 + 1 * p.val = win4_4.index t (0 : Fin 2) * 4000 + 1 * p.val; omega
  | ⟨1, _⟩ => show win4_0.index t (1 : Fin 2) * 16 + 1 * k.val = k.val; omega

/-- Entry (k, q) of the weights' block is the weights' array at row k and the column of the result's entry (p, q). -/
theorem weight_block (c : Dev nD) (t : Fin cfg4.N) (p : Fin 4000) (q : Fin 128) (k : Fin 16) :
    (iblk4 V c 2 t : Vec Ideal S16x128 .f32) (ix2 k q)
      = (V c main_arg15 : S16x128.Idx → EReal)
          (ix2 k (Cert.Gine.colOf (n0 := 1600000) (n1 := 128) (((cfg4.win 4).blk t).view.emb (ix2 p q)))) := by
  obtain ⟨-, -, -, -, e4, e5, -, -, e8, e9⟩ := block_indices t
  show (V c main_arg15 : S16x128.Idx → EReal) (((cfg4.win 2).blk t).view.emb (ix2 k q)) = _
  refine congrArg (V c main_arg15 : S16x128.Idx → EReal) (funext fun a => Fin.ext ?_)
  match a with
  | ⟨0, _⟩ => show win4_2.index t (0 : Fin 2) * 16 + 1 * k.val = k.val; omega
  | ⟨1, _⟩ => show win4_2.index t (1 : Fin 2) * 128 + 1 * q.val = win4_4.index t (1 : Fin 2) * 128 + 1 * q.val; omega

/-- Entry (0, q) of the bias row's block is the bias row at the column of the result's entry (p, q). -/
theorem bias_block (c : Dev nD) (t : Fin cfg4.N) (p : Fin 4000) (q : Fin 128) :
    (iblk4 V c 3 t : Vec Ideal S1x128 .f32) (ix2 (0 : Fin 1) q)
      = (V c main_v41 : S1x128.Idx → EReal)
          (ix2 (0 : Fin 1) (Cert.Gine.colOf (n0 := 1600000) (n1 := 128) (((cfg4.win 4).blk t).view.emb (ix2 p q)))) := by
  obtain ⟨-, -, -, -, -, -, e6, e7, e8, e9⟩ := block_indices t
  show (V c main_v41 : S1x128.Idx → EReal) (((cfg4.win 3).blk t).view.emb (ix2 (0 : Fin 1) q)) = _
  refine congrArg (V c main_v41 : S1x128.Idx → EReal) (funext fun a => Fin.ext ?_)
  match a with
  | ⟨0, _⟩ => show win4_3.index t (0 : Fin 2) * 1 + 1 * 0 = 0; omega
  | ⟨1, _⟩ => show win4_3.index t (1 : Fin 2) * 128 + 1 * q.val = win4_4.index t (1 : Fin 2) * 128 + 1 * q.val; omega

/-! ## From the blocks to the array -/

/-- What point t writes back is its block of the whole-array message function. -/
theorem written_block (c : Dev nD) (t : Fin cfg4.N) :
    (dat4 (F := Ideal) V c).flushed 4 t
      = ((cfg4.win 4).blk t).view.read (Elt Ideal) (Cert.Gine.msg128 (V c main_v40) (V c main_arg2) (V c main_arg15) (V c main_v41)) := by
  show (cfg4.win 4).cut (grid4.coords t) ((dat4 V c).after 4 t) = _
  rw [after4_4]
  unfold out4_4
  rw [View.canon_unit_zero zero_offsets]
  simp only [View.ld_unit_zero (S := S4000x16) zero_offsets, View.ld_unit_zero (S := S16x128) zero_offsets,
    View.ld_unit_zero (S := S4000x128) zero_offsets, View.ld_unit_zero (S := S1x128) zero_offsets]
  refine funext fun (j : S4000x128.Idx) => ?_
  obtain ⟨p, q, rfl⟩ : ∃ (p : Fin 4000) (q : Fin 128), j = ix2 p q := ⟨j 0, j 1, eq_ix2 j⟩
  show k4_pay1 (iblk4 V c 0 t) (iblk4 V c 2 t) (iblk4 V c 1 t) (iblk4 V c 3 t) (ix2 p q)
      = Cert.Gine.msg128 (V c main_v40) (V c main_arg2) (V c main_arg15) (V c main_v41) (((cfg4.win 4).blk t).view.emb (ix2 p q))
  refine (entry_at _ _ _ _ p q).trans ?_
  unfold Cert.Gine.msg128
  refine congrArg₂ max (congrArg₂ (· + ·) (congrArg₂ (· + ·) (source_block V c t p q)
    (Finset.sum_congr rfl fun k _ => congrArg₂ (· * ·) (attribute_block V c t p q k) (weight_block V c t p q k)))
    (bias_block V c t p q)) rfl

/-- An index of the array is in point t's block iff each coordinate is in the block's range on its axis. -/
theorem in_block_iff (t : Fin cfg4.N) (i : S1600000x128.Idx) :
    i ∈ ((cfg4.win 4).blk t).view.set ↔ ∀ a : Fin 2, win4_4.index t a * S4000x128.size a ≤ (i a).val ∧ (i a).val < win4_4.index t a * S4000x128.size a + S4000x128.size a := by
  show i ∈ ((View.whole main_v42).slice (win4_4.rect t)).set ↔ _
  rw [View.set_slice_whole, Rect.mem_set_unit]
  exact Iff.rfl

/-- Every index of the array is in some point's block: row r is among the rows of point r / 4000. -/
theorem tiled (i : S1600000x128.Idx) :
    ∃ t : Fin cfg4.N, (cfg4.win 4).flush t = true ∧ i ∈ ((cfg4.win 4).blk t).view.set := by
  have hi0 : (i 0).val < 1600000 := (i 0).isLt
  have hi1 : (i 1).val < 128 := (i 1).isLt
  obtain ⟨t, ht⟩ : ∃ t : Fin cfg4.N, t.val = (i 0).val / 4000 :=
    ⟨⟨(i 0).val / 4000, by rw [show cfg4.N = 400 from N_4]; omega⟩, rfl⟩
  obtain ⟨-, -, -, -, -, -, -, -, e8, e9⟩ := block_indices t
  refine ⟨t, flush4_4 t, ?_⟩
  rw [in_block_iff]
  intro a
  match a with
  | ⟨0, _⟩ => show win4_4.index t (0 : Fin 2) * 4000 ≤ (i 0).val ∧ (i 0).val < win4_4.index t (0 : Fin 2) * 4000 + 4000; omega
  | ⟨1, _⟩ => show win4_4.index t (1 : Fin 2) * 128 ≤ (i 1).val ∧ (i 1).val < win4_4.index t (1 : Fin 2) * 128 + 128; omega

/-- The array the third message step leaves: the message function of the arrays the step finds. -/
theorem arr (c : Dev nD) :
    (dat4 (F := Ideal) V c).arrAt 4 cfg4.N = Cert.Gine.msg128 (V c main_v40) (V c main_arg2) (V c main_arg15) (V c main_v41) :=
  (dat4 (F := Ideal) V c).arrAt_eq_of_cover 4 (Cert.Gine.msg128 (V c main_v40) (V c main_arg2) (V c main_arg15) (V c main_v41))
    (fun t _ => written_block V c t) tiled

end Cert.KernelIdeal.Msg128Third

end
-- ==== Proof.NodeRegion5.lean ====
/-
  The node step of one layer, read off the region's proof data: after the region the output array is the shared
  specification's node step of the arrays the region finds, entry by entry.

  The body stores one block: relu(relu((x + agg) · W1 + b1) · W2 + b2) of its row blocks of x and agg and of the whole
  weights and bias rows. Over the extended reals a narrowing of the number format changes nothing, a product into the zero
  accumulator is the finite sum over the contracted channel, and a bias row broadcast over the rows reads its one row; so
  entry (p, q) of the stored block is two nested finite sums. Block t of a row-blocked array is rows 5000 t … 5000 t + 4999,
  all columns, so row p of the block is row 5000 t + p of the array, and the ten blocks tile the 50000 rows: the array
  the region leaves is one function of the arrays it finds.
-/
import proofs.«101451_j12455405159096_1_alg».proof.Proof.Gen.KernelIdeal.Frame
import proofs.«101451_j12455405159096_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeRegion5

open Cert.KernelIdeal Cert.KernelIdeal.Gen Idealize.ShloMosaic Idealize.ShloMosaic.ValueIdx
open Idealize.ShloMosaic.TcCoe Idealize.SL.Sem
open Idealize.ShloMosaic.Pipeline (Dat)

/-! ## A matrix product into the zero accumulator, entry by entry -/

/-- At output index i and contraction index q, the left operand of Layer is read at row (i 0) … -/
theorem lhsLayer_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column q; -/
theorem lhsLayer_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at row q … -/
theorem rhsLayer_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and column (i 1). -/
theorem rhsLayer_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- So Layer, accumulated into zero, is at (p, h) the sum over the 128 contracted channels of the products. -/
theorem mulLayer_apply (A : FVec Ideal S5000x128 .bf16) (B : FVec Ideal S128x128 .bf16) (p : Fin 5000) (h : Fin 128) :
    matmul dot_S5000x128_S128x128_S5000x128_1_0_0_1_n_n none A B (constant (F := Ideal) S5000x128 .f32 0x00000000#32) (ix2 p h)
      = ∑ k : Fin 128, A (ix2 p k) * B (ix2 k h) := by
  refine (Ideal.matmul_constant_zero_apply dot_S5000x128_S128x128_S5000x128_1_0_0_1_n_n none A B (ix2 p h)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p h) ((contrEquiv1 dot_S5000x128_S128x128_S5000x128_1_0_0_1_n_n 128 rfl rfl).symm k) = ix2 p k := funext fun a => Fin.ext (by
    match a with
    | ⟨0, _⟩ => exact lhsLayer_0 _ _
    | ⟨1, _⟩ => exact (lhsLayer_1 _ _).trans hk)
  have er : dot_S5000x128_S128x128_S5000x128_1_0_0_1_n_n.rhsIdx (ix2 p h) ((contrEquiv1 dot_S5000x128_S128x128_S5000x128_1_0_0_1_n_n 128 rfl rfl).symm k) = ix2 k h := funext fun a => Fin.ext (by
    match a with
    | ⟨0, _⟩ => exact (rhsLayer_0 _ _).trans hk
    | ⟨1, _⟩ => exact rhsLayer_1 _ _)
  rw [el, er]

/-! ## The stored block at an entry -/

/-- The hidden block: the first layer of the stored block, as one term of the loaded blocks. -/
def hiddenBlock (v0 v1 : Vec Ideal S5000x128 .f32) (v5 : Vec Ideal S128x128 .f32) (v8 : Vec Ideal S1x128 .f32) :
    FVec Ideal S5000x128 .f32 :=
  maximumf (addf (matmul dot_S5000x128_S128x128_S5000x128_1_0_0_1_n_n none
        (truncf .bf16 (addf (shapeCast S5000x128 v0 shapeCasts_S5000x128_S5000x128) (shapeCast S5000x128 v1 shapeCasts_S5000x128_S5000x128)) bitsLt_bf16_f32)
        (truncf .bf16 v5 bitsLt_bf16_f32) (constant (F := Ideal) S5000x128 .f32 0x00000000#32))
      (broadcastTo S5000x128 (shapeCast S1x128 v8 shapeCasts_S1x128_S1x128) broadcasts_S1x128_S5000x128))
    (broadcast S5000x128 (Scalar.ofBits (F := Ideal) .f32 0x00000000#32))

/-- The stored block is the second layer applied to the hidden block. -/
theorem pay_eq (v0 v1 : Vec Ideal S5000x128 .f32) (v5 : Vec Ideal S128x128 .f32) (v8 : Vec Ideal S1x128 .f32)
    (v15 : Vec Ideal S128x128 .f32) (v18 : Vec Ideal S1x128 .f32) :
    k5_pay1 v0 v1 v5 v8 v15 v18 =
      maximumf (addf (matmul dot_S5000x128_S128x128_S5000x128_1_0_0_1_n_n none
            (truncf .bf16 (hiddenBlock v0 v1 v5 v8) bitsLt_bf16_f32)
            (truncf .bf16 v15 bitsLt_bf16_f32) (constant (F := Ideal) S5000x128 .f32 0x00000000#32))
          (broadcastTo S5000x128 (shapeCast S1x128 v18 shapeCasts_S1x128_S1x128) broadcasts_S1x128_S5000x128))
        (broadcast S5000x128 (Scalar.ofBits (F := Ideal) .f32 0x00000000#32)) := rfl

/-- Entry (p, h) of the hidden block: the 128 summed channels of row p against column h of the first weights, plus
    the first bias at h, clamped below at zero. A narrowing of the format changes no extended real, the sum of two
    blocks is entrywise, and the bias row is the same for every p. -/
theorem hiddenBlock_apply (v0 v1 : Vec Ideal S5000x128 .f32) (v5 : Vec Ideal S128x128 .f32) (v8 : Vec Ideal S1x128 .f32)
    (p : Fin 5000) (h : Fin 128) :
    hiddenBlock v0 v1 v5 v8 (ix2 p h)
      = max ((∑ k : Fin 128, (v0 (ix2 p k) + v1 (ix2 p k)) * v5 (ix2 k h)) + v8 (ix2 (0 : Fin 1) h))
          (Ideal.ofBits .f32 0x00000000#32) := by
  unfold hiddenBlock
  simp only [shapeCast_self]
  show max (matmul (F := Ideal) dot_S5000x128_S128x128_S5000x128_1_0_0_1_n_n none _ _ _ (ix2 p h)
      + broadcastTo S5000x128 v8 broadcasts_S1x128_S5000x128 (ix2 p h)) _ = _
  rw [mulLayer_apply, broadcastTo_1b_ab_apply]
  rfl

/-- Entry (p, q) of the stored block: the 128 hidden entries of row p against column q of the second weights, plus
    the second bias at q, clamped below at zero. -/
theorem pay_apply (v0 v1 : Vec Ideal S5000x128 .f32) (v5 : Vec Ideal S128x128 .f32) (v8 : Vec Ideal S1x128 .f32)
    (v15 : Vec Ideal S128x128 .f32) (v18 : Vec Ideal S1x128 .f32) (p : Fin 5000) (q : Fin 128) :
    k5_pay1 v0 v1 v5 v8 v15 v18 (ix2 p q)
      = max ((∑ h : Fin 128, hiddenBlock v0 v1 v5 v8 (ix2 p h) * v15 (ix2 h q)) + v18 (ix2 (0 : Fin 1) q))
          (Ideal.ofBits .f32 0x00000000#32) := by
  rw [pay_eq]
  simp only [shapeCast_self]
  show max (matmul (F := Ideal) dot_S5000x128_S128x128_S5000x128_1_0_0_1_n_n none _ _ _ (ix2 p q)
      + broadcastTo S5000x128 v18 broadcasts_S1x128_S5000x128 (ix2 p q)) _ = _
  rw [mulLayer_apply, broadcastTo_1b_ab_apply]
  rfl

/-- The stored block's entry (p, q), when row p of the row-blocked inputs is row r of the arrays and the other inputs
    are the whole arrays, is the node step's entry (r, q): the same two sums, term by term. -/
theorem pay_node (X AG : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal)
    (x0 x1 : Vec Ideal S5000x128 .f32) (x2 : Vec Ideal S128x128 .f32) (x3 : Vec Ideal S1x128 .f32)
    (x4 : Vec Ideal S128x128 .f32) (x5 : Vec Ideal S1x128 .f32) (r : Fin 50000) (p : Fin 5000)
    (h0 : ∀ k : Fin 128, x0 (ix2 p k) = X (ix2 r k)) (h1 : ∀ k : Fin 128, x1 (ix2 p k) = AG (ix2 r k))
    (h2 : x2 = W1) (h3 : x3 = b1) (h4 : x4 = W2) (h5 : x5 = b2) (q : Fin 128) :
    k5_pay1 x0 x1 x2 x3 x4 x5 (ix2 p q) = Cert.Gine.node128 X AG W1 b1 W2 b2 (ix2 r q) := by
  subst h2 h3 h4 h5
  rw [pay_apply]
  simp only [hiddenBlock_apply, h0, h1]
  rfl

/-! ## From the blocks to the array -/

theorem zeroOff : (![0, 0] : Fin 2 → Nat) = fun _ => 0 := funext fun a => by fin_cases a <;> rfl

/-- The windows' block indices, decided over the ten grid points: the row-blocked windows (the node rows, the
    aggregated messages, the output) sit at block row t, block column 0; the weights and the bias rows are whole,
    block (0, 0). -/
theorem blockIndex : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

section Array
variable (V : (c : Dev nD) → (b : Ref sig .tc) → Buf (Elt Ideal) ((c : Thread nD τ).loc b))

/-- Row p, channel k of the node rows' block at point t is row 5000 t + p of the array: a block's coordinate is its block index times the block's extent plus the coordinate inside. -/
theorem read_rows (c : Dev nD) (t : Fin cfg5.N) (p : Fin 5000) (k : Fin 128) (hr : t.val * 5000 + p.val < 50000) :
    iblk5 V c 0 t (ix2 p k) = (V c main_v33 : S50000x128.Idx → EReal) (ix2 ⟨t.val * 5000 + p.val, hr⟩ k) := by
  have e := blockIndex t
  show (V c main_v33 : S50000x128.Idx → EReal) (((cfg5.win 0).blk t).view.emb (ix2 p k)) = _
  refine congrArg (V c main_v33 : S50000x128.Idx → EReal) (funext fun a => Fin.ext ?_)
  match a with
  | ⟨0, _⟩ => show win5_0.index t (0 : Fin 2) * 5000 + 1 * p.val = t.val * 5000 + p.val; rw [e.1]; omega
  | ⟨1, _⟩ => show win5_0.index t (1 : Fin 2) * 128 + 1 * k.val = k.val; rw [e.2.1]; omega

/-- The same for the aggregated messages. -/
theorem read_agg (c : Dev nD) (t : Fin cfg5.N) (p : Fin 5000) (k : Fin 128) (hr : t.val * 5000 + p.val < 50000) :
    iblk5 V c 1 t (ix2 p k) = (V c main_v45 : S50000x128.Idx → EReal) (ix2 ⟨t.val * 5000 + p.val, hr⟩ k) := by
  have e := blockIndex t
  show (V c main_v45 : S50000x128.Idx → EReal) (((cfg5.win 1).blk t).view.emb (ix2 p k)) = _
  refine congrArg (V c main_v45 : S50000x128.Idx → EReal) (funext fun a => Fin.ext ?_)
  match a with
  | ⟨0, _⟩ => show win5_1.index t (0 : Fin 2) * 5000 + 1 * p.val = t.val * 5000 + p.val; rw [e.2.2.1]; omega
  | ⟨1, _⟩ => show win5_1.index t (1 : Fin 2) * 128 + 1 * k.val = k.val; rw [e.2.2.2.1]; omega

/-- The first weights' block is the whole array at every point. -/
theorem read_w1 (c : Dev nD) (t : Fin cfg5.N) (y : S128x128.Idx) :
    iblk5 V c 2 t y = (V c main_arg17 : S128x128.Idx → EReal) y := by
  have e := blockIndex t
  show (V c main_arg17 : S128x128.Idx → EReal) (((cfg5.win 2).blk t).view.emb y) = _
  refine congrArg (V c main_arg17 : S128x128.Idx → EReal) (funext fun a => Fin.ext ?_)
  match a with
  | ⟨0, _⟩ => show win5_2.index t (0 : Fin 2) * 128 + 1 * (y 0).val = (y 0).val; rw [e.2.2.2.2.1]; omega
  | ⟨1, _⟩ => show win5_2.index t (1 : Fin 2) * 128 + 1 * (y 1).val = (y 1).val; rw [e.2.2.2.2.2.1]; omega

/-- So is the first bias row's, -/
theorem read_b1 (c : Dev nD) (t : Fin cfg5.N) (y : S1x128.Idx) :
    iblk5 V c 3 t y = (V c main_v46 : S1x128.Idx → EReal) y := by
  have e := blockIndex t
  show (V c main_v46 : S1x128.Idx → EReal) (((cfg5.win 3).blk t).view.emb y) = _
  refine congrArg (V c main_v46 : S1x128.Idx → EReal) (funext fun a => Fin.ext ?_)
  match a with
  | ⟨0, _⟩ => show win5_3.index t (0 : Fin 2) * 1 + 1 * (y 0).val = (y 0).val; rw [e.2.2.2.2.2.2.1]; omega
  | ⟨1, _⟩ => show win5_3.index t (1 : Fin 2) * 128 + 1 * (y 1).val = (y 1).val; rw [e.2.2.2.2.2.2.2.1]; omega

/-- the second weights', -/
theorem read_w2 (c : Dev nD) (t : Fin cfg5.N) (y : S128x128.Idx) :
    iblk5 V c 4 t y = (V c main_arg19 : S128x128.Idx → EReal) y := by
  have e := blockIndex t
  show (V c main_arg19 : S128x128.Idx → EReal) (((cfg5.win 4).blk t).view.emb y) = _
  refine congrArg (V c main_arg19 : S128x128.Idx → EReal) (funext fun a => Fin.ext ?_)
  match a with
  | ⟨0, _⟩ => show win5_4.index t (0 : Fin 2) * 128 + 1 * (y 0).val = (y 0).val; rw [e.2.2.2.2.2.2.2.2.1]; omega
  | ⟨1, _⟩ => show win5_4.index t (1 : Fin 2) * 128 + 1 * (y 1).val = (y 1).val; rw [e.2.2.2.2.2.2.2.2.2.1]; omega

/-- and the second bias row's. -/
theorem read_b2 (c : Dev nD) (t : Fin cfg5.N) (y : S1x128.Idx) :
    iblk5 V c 5 t y = (V c main_v47 : S1x128.Idx → EReal) y := by
  have e := blockIndex t
  show (V c main_v47 : S1x128.Idx → EReal) (((cfg5.win 5).blk t).view.emb y) = _
  refine congrArg (V c main_v47 : S1x128.Idx → EReal) (funext fun a => Fin.ext ?_)
  match a with
  | ⟨0, _⟩ => show win5_5.index t (0 : Fin 2) * 1 + 1 * (y 0).val = (y 0).val; rw [e.2.2.2.2.2.2.2.2.2.2.1]; omega
  | ⟨1, _⟩ => show win5_5.index t (1 : Fin 2) * 128 + 1 * (y 1).val = (y 1).val; rw [e.2.2.2.2.2.2.2.2.2.2.2.1]; omega

/-- What point t writes back is block t of the node step of the arrays as the region finds them. -/
theorem flushed_eq (c : Dev nD) (t : Fin cfg5.N) :
    (dat5 (F := Ideal) V c).flushed 6 t = ((cfg5.win 6).blk t).view.read (Elt Ideal)
      (Cert.Gine.node128 (V c main_v33) (V c main_v45) (V c main_arg17) (V c main_v46) (V c main_arg19) (V c main_v47)) := by
  have hN : cfg5.N = 10 := N_5
  have ht : t.val < 10 := by have := t.isLt; omega
  have e := blockIndex t
  show (cfg5.win 6).cut (grid5.coords t) ((dat5 V c).after 6 t) = _
  rw [after5_6]
  unfold out5_6
  rw [View.canon_unit_zero zeroOff]
  simp only [View.ld_unit_zero (S := S5000x128) zeroOff,
    View.ld_unit_zero (S := S128x128) zeroOff,
    View.ld_unit_zero (S := S1x128) zeroOff]
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg5.win 6).blk t).view.emb (ix2 p q) = (ix2 ⟨t.val * 5000 + p.val, hr⟩ q : S50000x128.Idx) :=
    funext fun a => Fin.ext (by
      match a with
      | ⟨0, _⟩ => show win5_6.index t (0 : Fin 2) * 5000 + 1 * p.val = t.val * 5000 + p.val; rw [e.2.2.2.2.2.2.2.2.2.2.2.2.1]; omega
      | ⟨1, _⟩ => show win5_6.index t (1 : Fin 2) * 128 + 1 * q.val = q.val; rw [e.2.2.2.2.2.2.2.2.2.2.2.2.2]; omega)
  show k5_pay1 (iblk5 V c 0 t) (iblk5 V c 1 t) (iblk5 V c 2 t) (iblk5 V c 3 t) (iblk5 V c 4 t) (iblk5 V c 5 t) (ix2 p q)
    = Cert.Gine.node128 _ _ _ _ _ _ (((cfg5.win 6).blk t).view.emb (ix2 p q))
  rw [hemb]
  exact pay_node _ _ _ _ _ _ _ _ _ _ _ _ ⟨t.val * 5000 + p.val, hr⟩ p (fun k => read_rows V c t p k hr)
    (fun k => read_agg V c t p k hr) (funext (read_w1 V c t)) (funext (read_b1 V c t)) (funext (read_w2 V c t))
    (funext (read_b2 V c t)) q

/-- An index of the output array is in point t's block iff each coordinate is in the block's range on its axis. -/
theorem mem_block (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v48).slice (win5_6.rect t)).set ↔ _
  rw [View.set_slice_whole, Rect.mem_set_unit]
  exact Iff.rfl

/-- The ten blocks of 5000 rows tile the 50000 rows: row r is in the block of point r / 5000. -/
theorem cover (i : S50000x128.Idx) :
    ∃ t : Fin cfg5.N, (cfg5.win 6).flush t = true ∧ i ∈ ((cfg5.win 6).blk t).view.set := by
  have hN : cfg5.N = 10 := N_5
  have hi0 : (i 0).val < 50000 := (i 0).isLt
  have hi1 : (i 1).val < 128 := (i 1).isLt
  obtain ⟨t, htv⟩ : ∃ t : Fin cfg5.N, t.val = (i 0).val / 5000 := ⟨⟨(i 0).val / 5000, by omega⟩, rfl⟩
  have e := blockIndex t
  refine ⟨t, flush5_6 t, ?_⟩
  rw [mem_block]
  intro a
  match a with
  | ⟨0, _⟩ =>
    show win5_6.index t (0 : Fin 2) * 5000 ≤ (i 0).val ∧ (i 0).val < win5_6.index t (0 : Fin 2) * 5000 + 5000
    rw [e.2.2.2.2.2.2.2.2.2.2.2.2.1]; omega
  | ⟨1, _⟩ =>
    show win5_6.index t (1 : Fin 2) * 128 ≤ (i 1).val ∧ (i 1).val < win5_6.index t (1 : Fin 2) * 128 + 128
    rw [e.2.2.2.2.2.2.2.2.2.2.2.2.2]; omega

/-- After the region the output array is the node step of the arrays the region found. -/
theorem arr (c : Dev nD) :
    (Gen.dat5 (F := Ideal) V c).arrAt 6 cfg5.N = Cert.Gine.node128 (V c main_v33) (V c main_v45) (V c main_arg17)
      (V c main_v46) (V c main_arg19) (V c main_v47) :=
  (dat5 (F := Ideal) V c).arrAt_eq_of_cover 6 _ (fun t _ => flushed_eq V c t) cover

end Array

end Cert.KernelIdeal.NodeRegion5

end
-- ==== Proof.lean ====
/-
  The certificate of the five claims.  Both programs compute three rounds of message passing on a graph of 50000 nodes
  and 1600000 edges, then a sigmoid head: per round, every edge sends relu((x_src + ea·We) + be) to its destination, the
  messages are summed per node, and every node row goes through relu(relu(((x + agg)·W1) + b1)·W2 + b2).  The kernel
  runs the two dense steps of each round as pallas_calls (blocks of 4000 edges, blocks of 5000 nodes; its matrix
  products round their operands to bf16 and accumulate into zero, which at the exact values is the plain finite sum)
  and leaves the gathers, the scatter-adds and the head to host operations, spelt as the reference spells them.
  The frames are the generated ones; nothing was rewritten by the ideal pass, so `preserves` is `True`.  For
  `algebraic`: the kernel's run ends with every buffer at the last boundary's contents (KernelRun), the result buffer
  there is the reference's result term of the launch arguments (Fold, from the six region facts, the kept buffers, and
  the reference's stages read as the specification), and the reference's generated run ends at that same term of its own
  arguments, which agree with the kernel's.  No step uses that the inputs are finite: sums and products of extended
  reals commute and associate as they stand, and no term is moved across a sum.
-/
import proofs.«101451_j12455405159096_1_alg».proof.Defs
import proofs.«101451_j12455405159096_1_alg».proof.Proof.Gen.Kernel
import proofs.«101451_j12455405159096_1_alg».proof.Proof.Gen.Kernel.Skeleton
import proofs.«101451_j12455405159096_1_alg».proof.Proof.Gen.Kernel.Launch
import proofs.«101451_j12455405159096_1_alg».proof.Proof.Gen.Kernel.Points
import proofs.«101451_j12455405159096_1_alg».proof.Proof.Gen.Kernel.Frame
import proofs.«101451_j12455405159096_1_alg».proof.Proof.Gen.KernelIdeal
import proofs.«101451_j12455405159096_1_alg».proof.Proof.Gen.KernelIdeal.Skeleton
import proofs.«101451_j12455405159096_1_alg».proof.Proof.Gen.KernelIdeal.Launch
import proofs.«101451_j12455405159096_1_alg».proof.Proof.Gen.KernelIdeal.Points
import proofs.«101451_j12455405159096_1_alg».proof.Proof.Gen.KernelIdeal.Frame
import proofs.«101451_j12455405159096_1_alg».proof.Proof.Gen.ReferenceIdeal
import proofs.«101451_j12455405159096_1_alg».proof.Proof.Gen.Pre_finite_inputs
import proofs.«101451_j12455405159096_1_alg».proof.Proof.Gen.ReferenceIdeal.Run
import proofs.«101451_j12455405159096_1_alg».proof.Proof.Gen.ReferenceIdeal.Read
import proofs.«101451_j12455405159096_1_alg».proof.Proof.KernelRun
import proofs.«101451_j12455405159096_1_alg».proof.Proof.Fold
import proofs.«101451_j12455405159096_1_alg».proof.Proof.MsgRegion0
import proofs.«101451_j12455405159096_1_alg».proof.Proof.NodeRegion1
import proofs.«101451_j12455405159096_1_alg».proof.Proof.MsgRegion2
import proofs.«101451_j12455405159096_1_alg».proof.Proof.NodeRegion3
import proofs.«101451_j12455405159096_1_alg».proof.Proof.MsgRegion4
import proofs.«101451_j12455405159096_1_alg».proof.Proof.NodeRegion5
import Idealize.ShloMosaic.Adequacy
import Idealize.ShloMosaic.Init

set_option maxRecDepth 16384

noncomputable section

namespace Cert.Proof

open Idealize.ShloMosaic Idealize.SL.Sem

/-- The word-level kernel runs and keeps its arguments: the generated frame. -/
theorem frame_kernel : Cert.frame_Kernel :=
  fun m ρ _ => Cert.Kernel.Gen.frame m ρ

/-- The idealized kernel runs and keeps its arguments: the generated frame. -/
theorem frame_kernelIdeal : Cert.frame_KernelIdeal :=
  fun m ρ _ => Cert.KernelIdeal.Gen.frame m ρ

/-- The reference runs and keeps its arguments: its generated run, the result forgotten. -/
theorem frame_reference : Cert.frame_ReferenceIdeal :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

set_option maxHeartbeats 2000000 in
/-- From memories agreeing on the arguments both idealized programs end with the reference's result term of those
    arguments in their result arrays, and with the arguments unchanged. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run (Cert.KernelIdeal.defs (F := Ideal)) _ _).mono (fun r h c =>
      ⟨(h c _ (Cert.KernelIdeal.Gen.mem_uc Cert.KernelIdeal.main_v59 (by decide))).trans
          (Cert.KernelIdeal.Fold.result m ρ c Cert.KernelIdeal.Msg64.arr Cert.KernelIdeal.NodeRegion1.arr
            Cert.KernelIdeal.Msg128Second.arr Cert.KernelIdeal.NodeRegion3.arr Cert.KernelIdeal.Msg128Third.arr Cert.KernelIdeal.NodeRegion5.arr),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c),
      (h c _ (Cert.KernelIdeal.Gen.mem_uc Cert.KernelIdeal.main_arg8 (by decide))).trans (Cert.KernelIdeal.Gen.W13_main_arg8 m ρ c),
      (h c _ (Cert.KernelIdeal.Gen.mem_uc Cert.KernelIdeal.main_arg9 (by decide))).trans (Cert.KernelIdeal.Gen.W13_main_arg9 m ρ c),
      (h c _ (Cert.KernelIdeal.Gen.mem_uc Cert.KernelIdeal.main_arg10 (by decide))).trans (Cert.KernelIdeal.Gen.W13_main_arg10 m ρ c),
      (h c _ (Cert.KernelIdeal.Gen.mem_uc Cert.KernelIdeal.main_arg11 (by decide))).trans (Cert.KernelIdeal.Gen.W13_main_arg11 m ρ c),
      (h c _ (Cert.KernelIdeal.Gen.mem_uc Cert.KernelIdeal.main_arg12 (by decide))).trans (Cert.KernelIdeal.Gen.W13_main_arg12 m ρ c),
      (h c _ (Cert.KernelIdeal.Gen.mem_uc Cert.KernelIdeal.main_arg13 (by decide))).trans (Cert.KernelIdeal.Gen.W13_main_arg13 m ρ c),
      (h c _ (Cert.KernelIdeal.Gen.mem_uc Cert.KernelIdeal.main_arg14 (by decide))).trans (Cert.KernelIdeal.Gen.W13_main_arg14 m ρ c),
      (h c _ (Cert.KernelIdeal.Gen.mem_uc Cert.KernelIdeal.main_arg15 (by decide))).trans (Cert.KernelIdeal.Gen.W13_main_arg15 m ρ c),
      (h c _ (Cert.KernelIdeal.Gen.mem_uc Cert.KernelIdeal.main_arg16 (by decide))).trans (Cert.KernelIdeal.Gen.W13_main_arg16 m ρ c),
      (h c _ (Cert.KernelIdeal.Gen.mem_uc Cert.KernelIdeal.main_arg17 (by decide))).trans (Cert.KernelIdeal.Gen.W13_main_arg17 m ρ c),
      (h c _ (Cert.KernelIdeal.Gen.mem_uc Cert.KernelIdeal.main_arg18 (by decide))).trans (Cert.KernelIdeal.Gen.W13_main_arg18 m ρ c),
      (h c _ (Cert.KernelIdeal.Gen.mem_uc Cert.KernelIdeal.main_arg19 (by decide))).trans (Cert.KernelIdeal.Gen.W13_main_arg19 m ρ c),
      (h c _ (Cert.KernelIdeal.Gen.mem_uc Cert.KernelIdeal.main_arg20 (by decide))).trans (Cert.KernelIdeal.Gen.W13_main_arg20 m ρ c),
      (h c _ (Cert.KernelIdeal.Gen.mem_uc Cert.KernelIdeal.main_arg21 (by decide))).trans (Cert.KernelIdeal.Gen.W13_main_arg21 m ρ c),
      (h c _ (Cert.KernelIdeal.Gen.mem_uc Cert.KernelIdeal.main_arg22 (by decide))).trans (Cert.KernelIdeal.Gen.W13_main_arg22 m ρ c)⟩)
      (Cert.KernelIdeal.RunValue.run_all m ρ)
  · refine (θ_run (Cert.ReferenceIdeal.defs (F := Ideal)) _ _).mono (fun r h c => ⟨(h c).1.trans ?_, (h c).2⟩)
      (Cert.ReferenceIdeal.Value.run (F := Ideal) m' ρ')
    -- the reference's term of its own arguments; each argument is the kernel's, so the two terms are one
    have key : ∀ y0 y1 y2 y3 y4 y5 y6 y7 y8 y9 y10 y11 y12 y13 y14 y15 y16 y17 y18 y19 y20 y21 y22, y0 = (m ((c.tc : Thread Cert.KernelIdeal.nD Cert.KernelIdeal.τ).loc Cert.KernelIdeal.main_arg0)) → y1 = (m ((c.tc : Thread Cert.KernelIdeal.nD Cert.KernelIdeal.τ).loc Cert.KernelIdeal.main_arg1)) → y2 = (m ((c.tc : Thread Cert.KernelIdeal.nD Cert.KernelIdeal.τ).loc Cert.KernelIdeal.main_arg2)) → y3 = (m ((c.tc : Thread Cert.KernelIdeal.nD Cert.KernelIdeal.τ).loc Cert.KernelIdeal.main_arg3)) → y4 = (m ((c.tc : Thread Cert.KernelIdeal.nD Cert.KernelIdeal.τ).loc Cert.KernelIdeal.main_arg4)) → y5 = (m ((c.tc : Thread Cert.KernelIdeal.nD Cert.KernelIdeal.τ).loc Cert.KernelIdeal.main_arg5)) → y6 = (m ((c.tc : Thread Cert.KernelIdeal.nD Cert.KernelIdeal.τ).loc Cert.KernelIdeal.main_arg6)) → y7 = (m ((c.tc : Thread Cert.KernelIdeal.nD Cert.KernelIdeal.τ).loc Cert.KernelIdeal.main_arg7)) → y8 = (m ((c.tc : Thread Cert.KernelIdeal.nD Cert.KernelIdeal.τ).loc Cert.KernelIdeal.main_arg8)) → y9 = (m ((c.tc : Thread Cert.KernelIdeal.nD Cert.KernelIdeal.τ).loc Cert.KernelIdeal.main_arg9)) → y10 = (m ((c.tc : Thread Cert.KernelIdeal.nD Cert.KernelIdeal.τ).loc Cert.KernelIdeal.main_arg10)) → y11 = (m ((c.tc : Thread Cert.KernelIdeal.nD Cert.KernelIdeal.τ).loc Cert.KernelIdeal.main_arg11)) → y12 = (m ((c.tc : Thread Cert.KernelIdeal.nD Cert.KernelIdeal.τ).loc Cert.KernelIdeal.main_arg12)) → y13 = (m ((c.tc : Thread Cert.KernelIdeal.nD Cert.KernelIdeal.τ).loc Cert.KernelIdeal.main_arg13)) → y14 = (m ((c.tc : Thread Cert.KernelIdeal.nD Cert.KernelIdeal.τ).loc Cert.KernelIdeal.main_arg14)) → y15 = (m ((c.tc : Thread Cert.KernelIdeal.nD Cert.KernelIdeal.τ).loc Cert.KernelIdeal.main_arg15)) → y16 = (m ((c.tc : Thread Cert.KernelIdeal.nD Cert.KernelIdeal.τ).loc Cert.KernelIdeal.main_arg16)) → y17 = (m ((c.tc : Thread Cert.KernelIdeal.nD Cert.KernelIdeal.τ).loc Cert.KernelIdeal.main_arg17)) → y18 = (m ((c.tc : Thread Cert.KernelIdeal.nD Cert.KernelIdeal.τ).loc Cert.KernelIdeal.main_arg18)) → y19 = (m ((c.tc : Thread Cert.KernelIdeal.nD Cert.KernelIdeal.τ).loc Cert.KernelIdeal.main_arg19)) → y20 = (m ((c.tc : Thread Cert.KernelIdeal.nD Cert.KernelIdeal.τ).loc Cert.KernelIdeal.main_arg20)) → y21 = (m ((c.tc : Thread Cert.KernelIdeal.nD Cert.KernelIdeal.τ).loc Cert.KernelIdeal.main_arg21)) → y22 = (m ((c.tc : Thread Cert.KernelIdeal.nD Cert.KernelIdeal.τ).loc Cert.KernelIdeal.main_arg22)) →
        Cert.ReferenceIdeal.Read.val_main_v95 (F := Ideal) y0 y1 y2 y3 y4 y5 y6 y7 y8 y9 y10 y11 y12 y13 y14 y15 y16 y17 y18 y19 y20 y21 y22
          = Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
      intro y0 y1 y2 y3 y4 y5 y6 y7 y8 y9 y10 y11 y12 y13 y14 y15 y16 y17 y18 y19 y20 y21 y22 h0 h1 h2 h3 h4 h5 h6 h7 h8 h9 h10 h11 h12 h13 h14 h15 h16 h17 h18 h19 h20 h21 h22
      subst h0 h1 h2 h3 h4 h5 h6 h7 h8 h9 h10 h11 h12 h13 h14 h15 h16 h17 h18 h19 h20 h21 h22
      rfl
    obtain ⟨ah0, ah1, ah2, ah3, ah4, ah5, ah6, ah7, ah8, ah9, ah10, ah11, ah12, ah13, ah14, ah15, ah16, ah17, ah18, ah19, ah20, ah21, ah22⟩ := hagree c
    exact (Cert.ReferenceIdeal.Read.val_main_v95_eq m' c).trans
      (key _ _ _ _ _ _ _ _ _ _ _ _ _ _ _ _ _ _ _ _ _ _ _ ah0 ah1 ah2 ah3 ah4 ah5 ah6 ah7 ah8 ah9 ah10 ah11 ah12 ah13 ah14 ah15 ah16 ah17 ah18 ah19 ah20 ah21 ah22)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
